-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x3200000 : Shape := ⟨2, ![2, 3200000]⟩
abbrev S5x64 : Shape := ⟨2, ![5, 64]⟩
abbrev S64 : Shape := ⟨1, ![64]⟩
abbrev S64x64 : Shape := ⟨2, ![64, 64]⟩
abbrev S70x32 : Shape := ⟨2, ![70, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S70x32 : S_.BroadcastsInDim S70x32 (![] : Fin 0 → Fin S70x32.rank)
  reducesTo_S70x32_S_d0_1 : S70x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S32x2 .f32) (main_arg9 : FVec F S2 .f32) (main_v33 : IVec S_ 1) : IVec S_ 1 :=
  let main_v34 : FVec F S32x2 .f32 := Host.absf main_arg8
  let main_cst_12 : FVec F S_ .f32 := constant S_ .f32 0x7F800000#32
  let main_v35 : FVec F S32x2 .f32 := broadcastInDim S32x2 ![] bcast_S_S32x2 main_cst_12
  let main_v36 : IVec S32x2 1 := cmpf .olt main_v34 main_v35
  let main_c_13 : IVec S_ 1 := constantI S_ 1 1#1
  let main_v37 : IVec S_ 1 := (fun x v => Host.reduce IntOp.andi x v reducesTo_S32x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64 .f32) (main_arg6 : FVec F S70x32 .f32) (main_arg7 : FVec F S32 .f32) (main_arg8 : FVec F S32x2 .f32) (main_arg9 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S70x32 .f32 := Host.absf main_arg6
  let main_cst_8 : FVec F S_ .f32 := constant S_ .f32 0x7F800000#32
  let main_v25 : FVec F S70x32 .f32 := broadcastInDim S70x32 ![] bcast_S_S70x32 main_cst_8
  let main_v26 : IVec S70x32 1 := cmpf .olt main_v24 main_v25
  let main_c_9 : IVec S_ 1 := constantI S_ 1 1#1
  let main_v27 : IVec S_ 1 := (fun x v => Host.reduce IntOp.andi x v reducesTo_S70x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x5 .f32) (main_arg1 : IVec S2x3200000 32) (main_arg2 : FVec F S5x64 .f32) (main_arg3 : FVec F S64 .f32) (main_arg4 : FVec F S64x64 .f32) (main_arg5 : FVec F S64 .f32) (main_arg6 : FVec F S70x32 .f32) (main_arg7 : FVec F S32 .f32) (main_arg8 : FVec F S32x2 .f32) (main_arg9 : FVec F S2 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x64 .f32 := Host.absf main_arg2
  let main_cst_0 : FVec F S_ .f32 := constant S_ .f32 0x7F800000#32
  let main_v5 : FVec F S5x64 .f32 := broadcastInDim S5x64 ![] bcast_S_S5x64 main_cst_0
  let main_v6 : IVec S5x64 1 := cmpf .olt main_v4 main_v5
  let main_c_1 : IVec S_ 1 := constantI S_ 1 1#1
  let main_v7 : IVec S_ 1 := (fun x v => Host.reduce IntOp.andi x v reducesTo_S5x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x5 : Shape := ⟨2, ![100000, 5]⟩
abbrev S2x3200000 : Shape := ⟨2, ![2, 3200000]⟩
abbrev S5x64 : Shape := ⟨2, ![5, 64]⟩
abbrev S64 : Shape := ⟨1, ![64]⟩
abbrev S64x64 : Shape := ⟨2, ![64, 64]⟩
abbrev S70x32 : Shape := ⟨2, ![70, 32]⟩
abbrev S32 : Shape := ⟨1, ![32]⟩
abbrev S32x2 : Shape := ⟨2, ![32, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x5 : Shape := ⟨2, ![5000, 5]⟩
abbrev S5000x64 : Shape := ⟨2, ![5000, 64]⟩
abbrev S3300000x64 : Shape := ⟨2, ![3300000, 64]⟩
abbrev S1x64 : Shape := ⟨2, ![1, 64]⟩
abbrev S1x2 : Shape := ⟨2, ![1, 2]⟩
abbrev S1x128 : Shape := ⟨2, ![1, 128]⟩
abbrev S5000x1 : Shape := ⟨2, ![5000, 1]⟩
abbrev S1 : Shape := ⟨1, ![1]⟩
abbrev S1x1 : Shape := ⟨2, ![1, 1]⟩
abbrev S64x32 : Shape := ⟨2, ![64, 32]⟩
abbrev S1x32 : Shape := ⟨2, ![1, 32]⟩

abbrev nBuf : Space → Nat
  | .hbm => 90
  | .vmem => 30
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S5x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S70x32, .f32⟩
  | .hbm, ⟨7, _⟩ => ⟨S32, .f32⟩
  | .hbm, ⟨8, _⟩ => ⟨S32x2, .f32⟩
  | .hbm, ⟨9, _⟩ => ⟨S2, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S100000x64, .f32⟩
  | .hbm, ⟨54, _⟩ => ⟨S_, .i32⟩
  | .hbm, ⟨55, _⟩ => ⟨S3300000, .i32⟩
  | .hbm, ⟨56, _⟩ => ⟨S3300000, .i1⟩
  | .hbm, ⟨57, _⟩ => ⟨S_, .i32⟩
  | .hbm, ⟨58, _⟩ => ⟨S3300000, .i32⟩
  | .hbm, ⟨59, _⟩ => ⟨S3300000, .i32⟩
  | .hbm, ⟨60, _⟩ => ⟨S3300000, .i32⟩
  | .hbm, ⟨61, _⟩ => ⟨S3300000x1, .i32⟩
  | .hbm, ⟨62, _⟩ => ⟨S3300000x64, .f32⟩
  | .hbm, ⟨63, _⟩ => ⟨S3300000x1, .f32⟩
  | .hbm, ⟨64, _⟩ => ⟨S3300000x64, .f32⟩
  | .hbm, ⟨65, _⟩ => ⟨S3300000x64, .f32⟩
  | .hbm, ⟨66, _⟩ => ⟨S_, .f32⟩
  | .hbm, ⟨67, _⟩ => ⟨S100000x64, .f32⟩
  | .hbm, ⟨68, _⟩ => ⟨S3300000x1, .i32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x64, .f32⟩
  | .hbm, ⟨81, _⟩ => ⟨S3300000x1, .f32⟩
  | .hbm, ⟨82, _⟩ => ⟨S3300000x64, .f32⟩
  | .hbm, ⟨83, _⟩ => ⟨S3300000x64, .f32⟩
  | .hbm, ⟨84, _⟩ => ⟨S_, .f32⟩
  | .hbm, ⟨85, _⟩ => ⟨S100000x64, .f32⟩
  | .hbm, ⟨86, _⟩ => ⟨S3300000x1, .i32⟩
  | .hbm, ⟨87, _⟩ => ⟨S100000x64, .f32⟩
  | .hbm, ⟨88, _⟩ => ⟨S100000x64, .f32⟩
  | .hbm, ⟨89, _⟩ => ⟨S1x2, .f32⟩
  | .local _ .vmem, ⟨0, _⟩ => ⟨S5000x5, .f32⟩
  | .local _ .vmem, ⟨1, _⟩ => ⟨S5000x5, .f32⟩
  | .local _ .vmem, ⟨2, _⟩ => ⟨S5x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x5, .f32⟩
  | .local _ .vmem, ⟨23, _⟩ => ⟨S5000x5, .f32⟩
  | .local _ .vmem, ⟨24, _⟩ => ⟨S70x32, .f32⟩
  | .local _ .vmem, ⟨25, _⟩ => ⟨S32, .f32⟩
  | .local _ .vmem, ⟨26, _⟩ => ⟨S32x2, .f32⟩
  | .local _ .vmem, ⟨27, _⟩ => ⟨S2, .f32⟩
  | .local _ .vmem, ⟨28, _⟩ => ⟨S1x2, .f32⟩
  | .local _ .vmem, ⟨29, _⟩ => ⟨S1x128, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc4_stg6_0 : Ref sig .tc := ⟨.vmem, 28, rfl⟩
abbrev cc4_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26
abbrev cc4_sem5_0 : DmaSem sig := 27
abbrev cc4_sem6_0 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v66 : BitVec 1 := Scalar.cmpi .eq arg0 c19_i32
  let v67 : BitVec 32 := Scalar.extui v66
  let c0_i32_33 : BitVec 32 := 0#32
  let v68 : BitVec 1 := Scalar.cmpi .ne v67 c0_i32_33
  v68

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x5 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S70x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x2 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x64_S5x64_0_0 : ∀ a, (![0, 0] : Fin 2 → Nat) a + S5x64.size a ≤ S5x64.size a
  h_S5x64 : 0 < S5x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S5000x64_S64 : S5000x64.Reduces [0] S64
  slices_S5000x5_o0_0_S5000x1 : S5000x5.Slices ![0, 0] S5000x1
  slices_S5000x5_o0_1_S5000x1 : S5000x5.Slices ![0, 1] S5000x1
  slices_S5000x5_o0_2_S5000x1 : S5000x5.Slices ![0, 2] S5000x1
  slices_S5000x5_o0_3_S5000x1 : S5000x5.Slices ![0, 3] S5000x1
  slices_S5000x5_o0_4_S5000x1 : S5000x5.Slices ![0, 4] S5000x1
  reduces_S5000x1_S1 : S5000x1.Reduces [0] S1
  shapeCasts_S1_S1x1 : S1.ShapeCasts S1x1
  natLt_1_32 : 1 < 32
  inb_S1x128_S1x64_0_0 : ∀ a, (![0, 0] : Fin 2 → Nat) a + S1x64.size a ≤ S1x128.size a
  h_S1x64 : 0 < S1x64.numel
  shapeCasts_S1x64_S1x64 : S1x64.ShapeCasts S1x64
  inb_S1x128_S1x1_0_64 : ∀ a, (![0, 64] : Fin 2 → Nat) a + S1x1.size a ≤ S1x128.size a
  h_S1x1 : 0 < S1x1.numel
  shapeCasts_S1x1_S1x1 : S1x1.ShapeCasts S1x1
  inb_S1x128_S1x1_0_65 : ∀ a, (![0, 65] : Fin 2 → Nat) a + S1x1.size a ≤ S1x128.size a
  inb_S1x128_S1x1_0_66 : ∀ a, (![0, 66] : Fin 2 → Nat) a + S1x1.size a ≤ S1x128.size a
  inb_S1x128_S1x1_0_67 : ∀ a, (![0, 67] : Fin 2 → Nat) a + S1x1.size a ≤ S1x128.size a
  inb_S1x128_S1x1_0_68 : ∀ a, (![0, 68] : Fin 2 → Nat) a + S1x1.size a ≤ S1x128.size a
  inb_S1x128_S1x1_0_69 : ∀ a, (![0, 69] : Fin 2 → Nat) a + S1x1.size a ≤ S1x128.size a
  slices_S1x128_o0_0_S1x64 : S1x128.Slices ![0, 0] S1x64
  slices_S1x128_o0_64_S1x1 : S1x128.Slices ![0, 64] S1x1
  slices_S1x128_o0_65_S1x1 : S1x128.Slices ![0, 65] S1x1
  slices_S1x128_o0_66_S1x1 : S1x128.Slices ![0, 66] S1x1
  slices_S1x128_o0_67_S1x1 : S1x128.Slices ![0, 67] S1x1
  slices_S1x128_o0_68_S1x1 : S1x128.Slices ![0, 68] S1x1
  slices_S1x128_o0_69_S1x1 : S1x128.Slices ![0, 69] S1x1
  inb_S70x32_S70x32_0_0 : ∀ a, (![0, 0] : Fin 2 → Nat) a + S70x32.size a ≤ S70x32.size a
  h_S70x32 : 0 < S70x32.numel
  inb_S32_S32_0 : ∀ a, (![0] : Fin 1 → Nat) a + S32.size a ≤ S32.size a
  h_S32 : 0 < S32.numel
  slices_S70x32_o0_0_S64x32 : S70x32.Slices ![0, 0] S64x32
  slices_S70x32_o64_0_S1x32 : S70x32.Slices ![64, 0] S1x32
  broadcasts_S1x1_S1x32 : S1x1.Broadcasts S1x32
  slices_S70x32_o65_0_S1x32 : S70x32.Slices ![65, 0] S1x32
  slices_S70x32_o66_0_S1x32 : S70x32.Slices ![66, 0] S1x32
  slices_S70x32_o67_0_S1x32 : S70x32.Slices ![67, 0] S1x32
  slices_S70x32_o68_0_S1x32 : S70x32.Slices ![68, 0] S1x32
  slices_S70x32_o69_0_S1x32 : S70x32.Slices ![69, 0] S1x32
  shapeCasts_S32_S1x32 : S32.ShapeCasts S1x32
  inb_S32x2_S32x2_0_0 : ∀ a, (![0, 0] : Fin 2 → Nat) a + S32x2.size a ≤ S32x2.size a
  h_S32x2 : 0 < S32x2.numel
  inb_S2_S2_0 : ∀ a, (![0] : Fin 1 → Nat) a + S2.size a ≤ S2.size a
  h_S2 : 0 < S2.numel
  shapeCasts_S2_S1x2 : S2.ShapeCasts S1x2
  inb_S1x2_S1x2_0_0 : ∀ a, (![0, 0] : Fin 2 → Nat) a + S1x2.size a ≤ S1x2.size a
  h_S1x2 : 0 < S1x2.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x5_S5x64_S5000x64_1_0_0_1_n_n_wf : DotDims.WF S5000x5 S5x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x64_S5000x64_1_0_0_1_n_n_wf : DotDims.WF S5000x64 S64x64 S5000x64 [1] [0] [0] [1] [] []
  dot_S1x64_S64x32_S1x32_1_0_0_1_n_n_wf : DotDims.WF S1x64 S64x32 S1x32 [1] [0] [0] [1] [] []
  dot_S1x32_S32x2_S1x2_1_0_0_1_n_n_wf : DotDims.WF S1x32 S32x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S100000x5.size a
  hwx0_0 : ∀ i : grid0.Coords, EltTy.bits .f32 = 32 ∨ (Rect.block (s := S100000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x5.size a ≤ S100000x5.size a
  hwx4_1 : ∀ i : grid4.Coords, EltTy.bits .f32 = 32 ∨ (Rect.block (s := S100000x5) S5000x5.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S70x32.size a ≤ S70x32.size a
  hwx4_2 : ∀ i : grid4.Coords, EltTy.bits .f32 = 32 ∨ (Rect.block (s := S70x32) S70x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32.size a ≤ S32.size a
  hwx4_3 : ∀ i : grid4.Coords, EltTy.bits .f32 = 32 ∨ (Rect.block (s := S32) S32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32x2.size a ≤ S32x2.size a
  hwx4_4 : ∀ i : grid4.Coords, EltTy.bits .f32 = 32 ∨ (Rect.block (s := S32x2) S32x2.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S2.size a ≤ S2.size a
  hwx4_5 : ∀ i : grid4.Coords, EltTy.bits .f32 = 32 ∨ (Rect.block (s := S2) S2.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x2.size a ≤ S1x2.size a
  hwx4_6 : ∀ i : grid4.Coords, EltTy.bits .f32 = 32 ∨ (Rect.block (s := S1x2) S1x2.size (cc4_transform_6 i) (hinb4_6 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x5_S5x64_S5000x64_1_0_0_1_n_n : DotDims S5000x5 S5x64 S5000x64 where
  lhsContracting := [1]
  rhsContracting := [0]
  lhsNonContracting := [0]
  rhsNonContracting := [1]
  lhsBatch := []
  rhsBatch := []
  wf := dot_S5000x5_S5x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x32_S32x2_S1x2_1_0_0_1_n_n : DotDims S1x32 S32x2 S1x2 where
  lhsContracting := [1]
  rhsContracting := [0]
  lhsNonContracting := [0]
  rhsNonContracting := [1]
  lhsBatch := []
  rhsBatch := []
  wf := dot_S1x32_S32x2_S1x2_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S5000x5.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S70x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg7) S32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg8) S32x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg9) S2.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v62) S1x2.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

class Facts : Prop extends Facts₀ where

variable [Facts]
-- ==== ReferenceIdeal.lean ====
abbrev S100000x5 : Shape := ⟨2, ![100000, 5]⟩
abbrev S2x3200000 : Shape := ⟨2, ![2, 3200000]⟩
abbrev S5x64 : Shape := ⟨2, ![5, 64]⟩
abbrev S64 : Shape := ⟨1, ![64]⟩
abbrev S64x64 : Shape := ⟨2, ![64, 64]⟩
abbrev S70x32 : Shape := ⟨2, ![70, 32]⟩
abbrev S32 : Shape := ⟨1, ![32]⟩
abbrev S32x2 : Shape := ⟨2, ![32, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S1 : Shape := ⟨1, ![1]⟩
abbrev S6 : Shape := ⟨1, ![6]⟩
abbrev S1x6 : Shape := ⟨2, ![1, 6]⟩
abbrev S1x70 : Shape := ⟨2, ![1, 70]⟩
abbrev S1x32 : Shape := ⟨2, ![1, 32]⟩
abbrev S1x2 : Shape := ⟨2, ![1, 2]⟩

abbrev nBuf : Space → Nat
  | .hbm => 182
  | .vmem => 0
  | .smem => 0
  | _ => 0

abbrev hbmTy0_0 (i : Nat) : BufTy := match i % 128 with
  | 0 => ⟨S100000x5, .f32⟩
  | 1 => ⟨S2x3200000, .i32⟩
  | 2 => ⟨S5x64, .f32⟩
  | 3 => ⟨S64, .f32⟩
  | 4 => ⟨S64x64, .f32⟩
  | 5 => ⟨S64, .f32⟩
  | 6 => ⟨S70x32, .f32⟩
  | 7 => ⟨S32, .f32⟩
  | 8 => ⟨S32x2, .f32⟩
  | 9 => ⟨S2, .f32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S100000x64, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x64, .f32⟩
  | 63 => ⟨S3300000x1, .f32⟩
  | 64 => ⟨S3300000x64, .f32⟩
  | 65 => ⟨S3300000x64, .f32⟩
  | 66 => ⟨S_, .f32⟩
  | 67 => ⟨S100000x64, .f32⟩
  | 68 => ⟨S3300000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S_, .i32⟩
  | 78 => ⟨S3300000, .i32⟩
  | 79 => ⟨S3300000, .i1⟩
  | 80 => ⟨S_, .i32⟩
  | 81 => ⟨S3300000, .i32⟩
  | 82 => ⟨S3300000, .i32⟩
  | 83 => ⟨S3300000, .i32⟩
  | 84 => ⟨S3300000x1, .i32⟩
  | 85 => ⟨S3300000x64, .f32⟩
  | 86 => ⟨S3300000x1, .f32⟩
  | 87 => ⟨S3300000x64, .f32⟩
  | 88 => ⟨S3300000x64, .f32⟩
  | 89 => ⟨S_, .f32⟩
  | 90 => ⟨S100000x64, .f32⟩
  | 91 => ⟨S3300000x1, .i32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S_, .f32⟩
  | 100 => ⟨S64, .f32⟩
  | 101 => ⟨S1x64, .f32⟩
  | 102 => ⟨S_, .f32⟩
  | 103 => ⟨S1x64, .f32⟩
  | 104 => ⟨S1x64, .f32⟩
  | 105 => ⟨S100000x1, .f32⟩
  | 106 => ⟨S100000, .f32⟩
  | 107 => ⟨S_, .f32⟩
  | 108 => ⟨S_, .f32⟩
  | 109 => ⟨S100000x1, .f32⟩
  | 110 => ⟨S100000, .f32⟩
  | 111 => ⟨S_, .f32⟩
  | 112 => ⟨S_, .f32⟩
  | 113 => ⟨S100000x1, .f32⟩
  | 114 => ⟨S100000, .f32⟩
  | 115 => ⟨S_, .f32⟩
  | 116 => ⟨S_, .f32⟩
  | 117 => ⟨S100000x1, .f32⟩
  | 118 => ⟨S100000, .f32⟩
  | 119 => ⟨S_, .f32⟩
  | 120 => ⟨S100000, .f32⟩
  | 121 => ⟨S100000, .i1⟩
  | 122 => ⟨S100000, .f32⟩
  | 123 => ⟨S_, .f32⟩
  | 124 => ⟨S_, .f32⟩
  | 125 => ⟨S_, .f32⟩
  | 126 => ⟨S_, .f32⟩
  | 127 => ⟨S_, .f32⟩
  | _ => ⟨S100000x5, .f32⟩

abbrev hbmTy0_1 (i : Nat) : BufTy := match i % 128 with
  | 0 => ⟨S_, .i1⟩
  | 1 => ⟨S100000x1, .f32⟩
  | 2 => ⟨S100000, .f32⟩
  | 3 => ⟨S100000, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .i1⟩
  | 12 => ⟨S100000x1, .f32⟩
  | 13 => ⟨S100000, .f32⟩
  | 14 => ⟨S100000, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S1, .f32⟩
  | 23 => ⟨S1, .f32⟩
  | 24 => ⟨S1, .f32⟩
  | 25 => ⟨S1, .f32⟩
  | 26 => ⟨S1, .f32⟩
  | 27 => ⟨S1, .f32⟩
  | 28 => ⟨S6, .f32⟩
  | 29 => ⟨S1x6, .f32⟩
  | 30 => ⟨S1x70, .f32⟩
  | 31 => ⟨S1x32, .f32⟩
  | 32 => ⟨S1x32, .f32⟩
  | 33 => ⟨S1x32, .f32⟩
  | 34 => ⟨S_, .f32⟩
  | 35 => ⟨S1x32, .f32⟩
  | 36 => ⟨S1x32, .f32⟩
  | 37 => ⟨S1x2, .f32⟩
  | 38 => ⟨S1x2, .f32⟩
  | 39 => ⟨S1x2, .f32⟩
  | 40 => ⟨S1x2, .f32⟩
  | 41 => ⟨S1x2, .f32⟩
  | 42 => ⟨S_, .f32⟩
  | 43 => ⟨S1x2, .f32⟩
  | 44 => ⟨S1x2, .f32⟩
  | 45 => ⟨S_, .f32⟩
  | 46 => ⟨S1x2, .f32⟩
  | 47 => ⟨S1x2, .f32⟩
  | 48 => ⟨S_, .f32⟩
  | 49 => ⟨S1x2, .f32⟩
  | 50 => ⟨S1x2, .f32⟩
  | 51 => ⟨S_, .f32⟩
  | 52 => ⟨S1x2, .f32⟩
  | 53 => ⟨S1x2, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_cst_13 : Ref sig .tc := ⟨.hbm, 99, rfl⟩
abbrev main_v68 : Ref sig .tc := ⟨.hbm, 100, rfl⟩
abbrev main_v69 : Ref sig .tc := ⟨.hbm, 101, rfl⟩
abbrev main_cst_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_15 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_16 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_17 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_18 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_19 : Ref sig .tc := ⟨.hbm, 123, rfl⟩
abbrev main_v86 : Ref sig .tc := ⟨.hbm, 124, rfl⟩
abbrev main_cst_20 : Ref sig .tc := ⟨.hbm, 125, rfl⟩
abbrev main_v87 : Ref sig .tc := ⟨.hbm, 126, rfl⟩
abbrev main_cst_21 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_22 : Ref sig .tc := ⟨.hbm, 132, rfl⟩
abbrev main_v92 : Ref sig .tc := ⟨.hbm, 133, rfl⟩
abbrev main_v93 : Ref sig .tc := ⟨.hbm, 134, rfl⟩
abbrev main_cst_23 : Ref sig .tc := ⟨.hbm, 135, rfl⟩
abbrev main_call3_v0 : Ref sig .tc := ⟨.hbm, 136, rfl⟩
abbrev main_v94 : Ref sig .tc := ⟨.hbm, 137, rfl⟩
abbrev main_cst_24 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_25 : Ref sig .tc := ⟨.hbm, 143, rfl⟩
abbrev main_v99 : Ref sig .tc := ⟨.hbm, 144, rfl⟩
abbrev main_v100 : Ref sig .tc := ⟨.hbm, 145, rfl⟩
abbrev main_cst_26 : Ref sig .tc := ⟨.hbm, 146, rfl⟩
abbrev main_call4_v0 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_call5_cst : Ref sig .tc := ⟨.hbm, 162, rfl⟩
abbrev main_call5_v0 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_cst_27 : Ref sig .tc := ⟨.hbm, 170, rfl⟩
abbrev main_v121 : Ref sig .tc := ⟨.hbm, 171, rfl⟩
abbrev main_v122 : Ref sig .tc := ⟨.hbm, 172, rfl⟩
abbrev main_cst_28 : Ref sig .tc := ⟨.hbm, 173, rfl⟩
abbrev main_v123 : Ref sig .tc := ⟨.hbm, 174, rfl⟩
abbrev main_v124 : Ref sig .tc := ⟨.hbm, 175, rfl⟩
abbrev main_cst_29 : Ref sig .tc := ⟨.hbm, 176, rfl⟩
abbrev main_v125 : Ref sig .tc := ⟨.hbm, 177, rfl⟩
abbrev main_v126 : Ref sig .tc := ⟨.hbm, 178, rfl⟩
abbrev main_cst_30 : Ref sig .tc := ⟨.hbm, 179, rfl⟩
abbrev main_v127 : Ref sig .tc := ⟨.hbm, 180, rfl⟩
abbrev main_v128 : Ref sig .tc := ⟨.hbm, 181, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S1x64 : S_.BroadcastsInDim S1x64 (![] : Fin 0 → Fin S1x64.rank)
  slices_S100000x5_S100000x1_0_2 : S100000x5.Slices ![0, 2] S100000x1
  shapeCasts_S100000x1_S100000 : S100000x1.ShapeCasts S100000
  reducesTo_S100000_S_d0 : S100000.ReducesTo [0] S_
  slices_S100000x5_S100000x1_0_3 : S100000x5.Slices ![0, 3] S100000x1
  slices_S100000x5_S100000x1_0_4 : S100000x5.Slices ![0, 4] S100000x1
  slices_S100000x5_S100000x1_0_0 : S100000x5.Slices ![0, 0] S100000x1
  slices_S100000x5_S100000x1_0_1 : S100000x5.Slices ![0, 1] S100000x1
  bcast_S_S1 : S_.BroadcastsInDim S1 (![] : Fin 0 → Fin S1.rank)
  concatenates_S1_S1_S1_S1_S1_S1_S6_d0 : Shape.Concatenates [S1, S1, S1, S1, S1, S1] S6 0
  bcast_S6_S1x6_1 : S6.BroadcastsInDim S1x6 (![1] : Fin 1 → Fin S1x6.rank)
  concatenates_S1x64_S1x6_S1x70_d1 : Shape.Concatenates [S1x64, S1x6] S1x70 1
  bcast_S32_S1x32_1 : S32.BroadcastsInDim S1x32 (![1] : Fin 1 → Fin S1x32.rank)
  bcast_S_S1x32 : S_.BroadcastsInDim S1x32 (![] : Fin 0 → Fin S1x32.rank)
  bcast_S2_S1x2_1 : S2.BroadcastsInDim S1x2 (![1] : Fin 1 → Fin S1x2.rank)
  bcast_S_S1x2 : S_.BroadcastsInDim S1x2 (![] : Fin 0 → Fin S1x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x5_S5x64_S100000x64_1_0_0_1_n_n_wf : DotDims.WF S100000x5 S5x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S1x70_S70x32_S1x32_1_0_0_1_n_n_wf : DotDims.WF S1x70 S70x32 S1x32 [1] [0] [0] [1] [] []
  dot_S1x32_S32x2_S1x2_1_0_0_1_n_n_wf : DotDims.WF S1x32 S32x2 S1x2 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x5_S5x64_S100000x64_1_0_0_1_n_n : DotDims S100000x5 S5x64 S100000x64 where
  lhsContracting := [1]
  rhsContracting := [0]
  lhsNonContracting := [0]
  rhsNonContracting := [1]
  lhsBatch := []
  rhsBatch := []
  wf := dot_S100000x5_S5x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1x70_S70x32_S1x32_1_0_0_1_n_n : DotDims S1x70 S70x32 S1x32 where
  lhsContracting := [1]
  rhsContracting := [0]
  lhsNonContracting := [0]
  rhsNonContracting := [1]
  lhsBatch := []
  rhsBatch := []
  wf := dot_S1x70_S70x32_S1x32_1_0_0_1_n_n_wf
def dot_S1x32_S32x2_S1x2_1_0_0_1_n_n : DotDims S1x32 S32x2 S1x2 where
  lhsContracting := [1]
  rhsContracting := [0]
  lhsNonContracting := [0]
  rhsNonContracting := [1]
  lhsBatch := []
  rhsBatch := []
  wf := dot_S1x32_S32x2_S1x2_1_0_0_1_n_n_wf

class Facts : Prop extends Facts₀ where

variable [Facts]
-- ==== Proof.K.Region0.lean ====
/-
  Region 0 of the program's @main: the first layer's linear map, rows of x times the weight matrix (a matrix product into a zero accumulator).
  The region's grid has 20 points; point t stages rows 5000·t … 5000·t + 4999 of its first operand, the whole of its second
  operand (staged once, at the first point, and kept), and writes back rows 5000·t … 5000·t + 4999 of its result. This module
  states, at any contents `V` of the core's buffers when the region is entered, what the body leaves in the result's staging
  buffer as a function of the two staged blocks, the body's specification, the pipeline's proof data over it and the body
  obligation at every grid point. The region's invariant carries nothing but the scoped rest and the generator register.
-/
import proofs.«101636_j2104533975212_1_alg».proof.Proof.Gen.Kernel.Launch
import proofs.«101636_j2104533975212_1_alg».proof.Proof.Gen.Kernel.Skeleton
import proofs.«101636_j2104533975212_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is decided by a structural recursion once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first operand's current staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second operand's staging buffer holds the operand at every point: it is fetched at the first point and its block index
    never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads and stores through: each is its whole buffer. -/
abbrev r0_0 : Rect S5000x5 := Rect.unit (s := S5000x5) ![0, 0] S5000x5.size inb_S5000x5_S5000x5_0_0
abbrev r0_1 : Rect S5x64 := Rect.unit (s := S5x64) ![0, 0] S5x64.size inb_S5x64_S5x64_0_0
abbrev r0_2 : Rect S5000x64 := Rect.unit (s := S5000x64) ![0, 0] S5000x64.size inb_S5000x64_S5000x64_0_0

/-- The result's staging buffer after the body, from the two staged blocks: one store of the whole buffer. -/
def out0_2 (x0 : Vec F S5000x5 .f32) (x1 : Vec F S5x64 .f32) : Vec F S5000x64 .f32 :=
  View.canon [⟨r0_2, k0_pay1 (View.ld x0 r0_0) (View.ld x1 r0_1)⟩]

/-- That store covers the buffer. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

set_option maxHeartbeats 1000000 in
/-- The body on whole staging memrefs, the operands' at contents `x0`, `x1` and the result's at anything, runs to the
    continuation holding the operands' as they were and the result's at `out0_2 x0 x1`. -/
theorem sound_kernel0 (c : Dev nD) (E : Set ℕ) (i : grid0.Coords) (arg1 : Memref sig .tc .vmem S5000x5 .f32) (harg1 : arg1.IsWhole)
    (arg2 : Memref sig .tc .vmem S5x64 .f32) (harg2 : arg2.IsWhole) (arg3 : Memref sig .tc .vmem S5000x64 .f32) (harg3 : arg3.IsWhole)
    (x0 : Vec F S5000x5 .f32) (x1 : Vec F S5x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this region's pipeline on core `c`: the arrays as the region finds them; after the body at point `t`
    each operand's buffer at its block and the result's at `out0_2` of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' memrefs hold their blocks, so the body's specification applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 of the program's @main: the first layer's bias and clip at zero, max(agg + b, 0) row by row.
  The region's grid has 20 points; point t stages rows 5000·t … 5000·t + 4999 of its first operand, the whole of its second
  operand (staged once, at the first point, and kept), and writes back rows 5000·t … 5000·t + 4999 of its result. This module
  states, at any contents `V` of the core's buffers when the region is entered, what the body leaves in the result's staging
  buffer as a function of the two staged blocks, the body's specification, the pipeline's proof data over it and the body
  obligation at every grid point. The region's invariant carries nothing but the scoped rest and the generator register.
-/
import proofs.«101636_j2104533975212_1_alg».proof.Proof.Gen.Kernel.Launch
import proofs.«101636_j2104533975212_1_alg».proof.Proof.Gen.Kernel.Skeleton
import proofs.«101636_j2104533975212_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is decided by a structural recursion once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first operand's current staging buffer holds its block at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second operand's staging buffer holds the operand at every point: it is fetched at the first point and its block index
    never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads and stores through: each is its whole buffer. -/
abbrev r1_0 : Rect S5000x64 := Rect.unit (s := S5000x64) ![0, 0] S5000x64.size inb_S5000x64_S5000x64_0_0
abbrev r1_1 : Rect S64 := Rect.unit (s := S64) ![0] S64.size inb_S64_S64_0
abbrev r1_2 : Rect S5000x64 := Rect.unit (s := S5000x64) ![0, 0] S5000x64.size inb_S5000x64_S5000x64_0_0

/-- The result's staging buffer after the body, from the two staged blocks: one store of the whole buffer. -/
def out1_2 (x0 : Vec F S5000x64 .f32) (x1 : Vec F S64 .f32) : Vec F S5000x64 .f32 :=
  View.canon [⟨r1_2, k1_pay1 (View.ld x0 r1_0) (View.ld x1 r1_1)⟩]

/-- That store covers the buffer. -/
theorem cover1_2 (p0 : Vec F S5000x64 .f32) (y : S5000x64.Idx) :
    ∃ pc ∈ ([⟨r1_2, p0⟩] : List (View.Piece (Elt F) S5000x64 .f32)), y ∈ pc.1.set :=
  View.cover_of_tiled [⟨r1_2, p0⟩] S5000x64.size (by rfl) y

set_option maxHeartbeats 1000000 in
/-- The body on whole staging memrefs, the operands' at contents `x0`, `x1` and the result's at anything, runs to the
    continuation holding the operands' as they were and the result's at `out1_2 x0 x1`. -/
theorem sound_kernel1 (c : Dev nD) (E : Set ℕ) (i : grid1.Coords) (arg1 : Memref sig .tc .vmem S5000x64 .f32) (harg1 : arg1.IsWhole)
    (arg2 : Memref sig .tc .vmem S64 .f32) (harg2 : arg2.IsWhole) (arg3 : Memref sig .tc .vmem S5000x64 .f32) (harg3 : arg3.IsWhole)
    (x0 : Vec F S5000x64 .f32) (x1 : Vec F S64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this region's pipeline on core `c`: the arrays as the region finds them; after the body at point `t`
    each operand's buffer at its block and the result's at `out1_2` of the two blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the operands' memrefs hold their blocks, so the body's specification applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  Region 2 of the program's @main: the second layer's linear map, rows of the first layer's output times the weight matrix.
  The region's grid has 20 points; point t stages rows 5000·t … 5000·t + 4999 of its first operand, the whole of its second
  operand (staged once, at the first point, and kept), and writes back rows 5000·t … 5000·t + 4999 of its result. This module
  states, at any contents `V` of the core's buffers when the region is entered, what the body leaves in the result's staging
  buffer as a function of the two staged blocks, the body's specification, the pipeline's proof data over it and the body
  obligation at every grid point. The region's invariant carries nothing but the scoped rest and the generator register.
-/
import proofs.«101636_j2104533975212_1_alg».proof.Proof.Gen.Kernel.Launch
import proofs.«101636_j2104533975212_1_alg».proof.Proof.Gen.Kernel.Skeleton
import proofs.«101636_j2104533975212_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is decided by a structural recursion once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first operand's current staging buffer holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second operand's staging buffer holds the operand at every point: it is fetched at the first point and its block index
    never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body loads and stores through: each is its whole buffer. -/
abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S5000x64 := Rect.unit (s := S5000x64) ![0, 0] S5000x64.size inb_S5000x64_S5000x64_0_0

/-- The result's staging buffer after the body, from the two staged blocks: one store of the whole buffer. -/
def out2_2 (x0 : Vec F S5000x64 .f32) (x1 : Vec F S64x64 .f32) : Vec F S5000x64 .f32 :=
  View.canon [⟨r2_2, k2_pay1 (View.ld x0 r2_0) (View.ld x1 r2_1)⟩]

/-- That store covers the buffer. -/
theorem cover2_2 (p0 : Vec F S5000x64 .f32) (y : S5000x64.Idx) :
    ∃ pc ∈ ([⟨r2_2, p0⟩] : List (View.Piece (Elt F) S5000x64 .f32)), y ∈ pc.1.set :=
  View.cover_of_tiled [⟨r2_2, p0⟩] S5000x64.size (by rfl) y

set_option maxHeartbeats 1000000 in
/-- The body on whole staging memrefs, the operands' at contents `x0`, `x1` and the result's at anything, runs to the
    continuation holding the operands' as they were and the result's at `out2_2 x0 x1`. -/
theorem sound_kernel2 (c : Dev nD) (E : Set ℕ) (i : grid2.Coords) (arg1 : Memref sig .tc .vmem S5000x64 .f32) (harg1 : arg1.IsWhole)
    (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this region's pipeline on core `c`: the arrays as the region finds them; after the body at point `t`
    each operand's buffer at its block and the result's at `out2_2` of the two blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the operands' memrefs hold their blocks, so the body's specification applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
/-
  Region 3 of the program's @main: the second layer's bias and clip at zero, max(agg + b, 0) row by row.
  The region's grid has 20 points; point t stages rows 5000·t … 5000·t + 4999 of its first operand, the whole of its second
  operand (staged once, at the first point, and kept), and writes back rows 5000·t … 5000·t + 4999 of its result. This module
  states, at any contents `V` of the core's buffers when the region is entered, what the body leaves in the result's staging
  buffer as a function of the two staged blocks, the body's specification, the pipeline's proof data over it and the body
  obligation at every grid point. The region's invariant carries nothing but the scoped rest and the generator register.
-/
import proofs.«101636_j2104533975212_1_alg».proof.Proof.Gen.Kernel.Launch
import proofs.«101636_j2104533975212_1_alg».proof.Proof.Gen.Kernel.Skeleton
import proofs.«101636_j2104533975212_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is decided by a structural recursion once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first operand's current staging buffer holds its block at every point, for any proof data whose array is `V`'s and
    whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The second operand's staging buffer holds the operand at every point: it is fetched at the first point and its block index
    never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body loads and stores through: each is its whole buffer. -/
abbrev r3_0 : Rect S5000x64 := Rect.unit (s := S5000x64) ![0, 0] S5000x64.size inb_S5000x64_S5000x64_0_0
abbrev r3_1 : Rect S64 := Rect.unit (s := S64) ![0] S64.size inb_S64_S64_0
abbrev r3_2 : Rect S5000x64 := Rect.unit (s := S5000x64) ![0, 0] S5000x64.size inb_S5000x64_S5000x64_0_0

/-- The result's staging buffer after the body, from the two staged blocks: one store of the whole buffer. -/
def out3_2 (x0 : Vec F S5000x64 .f32) (x1 : Vec F S64 .f32) : Vec F S5000x64 .f32 :=
  View.canon [⟨r3_2, k3_pay1 (View.ld x0 r3_0) (View.ld x1 r3_1)⟩]

/-- That store covers the buffer. -/
theorem cover3_2 (p0 : Vec F S5000x64 .f32) (y : S5000x64.Idx) :
    ∃ pc ∈ ([⟨r3_2, p0⟩] : List (View.Piece (Elt F) S5000x64 .f32)), y ∈ pc.1.set :=
  View.cover_of_tiled [⟨r3_2, p0⟩] S5000x64.size (by rfl) y

set_option maxHeartbeats 1000000 in
/-- The body on whole staging memrefs, the operands' at contents `x0`, `x1` and the result's at anything, runs to the
    continuation holding the operands' as they were and the result's at `out3_2 x0 x1`. -/
theorem sound_kernel3 (c : Dev nD) (E : Set ℕ) (i : grid3.Coords) (arg1 : Memref sig .tc .vmem S5000x64 .f32) (harg1 : arg1.IsWhole)
    (arg2 : Memref sig .tc .vmem S64 .f32) (harg2 : arg2.IsWhole) (arg3 : Memref sig .tc .vmem S5000x64 .f32) (harg3 : arg3.IsWhole)
    (x0 : Vec F S5000x64 .f32) (x1 : Vec F S64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this region's pipeline on core `c`: the arrays as the region finds them; after the body at point `t`
    each operand's buffer at its block and the result's at `out3_2` of the two blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the operands' memrefs hold their blocks, so the body's specification applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Region4Base.lean ====
/-
  Region 4 of the program's @main, the pooling and the head: what its three per-case body runs and its proof data share.
  The grid has 20 points. Point t stages rows 5000·t … 5000·t + 4999 of the second layer's output and of x, and the four
  weight arrays whole (staged once); the [1,2] result is written back after the last point only. A [1,128] scratch buffer of
  the kernel's own carries 70 running sums from point to point: it is zero-filled at the first point, and at every point
  seven slices of it (columns 0–63, then 64, …, 69) are read, increased by the point's partial sums and stored back.
  Here: the windows' blocks; the two branch conditions (first point, last point) in closed form, decided over the grid;
  where the result window is idle; the staging and scratch memrefs; and the region's scoped rest split around the scratch.
-/
import proofs.«101636_j2104533975212_1_alg».proof.Proof.Gen.Kernel.Launch
import proofs.«101636_j2104533975212_1_alg».proof.Proof.Gen.Kernel.Skeleton
import proofs.«101636_j2104533975212_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is decided by a structural recursion once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the core's buffer contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input window's current staging buffer holds its block at every point, fetched there or not, for any proof data whose
    array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
end

/-! ## The body's two branch conditions -/

/-- "This is the first grid point" (the zero-fill of the scratch is under it). -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
/-- "This is the last grid point" (the head is under it). -/
abbrev cond4_1 (i : grid4.Coords) : Prop := k4_cond2 i = 1#1
theorem hcond4_1 : ∀ t : Fin cfg4.N, cond4_1 (grid4.coords t) ↔ t.val = 19 :=
  (by decide +kernel : ∀ t : Fin grid4.N, cond4_1 (grid4.coords t) ↔ t.val = 19)

/-! ## Where the windows are idle -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
/-- Away from the last point the result window is idle and is not written back. -/
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
/-- At the last point it is live. -/
theorem liveAt4_6 : ∀ t : Fin cfg4.N, cond4_1 (grid4.coords t) → cfg4.idle 6 (grid4.coords t) = false := by decide +kernel

/-! ## The staging and scratch memrefs -/
abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x5 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S70x32 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S32 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S32x2 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S2 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x2 .f32 := win4_6.stage (cfg4.slots t 6)
abbrev hs4_6 (t : Fin cfg4.N) : (ms4_6 t).IsWhole := hstage4_6 ((cfg4.slots t 6).cast nbuf4_6)
/-- The scratch operand: a whole scoped buffer of the kernel's own, passed beside the windows. -/
abbrev scM4 : Memref sig .tc .vmem S1x128 .f32 := Memref.whole cc4_scratch0
/-- One staging buffer of the result window, through which an idle point's placeholder contents are stated. -/
abbrev VO4_6 : View sig .tc .vmem S1x2 .f32 := (Memref.whole cc4_stg6_0 : Memref sig .tc .vmem S1x2 .f32).view

/-! ## The scoped rest, split around the scratch -/

/-- The region's scoped rest with `P` in the scratch buffer's place: the other regions' twenty staging buffers, each whole at
    some contents, beside `P`. -/
def withScr4 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ P)

/-- The class's invariant (the scoped rest and the generator register) with the scratch as a memref owned at some contents. -/
theorem PhiA4_eq (c : Dev nD) :
    (Pipeline.ΦA spec4 c : sProp 𝕄)
      = iprop(withScr4 c (iprop(∃ d, owns (c : Thread nD τ) scM4 fullShare d)) ∗ (∃ r, prngReg c r)) := by
  unfold Pipeline.ΦA withScr4; rw [scopedRest4_eq]; simp only [scM4, owns_whole]; try rfl

/-- The other regions' twenty staging buffers, each whole at some contents. -/
def others4 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f))

/-- Take what stands in the scratch's place out … -/
theorem withScr4_out (c : Dev nD) (P : sProp 𝕄) : withScr4 c P ⊢ iprop(others4 c ∗ P) := by
  unfold withScr4 others4
  iintro ⟨H0, H1, H2, H3, H4, H5, H6, H7, H8, H9, H10, H11, H12, H13, H14, H15, H16, H17, H18, H19, HP⟩
  isplitr [HP]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iexact HP

/-- … and put something back. -/
theorem withScr4_in (c : Dev nD) (Q : sProp 𝕄) : iprop(others4 c ∗ Q) ⊢ withScr4 c Q := by
  unfold withScr4 others4
  iintro ⟨⟨H0, H1, H2, H3, H4, H5, H6, H7, H8, H9, H10, H11, H12, H13, H14, H15, H16, H17, H18, H19⟩, HQ⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact HQ

end Cert.Kernel.Hand

end
-- ==== Proof.K.Region4RunA.lean ====
/-
  Region 4's kernel body run whole at the first grid point (the zero-fill taken, the head not): on whole staging memrefs — the six inputs' at their contents, the result's at contents handed back untouched, the
  scratch at anything — the body runs to the continuation holding the inputs' as they were, and the
  scratch with its stores written over whatever it held (the first of them fills it whole). The lists of stores (last first) are the witnesses the run finds.
-/
import proofs.«101636_j2104533975212_1_alg».proof.Proof.K.Region4Base

-- membership in a rectangle of 5000 rows is decided by a structural recursion once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: closing the definition walks it past the default budget
set_option maxHeartbeats 4000000 in
noncomputable def kernelRun4_A (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (arg8 : Memref sig .tc .vmem S1x128 .f32) (harg8 : arg8.IsWhole) (hc0 : cond4_0 i) (hc1 : ¬cond4_1 i)
    (x0 : Vec F S5000x64 .f32) (x1 : Vec F S5000x5 .f32) (x2 : Vec F S70x32 .f32) (x3 : Vec F S32 .f32) (x4 : Vec F S32x2 .f32) (x5 : Vec F S2 .f32) :
    Σ' (L6 : List (View.Piece (Elt F) S1x2 .f32)), { LS : List (View.Piece (Elt F) S1x128 .f32) //
      ∀ (xi6 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS)) -∗ K ⟨⟩))
          ⊢ wp frame (wpE (defs₀ (F := F)) Variants.none c none) E (cc4__pool_head_kernel i arg1 harg1 arg2 harg2 arg3 harg3 arg4 harg4 arg5 harg5 arg6 harg6 arg7 harg7 arg8 harg8) K } := by
  refine ⟨[], ?_, fun xi6 E K => ?run⟩
  case run =>
    simp only [cc4__pool_head_kernel_eq_skeleton]; unfold cc4__pool_head_kernel_skel
    simp only [k4_part1_eq_skeleton, k4_part2_eq_skeleton, k4_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS

end Cert.Kernel.Hand

end
-- ==== Proof.K.Region4RunB.lean ====
/-
  Region 4's kernel body run whole at a grid point that is neither the first nor the last (neither branch taken): on whole staging memrefs — the six inputs' at their contents, the result's at contents handed back untouched, the
  scratch at the contents `xs` the point before left — the body runs to the continuation holding the inputs' as they were, and the
  scratch with its stores written over exactly the contents it was entered with. The lists of stores (last first) are the witnesses the run finds.
-/
import proofs.«101636_j2104533975212_1_alg».proof.Proof.K.Region4RunA

-- membership in a rectangle of 5000 rows is decided by a structural recursion once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: closing the definition walks it past the default budget
set_option maxHeartbeats 4000000 in
noncomputable def kernelRun4_B (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (arg8 : Memref sig .tc .vmem S1x128 .f32) (harg8 : arg8.IsWhole) (hc0 : ¬cond4_0 i) (hc1 : ¬cond4_1 i)
    (x0 : Vec F S5000x64 .f32) (x1 : Vec F S5000x5 .f32) (x2 : Vec F S70x32 .f32) (x3 : Vec F S32 .f32) (x4 : Vec F S32x2 .f32) (x5 : Vec F S2 .f32) (xs : Vec F S1x128 .f32) :
    Σ' (L6 : List (View.Piece (Elt F) S1x2 .f32)), { LS : List (View.Piece (Elt F) S1x128 .f32) //
      ∀ (xi6 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (arg8.view.loc (c : Thread nD τ) ↦[arg8.view.set]{fullShare} arg8.view.writes (Elt F) (harg8.unread xs) LS)) -∗ K ⟨⟩))
          ⊢ wp frame (wpE (defs₀ (F := F)) Variants.none c none) E (cc4__pool_head_kernel i arg1 harg1 arg2 harg2 arg3 harg3 arg4 harg4 arg5 harg5 arg6 harg6 arg7 harg7 arg8 harg8) K } := by
  refine ⟨[], ?_, fun xi6 E K => ?run⟩
  case run =>
    simp only [cc4__pool_head_kernel_eq_skeleton]; unfold cc4__pool_head_kernel_skel
    simp only [k4_part1_eq_skeleton, k4_part2_eq_skeleton, k4_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexact HS

end Cert.Kernel.Hand

end
-- ==== Proof.K.Region4RunC.lean ====
/-
  Region 4's kernel body run whole at the last grid point (the zero-fill not taken, the head taken): on whole staging memrefs — the six inputs' at their contents, the result's at anything, the
  scratch at the contents `xs` the point before left — the body runs to the continuation holding the inputs' as they were, the result's buffer with its stores written, and the
  scratch with its stores written over exactly the contents it was entered with. The lists of stores (last first) are the witnesses the run finds.
-/
import proofs.«101636_j2104533975212_1_alg».proof.Proof.K.Region4RunB

-- membership in a rectangle of 5000 rows is decided by a structural recursion once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: closing the definition walks it past the default budget
set_option maxHeartbeats 4000000 in
noncomputable def kernelRun4_C (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (arg8 : Memref sig .tc .vmem S1x128 .f32) (harg8 : arg8.IsWhole) (hc0 : ¬cond4_0 i) (hc1 : cond4_1 i)
    (x0 : Vec F S5000x64 .f32) (x1 : Vec F S5000x5 .f32) (x2 : Vec F S70x32 .f32) (x3 : Vec F S32 .f32) (x4 : Vec F S32x2 .f32) (x5 : Vec F S2 .f32) (xs : Vec F S1x128 .f32) :
    Σ' (L6 : List (View.Piece (Elt F) S1x2 .f32)), { LS : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (arg8.view.loc (c : Thread nD τ) ↦[arg8.view.set]{fullShare} arg8.view.writes (Elt F) (harg8.unread xs) LS)) -∗ K ⟨⟩))
          ⊢ wp frame (wpE (defs₀ (F := F)) Variants.none c none) E (cc4__pool_head_kernel i arg1 harg1 arg2 harg2 arg3 harg3 arg4 harg4 arg5 harg5 arg6 harg6 arg7 harg7 arg8 harg8) K } := by
  refine ⟨?_, ?_, fun E K => ?run⟩
  case run =>
    simp only [cc4__pool_head_kernel_eq_skeleton]; unfold cc4__pool_head_kernel_skel
    simp only [k4_part1_eq_skeleton, k4_part2_eq_skeleton, k4_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    iexact HS

end Cert.Kernel.Hand

end
-- ==== Proof.K.Region4.lean ====
/-
  Region 4 of the program's @main, the pooling and the head: what the scratch and the result's staging buffer hold after
  each grid point (a recursion over the points: the first point's run from any scratch contents, every later point's run from
  what the point before left), the region's invariant (the scoped rest with the scratch at exactly those contents, and the
  generator register), the pipeline's proof data over them and the body obligation at every point. Away from the last
  point the result window is idle: its buffer is handed back untouched and is not written back.
-/
import proofs.«101636_j2104533975212_1_alg».proof.Proof.K.Region4RunC

-- membership in a rectangle of 5000 rows is decided by a structural recursion once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## What each case leaves -/

/-- The first point's stores into the scratch cover it: the first of them is the zero-fill of the whole buffer. -/
theorem scover4_A (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (arg8 : Memref sig .tc .vmem S1x128 .f32) (harg8 : arg8.IsWhole) (hc0 : cond4_0 i) (hc1 : ¬cond4_1 i)
    (x0 : Vec F S5000x64 .f32) (x1 : Vec F S5000x5 .f32) (x2 : Vec F S70x32 .f32) (x3 : Vec F S32 .f32) (x4 : Vec F S32x2 .f32) (x5 : Vec F S2 .f32) (y : S1x128.Idx) :
    ∃ pc ∈ (kernelRun4_A c i arg1 harg1 arg2 harg2 arg3 harg3 arg4 harg4 arg5 harg5 arg6 harg6 arg7 harg7 arg8 harg8 hc0 hc1 x0 x1 x2 x3 x4 x5).2.1, y ∈ pc.1.set :=
  View.cover_of_wholeMem (kernelRun4_A c i arg1 harg1 arg2 harg2 arg3 harg3 arg4 harg4 arg5 harg5 arg6 harg6 arg7 harg7 arg8 harg8 hc0 hc1 x0 x1 x2 x3 x4 x5).2.1 (by sl_whole_mem) y

/-- What the first point leaves in the scratch: its stores read back (over anything: they cover the buffer). -/
def sout4_A (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (arg8 : Memref sig .tc .vmem S1x128 .f32) (harg8 : arg8.IsWhole) (hc0 : cond4_0 i) (hc1 : ¬cond4_1 i)
    (x0 : Vec F S5000x64 .f32) (x1 : Vec F S5000x5 .f32) (x2 : Vec F S70x32 .f32) (x3 : Vec F S32 .f32) (x4 : Vec F S32x2 .f32) (x5 : Vec F S2 .f32) : Vec F S1x128 .f32 :=
  scM4.view.read (Elt F) (scM4.view.writes (Elt F) scM4.view.junk (kernelRun4_A c i arg1 harg1 arg2 harg2 arg3 harg3 arg4 harg4 arg5 harg5 arg6 harg6 arg7 harg7 arg8 harg8 hc0 hc1 x0 x1 x2 x3 x4 x5).2.1)

/-- What a middle point leaves in the scratch: its stores written over the contents `xs` it was entered with. -/
def sout4_B (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (hc0 : ¬cond4_0 i) (hc1 : ¬cond4_1 i)
    (x0 : Vec F S5000x64 .f32) (x1 : Vec F S5000x5 .f32) (x2 : Vec F S70x32 .f32) (x3 : Vec F S32 .f32) (x4 : Vec F S32x2 .f32) (x5 : Vec F S2 .f32) (xs : Vec F S1x128 .f32) : Vec F S1x128 .f32 :=
  scM4.view.read (Elt F) (scM4.view.writes (Elt F) ((Memref.isWhole_whole cc4_scratch0).unread xs) (kernelRun4_B c i arg1 harg1 arg2 harg2 arg3 harg3 arg4 harg4 arg5 harg5 arg6 harg6 arg7 harg7 scM4 (Memref.isWhole_whole cc4_scratch0) hc0 hc1 x0 x1 x2 x3 x4 x5 xs).2.1)

/-- What the last point leaves in the scratch: the same. -/
def sout4_C (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (hc0 : ¬cond4_0 i) (hc1 : cond4_1 i)
    (x0 : Vec F S5000x64 .f32) (x1 : Vec F S5000x5 .f32) (x2 : Vec F S70x32 .f32) (x3 : Vec F S32 .f32) (x4 : Vec F S32x2 .f32) (x5 : Vec F S2 .f32) (xs : Vec F S1x128 .f32) : Vec F S1x128 .f32 :=
  scM4.view.read (Elt F) (scM4.view.writes (Elt F) ((Memref.isWhole_whole cc4_scratch0).unread xs) (kernelRun4_C c i arg1 harg1 arg2 harg2 arg3 harg3 arg4 harg4 arg5 harg5 arg6 harg6 arg7 harg7 scM4 (Memref.isWhole_whole cc4_scratch0) hc0 hc1 x0 x1 x2 x3 x4 x5 xs).2.1)

/-- The last point's one store into the result's staging buffer covers it. -/
theorem cover4_C_6 (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (hc0 : ¬cond4_0 i) (hc1 : cond4_1 i)
    (x0 : Vec F S5000x64 .f32) (x1 : Vec F S5000x5 .f32) (x2 : Vec F S70x32 .f32) (x3 : Vec F S32 .f32) (x4 : Vec F S32x2 .f32) (x5 : Vec F S2 .f32) (xs : Vec F S1x128 .f32) (y : S1x2.Idx) :
    ∃ pc ∈ (kernelRun4_C c i arg1 harg1 arg2 harg2 arg3 harg3 arg4 harg4 arg5 harg5 arg6 harg6 arg7 harg7 scM4 (Memref.isWhole_whole cc4_scratch0) hc0 hc1 x0 x1 x2 x3 x4 x5 xs).1, y ∈ pc.1.set :=
  View.cover_of_tiledL (kernelRun4_C c i arg1 harg1 arg2 harg2 arg3 harg3 arg4 harg4 arg5 harg5 arg6 harg6 arg7 harg7 scM4 (Memref.isWhole_whole cc4_scratch0) hc0 hc1 x0 x1 x2 x3 x4 x5 xs).1 S1x2.size (by sl_kernel_rfl) y

/-- What the last point leaves in the result's staging buffer: that store read back. -/
def out4_C (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (hc0 : ¬cond4_0 i) (hc1 : cond4_1 i)
    (x0 : Vec F S5000x64 .f32) (x1 : Vec F S5000x5 .f32) (x2 : Vec F S70x32 .f32) (x3 : Vec F S32 .f32) (x4 : Vec F S32x2 .f32) (x5 : Vec F S2 .f32) (xs : Vec F S1x128 .f32) : Vec F S1x2 .f32 :=
  VO4_6.read (Elt F) (VO4_6.writes (Elt F) VO4_6.junk (kernelRun4_C c i arg1 harg1 arg2 harg2 arg3 harg3 arg4 harg4 arg5 harg5 arg6 harg6 arg7 harg7 scM4 (Memref.isWhole_whole cc4_scratch0) hc0 hc1 x0 x1 x2 x3 x4 x5 xs).1)

/-- The placeholder for the result's staging buffer at a point where the window is idle (nothing consults it). -/
def out4_idle : Vec F S1x2 .f32 := VO4_6.read (Elt F) VO4_6.junk

/-! ## What the result's buffer and the scratch hold after each point -/

/-- THE ACCUMULATION: after the body at position `n`, the result's staging buffer and the scratch (a pair). -/
def outsAt4 (c : Dev nD) : (n : ℕ) → n < cfg4.N → Vec F S1x2 .f32 × Vec F S1x128 .f32
  | 0, hn => (out4_idle,
      sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4 (Memref.isWhole_whole cc4_scratch0)
        ((hcond4_0 ⟨0, hn⟩).mpr rfl) (fun h => absurd ((hcond4_1 ⟨0, hn⟩).mp h) (show ¬ (0 : ℕ) = 19 by decide)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h1 : n + 1 = 19 then
      (out4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩)
          (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2,
       sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩)
          (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2)
    else
      (out4_idle,
       sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩)
          (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2)

theorem outsAt4_A (c : Dev nD) (t : Fin cfg4.N) (h0 : t.val = 0) (hc0 : cond4_0 (grid4.coords t)) (hc1 : ¬cond4_1 (grid4.coords t)) :
    outsAt4 V c t.val t.isLt = (out4_idle,
      sout4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4 (Memref.isWhole_whole cc4_scratch0) hc0 hc1 (iblk4 V c 0 t) (iblk4 V c 1 t) (iblk4 V c 2 t) (iblk4 V c 3 t) (iblk4 V c 4 t) (iblk4 V c 5 t)) := by
  obtain ⟨n, hn⟩ := t
  cases n with
  | zero => rfl
  | succ n => exact absurd h0 (Nat.succ_ne_zero n)

theorem outsAt4_B (c : Dev nD) (t : Fin cfg4.N) (h0 : t.val ≠ 0) (h1 : t.val ≠ 19) (hc0 : ¬cond4_0 (grid4.coords t)) (hc1 : ¬cond4_1 (grid4.coords t)) :
    outsAt4 V c t.val t.isLt = (out4_idle,
      sout4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) hc0 hc1 (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2) := by
  obtain ⟨n, hn⟩ := t
  cases n with
  | zero => exact absurd rfl h0
  | succ n => exact (dif_neg h1).trans rfl

theorem outsAt4_C (c : Dev nD) (t : Fin cfg4.N) (h0 : t.val ≠ 0) (h1 : t.val = 19) (hc0 : ¬cond4_0 (grid4.coords t)) (hc1 : cond4_1 (grid4.coords t)) :
    outsAt4 V c t.val t.isLt = (out4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) hc0 hc1 (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2,
      sout4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) hc0 hc1 (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant -/

/-- Before position `n`: before the first point the class's invariant (the scratch at anything); afterwards the scoped rest with
    the scratch at what the point before left in it, and the generator register at some state. -/
def PhiS4 (c : Dev nD) : (n : ℕ) → n ≤ cfg4.N → sProp 𝕄
  | 0, _ => Pipeline.ΦA spec4 c
  | n + 1, hn => iprop(withScr4 c (owns (c : Thread nD τ) scM4 fullShare ((outsAt4 V c n hn).2)) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(withScr4 c (owns (c : Thread nD τ) scM4 fullShare ((outsAt4 V c n hn).2)) ∗ (∃ r, prngReg c r)) := rfl

theorem PhiS4_pos (c : Dev nD) (n : ℕ) (h : n ≤ cfg4.N) (hz : n ≠ 0) :
    PhiS4 V c n h = iprop(withScr4 c (owns (c : Thread nD τ) scM4 fullShare ((outsAt4 V c (n - 1) (by omega)).2)) ∗ (∃ r, prngReg c r)) := by
  cases n with
  | zero => exact absurd rfl hz
  | succ n => rfl

/-! ## The pipeline's proof data -/

/-- The proof data of this region's pipeline on core `c`: the arrays as the region finds them; after the body at point `t` each
    input's buffer at its block and the result's at `outsAt4`'s first component; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point: the inputs' memrefs hold their blocks; the closed forms say which case the point is in; the
    invariant hands the body the scratch at what the point before left (at anything at the first point) and takes it back at
    this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  have hN : t.val < 20 := lt_of_lt_of_eq t.isLt (show cfg4.N = 20 from N_4)
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 6 t (idleAt4_6 t hc1) (noFlush4_6 t hc1)]
    rw [outsAt4_A V c t h0 hc0 hc1]
    unfold sout4_A; (try dsimp only)
    rw [PhiS4_castSucc V c t, PhiS4_zero V c _ _ h0, PhiA4_eq]
    iintro ⟨⟨HW, Hg⟩, Ho, ⟨%d0, H0⟩, ⟨%d1, H1⟩, ⟨%d2, H2⟩, ⟨%d3, H3⟩, ⟨%d4, H4⟩, ⟨%d5, H5⟩, ⟨%d6, H6⟩⟩
    ihave HW' := (withScr4_out c _) $$ HW
    icases HW' with ⟨Hoth, HS⟩
    iapply ((kernelRun4_A c (grid4.coords t) _ _ _ _ _ _ _ _ _ _ _ _ _ _ _ _ hc0 hc1 (iblk4 V c 0 t) (iblk4 V c 1 t) (iblk4 V c 2 t) (iblk4 V c 3 t) (iblk4 V c 4 t) (iblk4 V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, ⟨%es, HS⟩⟩
    isplitl [HS Hg Hoth]
    · isplitl [HS Hoth]
      · iapply (withScr4_in c _)
        isplitl [Hoth]; · iexact Hoth
        unfold owns; iexists _; isplitr
        swap; · iexact HS
        ipureintro; exact View.read_writes_of_cover _ _ _ _ _ (scover4_A c _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hc0 : ¬cond4_0 (grid4.coords t) := fun h => h0 ((hcond4_0 t).mp h)
    by_cases h1 : t.val = 19
    · have hc1 : cond4_1 (grid4.coords t) := (hcond4_1 t).mpr h1
      rw [show (dat4 V c).leavesExact 6 t = owns (c : Thread nD τ) (ms4_6 t) fullShare ((dat4 V c).after 6 t) from by
        unfold Dat.leavesExact; rw [liveAt4_6 t hc1], after4_6]
      rw [outsAt4_C V c t h0 h1 hc0 hc1]
      unfold out4_C sout4_C; (try dsimp only)
      rw [PhiS4_castSucc V c t, PhiS4_pos V c _ _ h0]
      iintro ⟨⟨HW, Hg⟩, Ho, ⟨%d0, H0⟩, ⟨%d1, H1⟩, ⟨%d2, H2⟩, ⟨%d3, H3⟩, ⟨%d4, H4⟩, ⟨%d5, H5⟩, ⟨%d6, H6⟩⟩
      ihave HW' := (withScr4_out c _) $$ HW
      icases HW' with ⟨Hoth, HS⟩
      iapply ((kernelRun4_C c (grid4.coords t) _ _ _ _ _ _ _ _ _ _ _ _ _ _ _ _ hc0 hc1 (iblk4 V c 0 t) (iblk4 V c 1 t) (iblk4 V c 2 t) (iblk4 V c 3 t) (iblk4 V c 4 t) (iblk4 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, HS⟩
      isplitl [HS Hg Hoth]
      · isplitl [HS Hoth]
        · iapply (withScr4_in c _)
          isplitl [Hoth]; · iexact Hoth
          unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover4_C_6 c _ _ _ _ _ _ _ _ _ _ _ _ _ _ _ _ _ _ _ _ _ _ _ _)
    · have hc1 : ¬cond4_1 (grid4.coords t) := fun h => h1 ((hcond4_1 t).mp h)
      rw [Dat.leavesExact_idle (dat4 V c) 6 t (idleAt4_6 t hc1) (noFlush4_6 t hc1)]
      rw [outsAt4_B V c t h0 h1 hc0 hc1]
      unfold sout4_B; (try dsimp only)
      rw [PhiS4_castSucc V c t, PhiS4_pos V c _ _ h0]
      iintro ⟨⟨HW, Hg⟩, Ho, ⟨%d0, H0⟩, ⟨%d1, H1⟩, ⟨%d2, H2⟩, ⟨%d3, H3⟩, ⟨%d4, H4⟩, ⟨%d5, H5⟩, ⟨%d6, H6⟩⟩
      ihave HW' := (withScr4_out c _) $$ HW
      icases HW' with ⟨Hoth, HS⟩
      iapply ((kernelRun4_B c (grid4.coords t) _ _ _ _ _ _ _ _ _ _ _ _ _ _ _ _ hc0 hc1 (iblk4 V c 0 t) (iblk4 V c 1 t) (iblk4 V c 2 t) (iblk4 V c 3 t) (iblk4 V c 4 t) (iblk4 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hg Hoth]
      · isplitl [HS Hoth]
        · iapply (withScr4_in c _)
          isplitl [Hoth]; · iexact Hoth
          unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the region's entry hands the pipeline is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class's back: the scratch's named contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 20 := N_4; omega), PhiA4_eq]
  iintro ⟨HW, Hg⟩
  ihave HW' := (withScr4_out c _) $$ HW
  icases HW' with ⟨Hoth, HS⟩
  isplitl [Hoth HS]
  · iapply (withScr4_in c _)
    isplitl [Hoth]; · iexact Hoth
    iexists _; iexact HS
  iexact Hg

end Cert.Kernel.Hand

end
-- ==== Proof.K.Run.lean ====
/-
  The whole run of the program's @main: three stretches of host operations, region 0, a stretch, regions 1 and 2, a stretch,
  regions 3 and 4. The contents of the core's unscoped buffers at each of the ten boundaries are a fold from the launch
  memory — a stretch applies its operations; a region leaves its arrays at what its pipeline's write-backs make of them and
  every other buffer as it found it. Every weakly fair execution terminates, faulting nowhere, with every unscoped buffer at
  the last boundary's contents; no stretch and no region writes an argument array, so each ends as launched.
-/
import proofs.«101636_j2104533975212_1_alg».proof.Proof.K.Region0
import proofs.«101636_j2104533975212_1_alg».proof.Proof.K.Region1
import proofs.«101636_j2104533975212_1_alg».proof.Proof.K.Region2
import proofs.«101636_j2104533975212_1_alg».proof.Proof.K.Region3
import proofs.«101636_j2104533975212_1_alg».proof.Proof.K.Region4
import proofs.«101636_j2104533975212_1_alg».proof.Proof.Gen.Kernel.Regions

-- membership in a rectangle of 5000 rows is decided by a structural recursion once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- Region 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At region 0's exit: its arrays at what the pipeline leaves (the inputs as entered, the result's write-backs folded), every
    other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- Region 1's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At region 1's exit: its arrays at what the pipeline leaves (the inputs as entered, the result's write-backs folded), every
    other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- At region 2's exit: its arrays at what the pipeline leaves (the inputs as entered, the result's write-backs folded), every
    other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- Region 3's entry. -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b

/-- At region 3's exit: its arrays at what the pipeline leaves (the inputs as entered, the result's write-backs folded), every
    other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- At region 4's exit: its arrays at what the pipeline leaves (the inputs as entered, the result's write-backs folded), every
    other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-! ## The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered from every unscoped buffer at `W3`, left at `W4`. Its arrays are split out
    of the unscoped buffers and put back at the exit contents; the generator register goes into the region's invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split out
    of the unscoped buffers and put back at the exit contents; the generator register goes into the region's invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W6`, left at `W7`. Its arrays are split out
    of the unscoped buffers and put back at the exit contents; the generator register goes into the region's invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W8`, left at `W9`. Its arrays are split out
    of the unscoped buffers and put back at the exit contents; the generator register goes into the region's invariant and
    comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split out
    of the unscoped buffers and put back at the exit contents; the generator register goes into the region's invariant and
    comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (V9 m ρ) c
    unfold Pipeline.ΦA at h
    rw [show (pdats m ρ 4 c).Φ 0 = (dat4 (V9 m ρ) c).Φ 0 from rfl]
    iintro ⟨Hp, -, Hr⟩
    iapply h
    isplitl [Hr]; · iexact Hr
    iexact Hp
  hout c := by
    rw [Pipeline.ownSems0_none]
    have h := hout4 (V9 m ρ) c
    unfold Pipeline.ΦA at h
    rw [show (pdats m ρ 4 c).Φ (Fin.last _) = (dat4 (V9 m ρ) c).Φ (Fin.last cfg4.N) from rfl]
    iintro Hphi
    ihave H := h $$ Hphi
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)),
    .region (reg3 m ρ),
    .region (reg4 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.Kernel.Hand

end
-- ==== Proof.K.Frame.lean ====
/-
  The program's frame: it runs to the end, faults nowhere, and leaves every argument array as launched. No stretch of host
  operations writes an argument (each writes only its own results) and no region changes any buffer but its result's array,
  so an argument's buffer at the last boundary reads back through the fold to the launch memory.
-/
import proofs.«101636_j2104533975212_1_alg».proof.Proof.K.Run

-- membership in a rectangle of 5000 rows is decided by a structural recursion once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0 changes no buffer but its result's array: an operand's array ends at its entry contents, and every other buffer is
    untouched. -/
theorem W4_keep (c : Dev nD) (b : Ref sig .tc) (hb : b ≠ main_v32) :
    W4 m ρ c (Proc.devRef .tc b) = W3 m ρ c (Proc.devRef .tc b) := by
  by_cases h : ∀ w, Pipeline.arrRef spec0 w ≠ b
  · exact W4_of_ne m ρ c b h
  · simp only [ne_eq, not_forall, not_not] at h
    obtain ⟨w, rfl⟩ := h
    rw [W4_arr]
    match w, hb with
    | ⟨0, _⟩, _ => exact ((dat0 (V3 m ρ) c).arrAt_in 0 rfl _).trans (A_eq0 (V3 m ρ) c 0)
    | ⟨1, _⟩, _ => exact ((dat0 (V3 m ρ) c).arrAt_in 1 rfl _).trans (A_eq0 (V3 m ρ) c 1)
    | ⟨2, _⟩, hb => exact absurd rfl hb

/-- Region 1 changes no buffer but its result's array: an operand's array ends at its entry contents, and every other buffer is
    untouched. -/
theorem W6_keep (c : Dev nD) (b : Ref sig .tc) (hb : b ≠ main_v46) :
    W6 m ρ c (Proc.devRef .tc b) = W5 m ρ c (Proc.devRef .tc b) := by
  by_cases h : ∀ w, Pipeline.arrRef spec1 w ≠ b
  · exact W6_of_ne m ρ c b h
  · simp only [ne_eq, not_forall, not_not] at h
    obtain ⟨w, rfl⟩ := h
    rw [W6_arr]
    match w, hb with
    | ⟨0, _⟩, _ => exact ((dat1 (V5 m ρ) c).arrAt_in 0 rfl _).trans (A_eq1 (V5 m ρ) c 0)
    | ⟨1, _⟩, _ => exact ((dat1 (V5 m ρ) c).arrAt_in 1 rfl _).trans (A_eq1 (V5 m ρ) c 1)
    | ⟨2, _⟩, hb => exact absurd rfl hb

/-- Region 2 changes no buffer but its result's array: an operand's array ends at its entry contents, and every other buffer is
    untouched. -/
theorem W7_keep (c : Dev nD) (b : Ref sig .tc) (hb : b ≠ main_v47) :
    W7 m ρ c (Proc.devRef .tc b) = W6 m ρ c (Proc.devRef .tc b) := by
  by_cases h : ∀ w, Pipeline.arrRef spec2 w ≠ b
  · exact W7_of_ne m ρ c b h
  · simp only [ne_eq, not_forall, not_not] at h
    obtain ⟨w, rfl⟩ := h
    rw [W7_arr]
    match w, hb with
    | ⟨0, _⟩, _ => exact ((dat2 (V6 m ρ) c).arrAt_in 0 rfl _).trans (A_eq2 (V6 m ρ) c 0)
    | ⟨1, _⟩, _ => exact ((dat2 (V6 m ρ) c).arrAt_in 1 rfl _).trans (A_eq2 (V6 m ρ) c 1)
    | ⟨2, _⟩, hb => exact absurd rfl hb

/-- Region 3 changes no buffer but its result's array: an operand's array ends at its entry contents, and every other buffer is
    untouched. -/
theorem W9_keep (c : Dev nD) (b : Ref sig .tc) (hb : b ≠ main_v61) :
    W9 m ρ c (Proc.devRef .tc b) = W8 m ρ c (Proc.devRef .tc b) := by
  by_cases h : ∀ w, Pipeline.arrRef spec3 w ≠ b
  · exact W9_of_ne m ρ c b h
  · simp only [ne_eq, not_forall, not_not] at h
    obtain ⟨w, rfl⟩ := h
    rw [W9_arr]
    match w, hb with
    | ⟨0, _⟩, _ => exact ((dat3 (V8 m ρ) c).arrAt_in 0 rfl _).trans (A_eq3 (V8 m ρ) c 0)
    | ⟨1, _⟩, _ => exact ((dat3 (V8 m ρ) c).arrAt_in 1 rfl _).trans (A_eq3 (V8 m ρ) c 1)
    | ⟨2, _⟩, hb => exact absurd rfl hb

/-- Region 4 changes no buffer but its result's array: an operand's array ends at its entry contents, and every other buffer is
    untouched. -/
theorem W10_keep (c : Dev nD) (b : Ref sig .tc) (hb : b ≠ main_v62) :
    W10 m ρ c (Proc.devRef .tc b) = W9 m ρ c (Proc.devRef .tc b) := by
  by_cases h : ∀ w, Pipeline.arrRef spec4 w ≠ b
  · exact W10_of_ne m ρ c b h
  · simp only [ne_eq, not_forall, not_not] at h
    obtain ⟨w, rfl⟩ := h
    rw [W10_arr]
    match w, hb with
    | ⟨0, _⟩, _ => exact ((dat4 (V9 m ρ) c).arrAt_in 0 rfl _).trans (A_eq4 (V9 m ρ) c 0)
    | ⟨1, _⟩, _ => exact ((dat4 (V9 m ρ) c).arrAt_in 1 rfl _).trans (A_eq4 (V9 m ρ) c 1)
    | ⟨2, _⟩, _ => exact ((dat4 (V9 m ρ) c).arrAt_in 2 rfl _).trans (A_eq4 (V9 m ρ) c 2)
    | ⟨3, _⟩, _ => exact ((dat4 (V9 m ρ) c).arrAt_in 3 rfl _).trans (A_eq4 (V9 m ρ) c 3)
    | ⟨4, _⟩, _ => exact ((dat4 (V9 m ρ) c).arrAt_in 4 rfl _).trans (A_eq4 (V9 m ρ) c 4)
    | ⟨5, _⟩, _ => exact ((dat4 (V9 m ρ) c).arrAt_in 5 rfl _).trans (A_eq4 (V9 m ρ) c 5)
    | ⟨6, _⟩, hb => exact absurd rfl hb

/-- A buffer that no stretch writes and that is no region's result ends as launched. -/
theorem W10_unwritten (c : Dev nD) (b : Ref sig .tc) (h0 : b ∉ hostOps0_W) (h01 : b ∉ hostOps0_1_W) (h02 : b ∉ hostOps0_2_W)
    (h1 : b ∉ hostOps1_W) (h3 : b ∉ hostOps3_W)
    (hr : b ≠ main_v32 ∧ b ≠ main_v46 ∧ b ≠ main_v47 ∧ b ≠ main_v61 ∧ b ≠ main_v62) :
    W10 m ρ c (Proc.devRef .tc b) = m ((c : Thread nD τ).loc b) :=
  (W10_keep m ρ c b hr.2.2.2.2).trans <| (W9_keep m ρ c b hr.2.2.2.1).trans <|
  (StableHlo.after_of_writes_sub hostOps3 _ hostOps3_writes h3).trans <|
  (W7_keep m ρ c b hr.2.2.1).trans <| (W6_keep m ρ c b hr.2.1).trans <|
  (StableHlo.after_of_writes_sub hostOps1 _ hostOps1_writes h1).trans <|
  (W4_keep m ρ c b hr.1).trans <|
  (StableHlo.after_of_writes_sub hostOps0_2 _ hostOps0_2_writes h02).trans <|
  (StableHlo.after_of_writes_sub hostOps0_1 _ hostOps0_1_writes h01).trans <|
  (StableHlo.after_of_writes_sub hostOps0 _ hostOps0_writes h0).trans rfl

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W10_unwritten m ρ c main_arg0 (by decide) (by decide) (by decide) (by decide) (by decide) ⟨by decide, by decide, by decide, by decide, by decide⟩),
      (h c _ (mem_uc main_arg1 (by decide))).trans (W10_unwritten m ρ c main_arg1 (by decide) (by decide) (by decide) (by decide) (by decide) ⟨by decide, by decide, by decide, by decide, by decide⟩),
      (h c _ (mem_uc main_arg2 (by decide))).trans (W10_unwritten m ρ c main_arg2 (by decide) (by decide) (by decide) (by decide) (by decide) ⟨by decide, by decide, by decide, by decide, by decide⟩),
      (h c _ (mem_uc main_arg3 (by decide))).trans (W10_unwritten m ρ c main_arg3 (by decide) (by decide) (by decide) (by decide) (by decide) ⟨by decide, by decide, by decide, by decide, by decide⟩),
      (h c _ (mem_uc main_arg4 (by decide))).trans (W10_unwritten m ρ c main_arg4 (by decide) (by decide) (by decide) (by decide) (by decide) ⟨by decide, by decide, by decide, by decide, by decide⟩),
      (h c _ (mem_uc main_arg5 (by decide))).trans (W10_unwritten m ρ c main_arg5 (by decide) (by decide) (by decide) (by decide) (by decide) ⟨by decide, by decide, by decide, by decide, by decide⟩),
      (h c _ (mem_uc main_arg6 (by decide))).trans (W10_unwritten m ρ c main_arg6 (by decide) (by decide) (by decide) (by decide) (by decide) ⟨by decide, by decide, by decide, by decide, by decide⟩),
      (h c _ (mem_uc main_arg7 (by decide))).trans (W10_unwritten m ρ c main_arg7 (by decide) (by decide) (by decide) (by decide) (by decide) ⟨by decide, by decide, by decide, by decide, by decide⟩),
      (h c _ (mem_uc main_arg8 (by decide))).trans (W10_unwritten m ρ c main_arg8 (by decide) (by decide) (by decide) (by decide) (by decide) ⟨by decide, by decide, by decide, by decide, by decide⟩),
      (h c _ (mem_uc main_arg9 (by decide))).trans (W10_unwritten m ρ c main_arg9 (by decide) (by decide) (by decide) (by decide) (by decide) ⟨by decide, by decide, by decide, by decide, by decide⟩)⟩) (run_all m ρ)

end Cert.Kernel.Hand

end
-- ==== Proof.KI.Region0.lean ====
/-
  Region 0 of the program's @main: the first layer's linear map, rows of x times the weight matrix (a matrix product into a zero accumulator).
  The region's grid has 20 points; point t stages rows 5000·t … 5000·t + 4999 of its first operand, the whole of its second
  operand (staged once, at the first point, and kept), and writes back rows 5000·t … 5000·t + 4999 of its result. This module
  states, at any contents `V` of the core's buffers when the region is entered, what the body leaves in the result's staging
  buffer as a function of the two staged blocks, the body's specification, the pipeline's proof data over it and the body
  obligation at every grid point. The region's invariant carries nothing but the scoped rest and the generator register.
-/
import proofs.«101636_j2104533975212_1_alg».proof.Proof.Gen.KernelIdeal.Launch
import proofs.«101636_j2104533975212_1_alg».proof.Proof.Gen.KernelIdeal.Skeleton
import proofs.«101636_j2104533975212_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is decided by a structural recursion once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first operand's current staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second operand's staging buffer holds the operand at every point: it is fetched at the first point and its block index
    never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads and stores through: each is its whole buffer. -/
abbrev r0_0 : Rect S5000x5 := Rect.unit (s := S5000x5) ![0, 0] S5000x5.size inb_S5000x5_S5000x5_0_0
abbrev r0_1 : Rect S5x64 := Rect.unit (s := S5x64) ![0, 0] S5x64.size inb_S5x64_S5x64_0_0
abbrev r0_2 : Rect S5000x64 := Rect.unit (s := S5000x64) ![0, 0] S5000x64.size inb_S5000x64_S5000x64_0_0

/-- The result's staging buffer after the body, from the two staged blocks: one store of the whole buffer. -/
def out0_2 (x0 : Vec F S5000x5 .f32) (x1 : Vec F S5x64 .f32) : Vec F S5000x64 .f32 :=
  View.canon [⟨r0_2, k0_pay1 (View.ld x0 r0_0) (View.ld x1 r0_1)⟩]

/-- That store covers the buffer. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

set_option maxHeartbeats 1000000 in
/-- The body on whole staging memrefs, the operands' at contents `x0`, `x1` and the result's at anything, runs to the
    continuation holding the operands' as they were and the result's at `out0_2 x0 x1`. -/
theorem sound_kernel0 (c : Dev nD) (E : Set ℕ) (i : grid0.Coords) (arg1 : Memref sig .tc .vmem S5000x5 .f32) (harg1 : arg1.IsWhole)
    (arg2 : Memref sig .tc .vmem S5x64 .f32) (harg2 : arg2.IsWhole) (arg3 : Memref sig .tc .vmem S5000x64 .f32) (harg3 : arg3.IsWhole)
    (x0 : Vec F S5000x5 .f32) (x1 : Vec F S5x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this region's pipeline on core `c`: the arrays as the region finds them; after the body at point `t`
    each operand's buffer at its block and the result's at `out0_2` of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' memrefs hold their blocks, so the body's specification applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of the program's @main: the first layer's bias and clip at zero, max(agg + b, 0) row by row.
  The region's grid has 20 points; point t stages rows 5000·t … 5000·t + 4999 of its first operand, the whole of its second
  operand (staged once, at the first point, and kept), and writes back rows 5000·t … 5000·t + 4999 of its result. This module
  states, at any contents `V` of the core's buffers when the region is entered, what the body leaves in the result's staging
  buffer as a function of the two staged blocks, the body's specification, the pipeline's proof data over it and the body
  obligation at every grid point. The region's invariant carries nothing but the scoped rest and the generator register.
-/
import proofs.«101636_j2104533975212_1_alg».proof.Proof.Gen.KernelIdeal.Launch
import proofs.«101636_j2104533975212_1_alg».proof.Proof.Gen.KernelIdeal.Skeleton
import proofs.«101636_j2104533975212_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is decided by a structural recursion once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first operand's current staging buffer holds its block at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second operand's staging buffer holds the operand at every point: it is fetched at the first point and its block index
    never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads and stores through: each is its whole buffer. -/
abbrev r1_0 : Rect S5000x64 := Rect.unit (s := S5000x64) ![0, 0] S5000x64.size inb_S5000x64_S5000x64_0_0
abbrev r1_1 : Rect S64 := Rect.unit (s := S64) ![0] S64.size inb_S64_S64_0
abbrev r1_2 : Rect S5000x64 := Rect.unit (s := S5000x64) ![0, 0] S5000x64.size inb_S5000x64_S5000x64_0_0

/-- The result's staging buffer after the body, from the two staged blocks: one store of the whole buffer. -/
def out1_2 (x0 : Vec F S5000x64 .f32) (x1 : Vec F S64 .f32) : Vec F S5000x64 .f32 :=
  View.canon [⟨r1_2, k1_pay1 (View.ld x0 r1_0) (View.ld x1 r1_1)⟩]

/-- That store covers the buffer. -/
theorem cover1_2 (p0 : Vec F S5000x64 .f32) (y : S5000x64.Idx) :
    ∃ pc ∈ ([⟨r1_2, p0⟩] : List (View.Piece (Elt F) S5000x64 .f32)), y ∈ pc.1.set :=
  View.cover_of_tiled [⟨r1_2, p0⟩] S5000x64.size (by rfl) y

set_option maxHeartbeats 1000000 in
/-- The body on whole staging memrefs, the operands' at contents `x0`, `x1` and the result's at anything, runs to the
    continuation holding the operands' as they were and the result's at `out1_2 x0 x1`. -/
theorem sound_kernel1 (c : Dev nD) (E : Set ℕ) (i : grid1.Coords) (arg1 : Memref sig .tc .vmem S5000x64 .f32) (harg1 : arg1.IsWhole)
    (arg2 : Memref sig .tc .vmem S64 .f32) (harg2 : arg2.IsWhole) (arg3 : Memref sig .tc .vmem S5000x64 .f32) (harg3 : arg3.IsWhole)
    (x0 : Vec F S5000x64 .f32) (x1 : Vec F S64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this region's pipeline on core `c`: the arrays as the region finds them; after the body at point `t`
    each operand's buffer at its block and the result's at `out1_2` of the two blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the operands' memrefs hold their blocks, so the body's specification applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  Region 2 of the program's @main: the second layer's linear map, rows of the first layer's output times the weight matrix.
  The region's grid has 20 points; point t stages rows 5000·t … 5000·t + 4999 of its first operand, the whole of its second
  operand (staged once, at the first point, and kept), and writes back rows 5000·t … 5000·t + 4999 of its result. This module
  states, at any contents `V` of the core's buffers when the region is entered, what the body leaves in the result's staging
  buffer as a function of the two staged blocks, the body's specification, the pipeline's proof data over it and the body
  obligation at every grid point. The region's invariant carries nothing but the scoped rest and the generator register.
-/
import proofs.«101636_j2104533975212_1_alg».proof.Proof.Gen.KernelIdeal.Launch
import proofs.«101636_j2104533975212_1_alg».proof.Proof.Gen.KernelIdeal.Skeleton
import proofs.«101636_j2104533975212_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is decided by a structural recursion once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first operand's current staging buffer holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second operand's staging buffer holds the operand at every point: it is fetched at the first point and its block index
    never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body loads and stores through: each is its whole buffer. -/
abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S5000x64 := Rect.unit (s := S5000x64) ![0, 0] S5000x64.size inb_S5000x64_S5000x64_0_0

/-- The result's staging buffer after the body, from the two staged blocks: one store of the whole buffer. -/
def out2_2 (x0 : Vec F S5000x64 .f32) (x1 : Vec F S64x64 .f32) : Vec F S5000x64 .f32 :=
  View.canon [⟨r2_2, k2_pay1 (View.ld x0 r2_0) (View.ld x1 r2_1)⟩]

/-- That store covers the buffer. -/
theorem cover2_2 (p0 : Vec F S5000x64 .f32) (y : S5000x64.Idx) :
    ∃ pc ∈ ([⟨r2_2, p0⟩] : List (View.Piece (Elt F) S5000x64 .f32)), y ∈ pc.1.set :=
  View.cover_of_tiled [⟨r2_2, p0⟩] S5000x64.size (by rfl) y

set_option maxHeartbeats 1000000 in
/-- The body on whole staging memrefs, the operands' at contents `x0`, `x1` and the result's at anything, runs to the
    continuation holding the operands' as they were and the result's at `out2_2 x0 x1`. -/
theorem sound_kernel2 (c : Dev nD) (E : Set ℕ) (i : grid2.Coords) (arg1 : Memref sig .tc .vmem S5000x64 .f32) (harg1 : arg1.IsWhole)
    (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this region's pipeline on core `c`: the arrays as the region finds them; after the body at point `t`
    each operand's buffer at its block and the result's at `out2_2` of the two blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the operands' memrefs hold their blocks, so the body's specification applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
/-
  Region 3 of the program's @main: the second layer's bias and clip at zero, max(agg + b, 0) row by row.
  The region's grid has 20 points; point t stages rows 5000·t … 5000·t + 4999 of its first operand, the whole of its second
  operand (staged once, at the first point, and kept), and writes back rows 5000·t … 5000·t + 4999 of its result. This module
  states, at any contents `V` of the core's buffers when the region is entered, what the body leaves in the result's staging
  buffer as a function of the two staged blocks, the body's specification, the pipeline's proof data over it and the body
  obligation at every grid point. The region's invariant carries nothing but the scoped rest and the generator register.
-/
import proofs.«101636_j2104533975212_1_alg».proof.Proof.Gen.KernelIdeal.Launch
import proofs.«101636_j2104533975212_1_alg».proof.Proof.Gen.KernelIdeal.Skeleton
import proofs.«101636_j2104533975212_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is decided by a structural recursion once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first operand's current staging buffer holds its block at every point, for any proof data whose array is `V`'s and
    whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The second operand's staging buffer holds the operand at every point: it is fetched at the first point and its block index
    never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body loads and stores through: each is its whole buffer. -/
abbrev r3_0 : Rect S5000x64 := Rect.unit (s := S5000x64) ![0, 0] S5000x64.size inb_S5000x64_S5000x64_0_0
abbrev r3_1 : Rect S64 := Rect.unit (s := S64) ![0] S64.size inb_S64_S64_0
abbrev r3_2 : Rect S5000x64 := Rect.unit (s := S5000x64) ![0, 0] S5000x64.size inb_S5000x64_S5000x64_0_0

/-- The result's staging buffer after the body, from the two staged blocks: one store of the whole buffer. -/
def out3_2 (x0 : Vec F S5000x64 .f32) (x1 : Vec F S64 .f32) : Vec F S5000x64 .f32 :=
  View.canon [⟨r3_2, k3_pay1 (View.ld x0 r3_0) (View.ld x1 r3_1)⟩]

/-- That store covers the buffer. -/
theorem cover3_2 (p0 : Vec F S5000x64 .f32) (y : S5000x64.Idx) :
    ∃ pc ∈ ([⟨r3_2, p0⟩] : List (View.Piece (Elt F) S5000x64 .f32)), y ∈ pc.1.set :=
  View.cover_of_tiled [⟨r3_2, p0⟩] S5000x64.size (by rfl) y

set_option maxHeartbeats 1000000 in
/-- The body on whole staging memrefs, the operands' at contents `x0`, `x1` and the result's at anything, runs to the
    continuation holding the operands' as they were and the result's at `out3_2 x0 x1`. -/
theorem sound_kernel3 (c : Dev nD) (E : Set ℕ) (i : grid3.Coords) (arg1 : Memref sig .tc .vmem S5000x64 .f32) (harg1 : arg1.IsWhole)
    (arg2 : Memref sig .tc .vmem S64 .f32) (harg2 : arg2.IsWhole) (arg3 : Memref sig .tc .vmem S5000x64 .f32) (harg3 : arg3.IsWhole)
    (x0 : Vec F S5000x64 .f32) (x1 : Vec F S64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this region's pipeline on core `c`: the arrays as the region finds them; after the body at point `t`
    each operand's buffer at its block and the result's at `out3_2` of the two blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the operands' memrefs hold their blocks, so the body's specification applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Region4Base.lean ====
/-
  Region 4 of the program's @main, the pooling and the head: what its three per-case body runs and its proof data share.
  The grid has 20 points. Point t stages rows 5000·t … 5000·t + 4999 of the second layer's output and of x, and the four
  weight arrays whole (staged once); the [1,2] result is written back after the last point only. A [1,128] scratch buffer of
  the kernel's own carries 70 running sums from point to point: it is zero-filled at the first point, and at every point
  seven slices of it (columns 0–63, then 64, …, 69) are read, increased by the point's partial sums and stored back.
  Here: the windows' blocks; the two branch conditions (first point, last point) in closed form, decided over the grid;
  where the result window is idle; the staging and scratch memrefs; and the region's scoped rest split around the scratch.
-/
import proofs.«101636_j2104533975212_1_alg».proof.Proof.Gen.KernelIdeal.Launch
import proofs.«101636_j2104533975212_1_alg».proof.Proof.Gen.KernelIdeal.Skeleton
import proofs.«101636_j2104533975212_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is decided by a structural recursion once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
-- the core's buffer contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input window's current staging buffer holds its block at every point, fetched there or not, for any proof data whose
    array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
end

/-! ## The body's two branch conditions -/

/-- "This is the first grid point" (the zero-fill of the scratch is under it). -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
/-- "This is the last grid point" (the head is under it). -/
abbrev cond4_1 (i : grid4.Coords) : Prop := k4_cond2 i = 1#1
theorem hcond4_1 : ∀ t : Fin cfg4.N, cond4_1 (grid4.coords t) ↔ t.val = 19 :=
  (by decide +kernel : ∀ t : Fin grid4.N, cond4_1 (grid4.coords t) ↔ t.val = 19)

/-! ## Where the windows are idle -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
/-- Away from the last point the result window is idle and is not written back. -/
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
/-- At the last point it is live. -/
theorem liveAt4_6 : ∀ t : Fin cfg4.N, cond4_1 (grid4.coords t) → cfg4.idle 6 (grid4.coords t) = false := by decide +kernel

/-! ## The staging and scratch memrefs -/
abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x5 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S70x32 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S32 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S32x2 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S2 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x2 .f32 := win4_6.stage (cfg4.slots t 6)
abbrev hs4_6 (t : Fin cfg4.N) : (ms4_6 t).IsWhole := hstage4_6 ((cfg4.slots t 6).cast nbuf4_6)
/-- The scratch operand: a whole scoped buffer of the kernel's own, passed beside the windows. -/
abbrev scM4 : Memref sig .tc .vmem S1x128 .f32 := Memref.whole cc4_scratch0
/-- One staging buffer of the result window, through which an idle point's placeholder contents are stated. -/
abbrev VO4_6 : View sig .tc .vmem S1x2 .f32 := (Memref.whole cc4_stg6_0 : Memref sig .tc .vmem S1x2 .f32).view

/-! ## The scoped rest, split around the scratch -/

/-- The region's scoped rest with `P` in the scratch buffer's place: the other regions' twenty staging buffers, each whole at
    some contents, beside `P`. -/
def withScr4 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ P)

/-- The class's invariant (the scoped rest and the generator register) with the scratch as a memref owned at some contents. -/
theorem PhiA4_eq (c : Dev nD) :
    (Pipeline.ΦA spec4 c : sProp 𝕄)
      = iprop(withScr4 c (iprop(∃ d, owns (c : Thread nD τ) scM4 fullShare d)) ∗ (∃ r, prngReg c r)) := by
  unfold Pipeline.ΦA withScr4; rw [scopedRest4_eq]; simp only [scM4, owns_whole]; try rfl

/-- The other regions' twenty staging buffers, each whole at some contents. -/
def others4 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f))

/-- Take what stands in the scratch's place out … -/
theorem withScr4_out (c : Dev nD) (P : sProp 𝕄) : withScr4 c P ⊢ iprop(others4 c ∗ P) := by
  unfold withScr4 others4
  iintro ⟨H0, H1, H2, H3, H4, H5, H6, H7, H8, H9, H10, H11, H12, H13, H14, H15, H16, H17, H18, H19, HP⟩
  isplitr [HP]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iexact HP

/-- … and put something back. -/
theorem withScr4_in (c : Dev nD) (Q : sProp 𝕄) : iprop(others4 c ∗ Q) ⊢ withScr4 c Q := by
  unfold withScr4 others4
  iintro ⟨⟨H0, H1, H2, H3, H4, H5, H6, H7, H8, H9, H10, H11, H12, H13, H14, H15, H16, H17, H18, H19⟩, HQ⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact HQ

end Cert.KernelIdeal.Hand

end
-- ==== Proof.KI.Region4RunA.lean ====
/-
  Region 4's kernel body run whole at the first grid point (the zero-fill taken, the head not): on whole staging memrefs — the six inputs' at their contents, the result's at contents handed back untouched, the
  scratch at anything — the body runs to the continuation holding the inputs' as they were, and the
  scratch with its stores written over whatever it held (the first of them fills it whole). The lists of stores (last first) are the witnesses the run finds.
-/
import proofs.«101636_j2104533975212_1_alg».proof.Proof.KI.Region4Base

-- membership in a rectangle of 5000 rows is decided by a structural recursion once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run's proof term is large: closing the definition walks it past the default budget
set_option maxHeartbeats 4000000 in
noncomputable def kernelRun4_A (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (arg8 : Memref sig .tc .vmem S1x128 .f32) (harg8 : arg8.IsWhole) (hc0 : cond4_0 i) (hc1 : ¬cond4_1 i)
    (x0 : Vec F S5000x64 .f32) (x1 : Vec F S5000x5 .f32) (x2 : Vec F S70x32 .f32) (x3 : Vec F S32 .f32) (x4 : Vec F S32x2 .f32) (x5 : Vec F S2 .f32) :
    Σ' (L6 : List (View.Piece (Elt F) S1x2 .f32)), { LS : List (View.Piece (Elt F) S1x128 .f32) //
      ∀ (xi6 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS)) -∗ K ⟨⟩))
          ⊢ wp frame (wpE (defs₀ (F := F)) Variants.none c none) E (cc4__pool_head_kernel i arg1 harg1 arg2 harg2 arg3 harg3 arg4 harg4 arg5 harg5 arg6 harg6 arg7 harg7 arg8 harg8) K } := by
  refine ⟨[], ?_, fun xi6 E K => ?run⟩
  case run =>
    simp only [cc4__pool_head_kernel_eq_skeleton]; unfold cc4__pool_head_kernel_skel
    simp only [k4_part1_eq_skeleton, k4_part2_eq_skeleton, k4_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS

end Cert.KernelIdeal.Hand

end
-- ==== Proof.KI.Region4RunB.lean ====
/-
  Region 4's kernel body run whole at a grid point that is neither the first nor the last (neither branch taken): on whole staging memrefs — the six inputs' at their contents, the result's at contents handed back untouched, the
  scratch at the contents `xs` the point before left — the body runs to the continuation holding the inputs' as they were, and the
  scratch with its stores written over exactly the contents it was entered with. The lists of stores (last first) are the witnesses the run finds.
-/
import proofs.«101636_j2104533975212_1_alg».proof.Proof.KI.Region4RunA

-- membership in a rectangle of 5000 rows is decided by a structural recursion once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run's proof term is large: closing the definition walks it past the default budget
set_option maxHeartbeats 4000000 in
noncomputable def kernelRun4_B (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (arg8 : Memref sig .tc .vmem S1x128 .f32) (harg8 : arg8.IsWhole) (hc0 : ¬cond4_0 i) (hc1 : ¬cond4_1 i)
    (x0 : Vec F S5000x64 .f32) (x1 : Vec F S5000x5 .f32) (x2 : Vec F S70x32 .f32) (x3 : Vec F S32 .f32) (x4 : Vec F S32x2 .f32) (x5 : Vec F S2 .f32) (xs : Vec F S1x128 .f32) :
    Σ' (L6 : List (View.Piece (Elt F) S1x2 .f32)), { LS : List (View.Piece (Elt F) S1x128 .f32) //
      ∀ (xi6 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (arg8.view.loc (c : Thread nD τ) ↦[arg8.view.set]{fullShare} arg8.view.writes (Elt F) (harg8.unread xs) LS)) -∗ K ⟨⟩))
          ⊢ wp frame (wpE (defs₀ (F := F)) Variants.none c none) E (cc4__pool_head_kernel i arg1 harg1 arg2 harg2 arg3 harg3 arg4 harg4 arg5 harg5 arg6 harg6 arg7 harg7 arg8 harg8) K } := by
  refine ⟨[], ?_, fun xi6 E K => ?run⟩
  case run =>
    simp only [cc4__pool_head_kernel_eq_skeleton]; unfold cc4__pool_head_kernel_skel
    simp only [k4_part1_eq_skeleton, k4_part2_eq_skeleton, k4_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexact HS

end Cert.KernelIdeal.Hand

end
-- ==== Proof.KI.Region4RunC.lean ====
/-
  Region 4's kernel body run whole at the last grid point (the zero-fill not taken, the head taken): on whole staging memrefs — the six inputs' at their contents, the result's at anything, the
  scratch at the contents `xs` the point before left — the body runs to the continuation holding the inputs' as they were, the result's buffer with its stores written, and the
  scratch with its stores written over exactly the contents it was entered with. The lists of stores (last first) are the witnesses the run finds.
-/
import proofs.«101636_j2104533975212_1_alg».proof.Proof.KI.Region4RunB

-- membership in a rectangle of 5000 rows is decided by a structural recursion once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run's proof term is large: closing the definition walks it past the default budget
set_option maxHeartbeats 4000000 in
noncomputable def kernelRun4_C (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (arg8 : Memref sig .tc .vmem S1x128 .f32) (harg8 : arg8.IsWhole) (hc0 : ¬cond4_0 i) (hc1 : cond4_1 i)
    (x0 : Vec F S5000x64 .f32) (x1 : Vec F S5000x5 .f32) (x2 : Vec F S70x32 .f32) (x3 : Vec F S32 .f32) (x4 : Vec F S32x2 .f32) (x5 : Vec F S2 .f32) (xs : Vec F S1x128 .f32) :
    Σ' (L6 : List (View.Piece (Elt F) S1x2 .f32)), { LS : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (arg8.view.loc (c : Thread nD τ) ↦[arg8.view.set]{fullShare} arg8.view.writes (Elt F) (harg8.unread xs) LS)) -∗ K ⟨⟩))
          ⊢ wp frame (wpE (defs₀ (F := F)) Variants.none c none) E (cc4__pool_head_kernel i arg1 harg1 arg2 harg2 arg3 harg3 arg4 harg4 arg5 harg5 arg6 harg6 arg7 harg7 arg8 harg8) K } := by
  refine ⟨?_, ?_, fun E K => ?run⟩
  case run =>
    simp only [cc4__pool_head_kernel_eq_skeleton]; unfold cc4__pool_head_kernel_skel
    simp only [k4_part1_eq_skeleton, k4_part2_eq_skeleton, k4_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    iexact HS

end Cert.KernelIdeal.Hand

end
-- ==== Proof.KI.Region4.lean ====
/-
  Region 4 of the program's @main, the pooling and the head: what the scratch and the result's staging buffer hold after
  each grid point (a recursion over the points: the first point's run from any scratch contents, every later point's run from
  what the point before left), the region's invariant (the scoped rest with the scratch at exactly those contents, and the
  generator register), the pipeline's proof data over them and the body obligation at every point. Away from the last
  point the result window is idle: its buffer is handed back untouched and is not written back.
-/
import proofs.«101636_j2104533975212_1_alg».proof.Proof.KI.Region4RunC

-- membership in a rectangle of 5000 rows is decided by a structural recursion once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## What each case leaves -/

/-- The first point's stores into the scratch cover it: the first of them is the zero-fill of the whole buffer. -/
theorem scover4_A (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (arg8 : Memref sig .tc .vmem S1x128 .f32) (harg8 : arg8.IsWhole) (hc0 : cond4_0 i) (hc1 : ¬cond4_1 i)
    (x0 : Vec F S5000x64 .f32) (x1 : Vec F S5000x5 .f32) (x2 : Vec F S70x32 .f32) (x3 : Vec F S32 .f32) (x4 : Vec F S32x2 .f32) (x5 : Vec F S2 .f32) (y : S1x128.Idx) :
    ∃ pc ∈ (kernelRun4_A c i arg1 harg1 arg2 harg2 arg3 harg3 arg4 harg4 arg5 harg5 arg6 harg6 arg7 harg7 arg8 harg8 hc0 hc1 x0 x1 x2 x3 x4 x5).2.1, y ∈ pc.1.set :=
  View.cover_of_wholeMem (kernelRun4_A c i arg1 harg1 arg2 harg2 arg3 harg3 arg4 harg4 arg5 harg5 arg6 harg6 arg7 harg7 arg8 harg8 hc0 hc1 x0 x1 x2 x3 x4 x5).2.1 (by sl_whole_mem) y

/-- What the first point leaves in the scratch: its stores read back (over anything: they cover the buffer). -/
def sout4_A (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (arg8 : Memref sig .tc .vmem S1x128 .f32) (harg8 : arg8.IsWhole) (hc0 : cond4_0 i) (hc1 : ¬cond4_1 i)
    (x0 : Vec F S5000x64 .f32) (x1 : Vec F S5000x5 .f32) (x2 : Vec F S70x32 .f32) (x3 : Vec F S32 .f32) (x4 : Vec F S32x2 .f32) (x5 : Vec F S2 .f32) : Vec F S1x128 .f32 :=
  scM4.view.read (Elt F) (scM4.view.writes (Elt F) scM4.view.junk (kernelRun4_A c i arg1 harg1 arg2 harg2 arg3 harg3 arg4 harg4 arg5 harg5 arg6 harg6 arg7 harg7 arg8 harg8 hc0 hc1 x0 x1 x2 x3 x4 x5).2.1)

/-- What a middle point leaves in the scratch: its stores written over the contents `xs` it was entered with. -/
def sout4_B (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (hc0 : ¬cond4_0 i) (hc1 : ¬cond4_1 i)
    (x0 : Vec F S5000x64 .f32) (x1 : Vec F S5000x5 .f32) (x2 : Vec F S70x32 .f32) (x3 : Vec F S32 .f32) (x4 : Vec F S32x2 .f32) (x5 : Vec F S2 .f32) (xs : Vec F S1x128 .f32) : Vec F S1x128 .f32 :=
  scM4.view.read (Elt F) (scM4.view.writes (Elt F) ((Memref.isWhole_whole cc4_scratch0).unread xs) (kernelRun4_B c i arg1 harg1 arg2 harg2 arg3 harg3 arg4 harg4 arg5 harg5 arg6 harg6 arg7 harg7 scM4 (Memref.isWhole_whole cc4_scratch0) hc0 hc1 x0 x1 x2 x3 x4 x5 xs).2.1)

/-- What the last point leaves in the scratch: the same. -/
def sout4_C (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (hc0 : ¬cond4_0 i) (hc1 : cond4_1 i)
    (x0 : Vec F S5000x64 .f32) (x1 : Vec F S5000x5 .f32) (x2 : Vec F S70x32 .f32) (x3 : Vec F S32 .f32) (x4 : Vec F S32x2 .f32) (x5 : Vec F S2 .f32) (xs : Vec F S1x128 .f32) : Vec F S1x128 .f32 :=
  scM4.view.read (Elt F) (scM4.view.writes (Elt F) ((Memref.isWhole_whole cc4_scratch0).unread xs) (kernelRun4_C c i arg1 harg1 arg2 harg2 arg3 harg3 arg4 harg4 arg5 harg5 arg6 harg6 arg7 harg7 scM4 (Memref.isWhole_whole cc4_scratch0) hc0 hc1 x0 x1 x2 x3 x4 x5 xs).2.1)

/-- The last point's one store into the result's staging buffer covers it. -/
theorem cover4_C_6 (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (hc0 : ¬cond4_0 i) (hc1 : cond4_1 i)
    (x0 : Vec F S5000x64 .f32) (x1 : Vec F S5000x5 .f32) (x2 : Vec F S70x32 .f32) (x3 : Vec F S32 .f32) (x4 : Vec F S32x2 .f32) (x5 : Vec F S2 .f32) (xs : Vec F S1x128 .f32) (y : S1x2.Idx) :
    ∃ pc ∈ (kernelRun4_C c i arg1 harg1 arg2 harg2 arg3 harg3 arg4 harg4 arg5 harg5 arg6 harg6 arg7 harg7 scM4 (Memref.isWhole_whole cc4_scratch0) hc0 hc1 x0 x1 x2 x3 x4 x5 xs).1, y ∈ pc.1.set :=
  View.cover_of_tiledL (kernelRun4_C c i arg1 harg1 arg2 harg2 arg3 harg3 arg4 harg4 arg5 harg5 arg6 harg6 arg7 harg7 scM4 (Memref.isWhole_whole cc4_scratch0) hc0 hc1 x0 x1 x2 x3 x4 x5 xs).1 S1x2.size (by sl_kernel_rfl) y

/-- What the last point leaves in the result's staging buffer: that store read back. -/
def out4_C (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (hc0 : ¬cond4_0 i) (hc1 : cond4_1 i)
    (x0 : Vec F S5000x64 .f32) (x1 : Vec F S5000x5 .f32) (x2 : Vec F S70x32 .f32) (x3 : Vec F S32 .f32) (x4 : Vec F S32x2 .f32) (x5 : Vec F S2 .f32) (xs : Vec F S1x128 .f32) : Vec F S1x2 .f32 :=
  VO4_6.read (Elt F) (VO4_6.writes (Elt F) VO4_6.junk (kernelRun4_C c i arg1 harg1 arg2 harg2 arg3 harg3 arg4 harg4 arg5 harg5 arg6 harg6 arg7 harg7 scM4 (Memref.isWhole_whole cc4_scratch0) hc0 hc1 x0 x1 x2 x3 x4 x5 xs).1)

/-- The placeholder for the result's staging buffer at a point where the window is idle (nothing consults it). -/
def out4_idle : Vec F S1x2 .f32 := VO4_6.read (Elt F) VO4_6.junk

/-! ## What the result's buffer and the scratch hold after each point -/

/-- THE ACCUMULATION: after the body at position `n`, the result's staging buffer and the scratch (a pair). -/
def outsAt4 (c : Dev nD) : (n : ℕ) → n < cfg4.N → Vec F S1x2 .f32 × Vec F S1x128 .f32
  | 0, hn => (out4_idle,
      sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4 (Memref.isWhole_whole cc4_scratch0)
        ((hcond4_0 ⟨0, hn⟩).mpr rfl) (fun h => absurd ((hcond4_1 ⟨0, hn⟩).mp h) (show ¬ (0 : ℕ) = 19 by decide)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h1 : n + 1 = 19 then
      (out4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩)
          (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2,
       sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩)
          (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2)
    else
      (out4_idle,
       sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩)
          (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2)

theorem outsAt4_A (c : Dev nD) (t : Fin cfg4.N) (h0 : t.val = 0) (hc0 : cond4_0 (grid4.coords t)) (hc1 : ¬cond4_1 (grid4.coords t)) :
    outsAt4 V c t.val t.isLt = (out4_idle,
      sout4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4 (Memref.isWhole_whole cc4_scratch0) hc0 hc1 (iblk4 V c 0 t) (iblk4 V c 1 t) (iblk4 V c 2 t) (iblk4 V c 3 t) (iblk4 V c 4 t) (iblk4 V c 5 t)) := by
  obtain ⟨n, hn⟩ := t
  cases n with
  | zero => rfl
  | succ n => exact absurd h0 (Nat.succ_ne_zero n)

theorem outsAt4_B (c : Dev nD) (t : Fin cfg4.N) (h0 : t.val ≠ 0) (h1 : t.val ≠ 19) (hc0 : ¬cond4_0 (grid4.coords t)) (hc1 : ¬cond4_1 (grid4.coords t)) :
    outsAt4 V c t.val t.isLt = (out4_idle,
      sout4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) hc0 hc1 (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2) := by
  obtain ⟨n, hn⟩ := t
  cases n with
  | zero => exact absurd rfl h0
  | succ n => exact (dif_neg h1).trans rfl

theorem outsAt4_C (c : Dev nD) (t : Fin cfg4.N) (h0 : t.val ≠ 0) (h1 : t.val = 19) (hc0 : ¬cond4_0 (grid4.coords t)) (hc1 : cond4_1 (grid4.coords t)) :
    outsAt4 V c t.val t.isLt = (out4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) hc0 hc1 (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2,
      sout4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) hc0 hc1 (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant -/

/-- Before position `n`: before the first point the class's invariant (the scratch at anything); afterwards the scoped rest with
    the scratch at what the point before left in it, and the generator register at some state. -/
def PhiS4 (c : Dev nD) : (n : ℕ) → n ≤ cfg4.N → sProp 𝕄
  | 0, _ => Pipeline.ΦA spec4 c
  | n + 1, hn => iprop(withScr4 c (owns (c : Thread nD τ) scM4 fullShare ((outsAt4 V c n hn).2)) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(withScr4 c (owns (c : Thread nD τ) scM4 fullShare ((outsAt4 V c n hn).2)) ∗ (∃ r, prngReg c r)) := rfl

theorem PhiS4_pos (c : Dev nD) (n : ℕ) (h : n ≤ cfg4.N) (hz : n ≠ 0) :
    PhiS4 V c n h = iprop(withScr4 c (owns (c : Thread nD τ) scM4 fullShare ((outsAt4 V c (n - 1) (by omega)).2)) ∗ (∃ r, prngReg c r)) := by
  cases n with
  | zero => exact absurd rfl hz
  | succ n => rfl

/-! ## The pipeline's proof data -/

/-- The proof data of this region's pipeline on core `c`: the arrays as the region finds them; after the body at point `t` each
    input's buffer at its block and the result's at `outsAt4`'s first component; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point: the inputs' memrefs hold their blocks; the closed forms say which case the point is in; the
    invariant hands the body the scratch at what the point before left (at anything at the first point) and takes it back at
    this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  have hN : t.val < 20 := lt_of_lt_of_eq t.isLt (show cfg4.N = 20 from N_4)
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 6 t (idleAt4_6 t hc1) (noFlush4_6 t hc1)]
    rw [outsAt4_A V c t h0 hc0 hc1]
    unfold sout4_A; (try dsimp only)
    rw [PhiS4_castSucc V c t, PhiS4_zero V c _ _ h0, PhiA4_eq]
    iintro ⟨⟨HW, Hg⟩, Ho, ⟨%d0, H0⟩, ⟨%d1, H1⟩, ⟨%d2, H2⟩, ⟨%d3, H3⟩, ⟨%d4, H4⟩, ⟨%d5, H5⟩, ⟨%d6, H6⟩⟩
    ihave HW' := (withScr4_out c _) $$ HW
    icases HW' with ⟨Hoth, HS⟩
    iapply ((kernelRun4_A c (grid4.coords t) _ _ _ _ _ _ _ _ _ _ _ _ _ _ _ _ hc0 hc1 (iblk4 V c 0 t) (iblk4 V c 1 t) (iblk4 V c 2 t) (iblk4 V c 3 t) (iblk4 V c 4 t) (iblk4 V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, ⟨%es, HS⟩⟩
    isplitl [HS Hg Hoth]
    · isplitl [HS Hoth]
      · iapply (withScr4_in c _)
        isplitl [Hoth]; · iexact Hoth
        unfold owns; iexists _; isplitr
        swap; · iexact HS
        ipureintro; exact View.read_writes_of_cover _ _ _ _ _ (scover4_A c _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hc0 : ¬cond4_0 (grid4.coords t) := fun h => h0 ((hcond4_0 t).mp h)
    by_cases h1 : t.val = 19
    · have hc1 : cond4_1 (grid4.coords t) := (hcond4_1 t).mpr h1
      rw [show (dat4 V c).leavesExact 6 t = owns (c : Thread nD τ) (ms4_6 t) fullShare ((dat4 V c).after 6 t) from by
        unfold Dat.leavesExact; rw [liveAt4_6 t hc1], after4_6]
      rw [outsAt4_C V c t h0 h1 hc0 hc1]
      unfold out4_C sout4_C; (try dsimp only)
      rw [PhiS4_castSucc V c t, PhiS4_pos V c _ _ h0]
      iintro ⟨⟨HW, Hg⟩, Ho, ⟨%d0, H0⟩, ⟨%d1, H1⟩, ⟨%d2, H2⟩, ⟨%d3, H3⟩, ⟨%d4, H4⟩, ⟨%d5, H5⟩, ⟨%d6, H6⟩⟩
      ihave HW' := (withScr4_out c _) $$ HW
      icases HW' with ⟨Hoth, HS⟩
      iapply ((kernelRun4_C c (grid4.coords t) _ _ _ _ _ _ _ _ _ _ _ _ _ _ _ _ hc0 hc1 (iblk4 V c 0 t) (iblk4 V c 1 t) (iblk4 V c 2 t) (iblk4 V c 3 t) (iblk4 V c 4 t) (iblk4 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, HS⟩
      isplitl [HS Hg Hoth]
      · isplitl [HS Hoth]
        · iapply (withScr4_in c _)
          isplitl [Hoth]; · iexact Hoth
          unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover4_C_6 c _ _ _ _ _ _ _ _ _ _ _ _ _ _ _ _ _ _ _ _ _ _ _ _)
    · have hc1 : ¬cond4_1 (grid4.coords t) := fun h => h1 ((hcond4_1 t).mp h)
      rw [Dat.leavesExact_idle (dat4 V c) 6 t (idleAt4_6 t hc1) (noFlush4_6 t hc1)]
      rw [outsAt4_B V c t h0 h1 hc0 hc1]
      unfold sout4_B; (try dsimp only)
      rw [PhiS4_castSucc V c t, PhiS4_pos V c _ _ h0]
      iintro ⟨⟨HW, Hg⟩, Ho, ⟨%d0, H0⟩, ⟨%d1, H1⟩, ⟨%d2, H2⟩, ⟨%d3, H3⟩, ⟨%d4, H4⟩, ⟨%d5, H5⟩, ⟨%d6, H6⟩⟩
      ihave HW' := (withScr4_out c _) $$ HW
      icases HW' with ⟨Hoth, HS⟩
      iapply ((kernelRun4_B c (grid4.coords t) _ _ _ _ _ _ _ _ _ _ _ _ _ _ _ _ hc0 hc1 (iblk4 V c 0 t) (iblk4 V c 1 t) (iblk4 V c 2 t) (iblk4 V c 3 t) (iblk4 V c 4 t) (iblk4 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hg Hoth]
      · isplitl [HS Hoth]
        · iapply (withScr4_in c _)
          isplitl [Hoth]; · iexact Hoth
          unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the region's entry hands the pipeline is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class's back: the scratch's named contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 20 := N_4; omega), PhiA4_eq]
  iintro ⟨HW, Hg⟩
  ihave HW' := (withScr4_out c _) $$ HW
  icases HW' with ⟨Hoth, HS⟩
  isplitl [Hoth HS]
  · iapply (withScr4_in c _)
    isplitl [Hoth]; · iexact Hoth
    iexists _; iexact HS
  iexact Hg

end Cert.KernelIdeal.Hand

end
-- ==== Proof.KI.Run.lean ====
/-
  The whole run of the program's @main: three stretches of host operations, region 0, a stretch, regions 1 and 2, a stretch,
  regions 3 and 4. The contents of the core's unscoped buffers at each of the ten boundaries are a fold from the launch
  memory — a stretch applies its operations; a region leaves its arrays at what its pipeline's write-backs make of them and
  every other buffer as it found it. Every weakly fair execution terminates, faulting nowhere, with every unscoped buffer at
  the last boundary's contents; no stretch and no region writes an argument array, so each ends as launched.
-/
import proofs.«101636_j2104533975212_1_alg».proof.Proof.KI.Region0
import proofs.«101636_j2104533975212_1_alg».proof.Proof.KI.Region1
import proofs.«101636_j2104533975212_1_alg».proof.Proof.KI.Region2
import proofs.«101636_j2104533975212_1_alg».proof.Proof.KI.Region3
import proofs.«101636_j2104533975212_1_alg».proof.Proof.KI.Region4
import proofs.«101636_j2104533975212_1_alg».proof.Proof.Gen.KernelIdeal.Regions

-- membership in a rectangle of 5000 rows is decided by a structural recursion once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- Region 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At region 0's exit: its arrays at what the pipeline leaves (the inputs as entered, the result's write-backs folded), every
    other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- Region 1's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At region 1's exit: its arrays at what the pipeline leaves (the inputs as entered, the result's write-backs folded), every
    other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- At region 2's exit: its arrays at what the pipeline leaves (the inputs as entered, the result's write-backs folded), every
    other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- Region 3's entry. -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b

/-- At region 3's exit: its arrays at what the pipeline leaves (the inputs as entered, the result's write-backs folded), every
    other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- At region 4's exit: its arrays at what the pipeline leaves (the inputs as entered, the result's write-backs folded), every
    other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-! ## The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered from every unscoped buffer at `W3`, left at `W4`. Its arrays are split out
    of the unscoped buffers and put back at the exit contents; the generator register goes into the region's invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split out
    of the unscoped buffers and put back at the exit contents; the generator register goes into the region's invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W6`, left at `W7`. Its arrays are split out
    of the unscoped buffers and put back at the exit contents; the generator register goes into the region's invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W8`, left at `W9`. Its arrays are split out
    of the unscoped buffers and put back at the exit contents; the generator register goes into the region's invariant and
    comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split out
    of the unscoped buffers and put back at the exit contents; the generator register goes into the region's invariant and
    comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (V9 m ρ) c
    unfold Pipeline.ΦA at h
    rw [show (pdats m ρ 4 c).Φ 0 = (dat4 (V9 m ρ) c).Φ 0 from rfl]
    iintro ⟨Hp, -, Hr⟩
    iapply h
    isplitl [Hr]; · iexact Hr
    iexact Hp
  hout c := by
    rw [Pipeline.ownSems0_none]
    have h := hout4 (V9 m ρ) c
    unfold Pipeline.ΦA at h
    rw [show (pdats m ρ 4 c).Φ (Fin.last _) = (dat4 (V9 m ρ) c).Φ (Fin.last cfg4.N) from rfl]
    iintro Hphi
    ihave H := h $$ Hphi
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)),
    .region (reg3 m ρ),
    .region (reg4 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.KernelIdeal.Hand

end
-- ==== Proof.KI.Frame.lean ====
/-
  The program's frame: it runs to the end, faults nowhere, and leaves every argument array as launched. No stretch of host
  operations writes an argument (each writes only its own results) and no region changes any buffer but its result's array,
  so an argument's buffer at the last boundary reads back through the fold to the launch memory.
-/
import proofs.«101636_j2104533975212_1_alg».proof.Proof.KI.Run

-- membership in a rectangle of 5000 rows is decided by a structural recursion once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Region 0 changes no buffer but its result's array: an operand's array ends at its entry contents, and every other buffer is
    untouched. -/
theorem W4_keep (c : Dev nD) (b : Ref sig .tc) (hb : b ≠ main_v32) :
    W4 m ρ c (Proc.devRef .tc b) = W3 m ρ c (Proc.devRef .tc b) := by
  by_cases h : ∀ w, Pipeline.arrRef spec0 w ≠ b
  · exact W4_of_ne m ρ c b h
  · simp only [ne_eq, not_forall, not_not] at h
    obtain ⟨w, rfl⟩ := h
    rw [W4_arr]
    match w, hb with
    | ⟨0, _⟩, _ => exact ((dat0 (V3 m ρ) c).arrAt_in 0 rfl _).trans (A_eq0 (V3 m ρ) c 0)
    | ⟨1, _⟩, _ => exact ((dat0 (V3 m ρ) c).arrAt_in 1 rfl _).trans (A_eq0 (V3 m ρ) c 1)
    | ⟨2, _⟩, hb => exact absurd rfl hb

/-- Region 1 changes no buffer but its result's array: an operand's array ends at its entry contents, and every other buffer is
    untouched. -/
theorem W6_keep (c : Dev nD) (b : Ref sig .tc) (hb : b ≠ main_v46) :
    W6 m ρ c (Proc.devRef .tc b) = W5 m ρ c (Proc.devRef .tc b) := by
  by_cases h : ∀ w, Pipeline.arrRef spec1 w ≠ b
  · exact W6_of_ne m ρ c b h
  · simp only [ne_eq, not_forall, not_not] at h
    obtain ⟨w, rfl⟩ := h
    rw [W6_arr]
    match w, hb with
    | ⟨0, _⟩, _ => exact ((dat1 (V5 m ρ) c).arrAt_in 0 rfl _).trans (A_eq1 (V5 m ρ) c 0)
    | ⟨1, _⟩, _ => exact ((dat1 (V5 m ρ) c).arrAt_in 1 rfl _).trans (A_eq1 (V5 m ρ) c 1)
    | ⟨2, _⟩, hb => exact absurd rfl hb

/-- Region 2 changes no buffer but its result's array: an operand's array ends at its entry contents, and every other buffer is
    untouched. -/
theorem W7_keep (c : Dev nD) (b : Ref sig .tc) (hb : b ≠ main_v47) :
    W7 m ρ c (Proc.devRef .tc b) = W6 m ρ c (Proc.devRef .tc b) := by
  by_cases h : ∀ w, Pipeline.arrRef spec2 w ≠ b
  · exact W7_of_ne m ρ c b h
  · simp only [ne_eq, not_forall, not_not] at h
    obtain ⟨w, rfl⟩ := h
    rw [W7_arr]
    match w, hb with
    | ⟨0, _⟩, _ => exact ((dat2 (V6 m ρ) c).arrAt_in 0 rfl _).trans (A_eq2 (V6 m ρ) c 0)
    | ⟨1, _⟩, _ => exact ((dat2 (V6 m ρ) c).arrAt_in 1 rfl _).trans (A_eq2 (V6 m ρ) c 1)
    | ⟨2, _⟩, hb => exact absurd rfl hb

/-- Region 3 changes no buffer but its result's array: an operand's array ends at its entry contents, and every other buffer is
    untouched. -/
theorem W9_keep (c : Dev nD) (b : Ref sig .tc) (hb : b ≠ main_v61) :
    W9 m ρ c (Proc.devRef .tc b) = W8 m ρ c (Proc.devRef .tc b) := by
  by_cases h : ∀ w, Pipeline.arrRef spec3 w ≠ b
  · exact W9_of_ne m ρ c b h
  · simp only [ne_eq, not_forall, not_not] at h
    obtain ⟨w, rfl⟩ := h
    rw [W9_arr]
    match w, hb with
    | ⟨0, _⟩, _ => exact ((dat3 (V8 m ρ) c).arrAt_in 0 rfl _).trans (A_eq3 (V8 m ρ) c 0)
    | ⟨1, _⟩, _ => exact ((dat3 (V8 m ρ) c).arrAt_in 1 rfl _).trans (A_eq3 (V8 m ρ) c 1)
    | ⟨2, _⟩, hb => exact absurd rfl hb

/-- Region 4 changes no buffer but its result's array: an operand's array ends at its entry contents, and every other buffer is
    untouched. -/
theorem W10_keep (c : Dev nD) (b : Ref sig .tc) (hb : b ≠ main_v62) :
    W10 m ρ c (Proc.devRef .tc b) = W9 m ρ c (Proc.devRef .tc b) := by
  by_cases h : ∀ w, Pipeline.arrRef spec4 w ≠ b
  · exact W10_of_ne m ρ c b h
  · simp only [ne_eq, not_forall, not_not] at h
    obtain ⟨w, rfl⟩ := h
    rw [W10_arr]
    match w, hb with
    | ⟨0, _⟩, _ => exact ((dat4 (V9 m ρ) c).arrAt_in 0 rfl _).trans (A_eq4 (V9 m ρ) c 0)
    | ⟨1, _⟩, _ => exact ((dat4 (V9 m ρ) c).arrAt_in 1 rfl _).trans (A_eq4 (V9 m ρ) c 1)
    | ⟨2, _⟩, _ => exact ((dat4 (V9 m ρ) c).arrAt_in 2 rfl _).trans (A_eq4 (V9 m ρ) c 2)
    | ⟨3, _⟩, _ => exact ((dat4 (V9 m ρ) c).arrAt_in 3 rfl _).trans (A_eq4 (V9 m ρ) c 3)
    | ⟨4, _⟩, _ => exact ((dat4 (V9 m ρ) c).arrAt_in 4 rfl _).trans (A_eq4 (V9 m ρ) c 4)
    | ⟨5, _⟩, _ => exact ((dat4 (V9 m ρ) c).arrAt_in 5 rfl _).trans (A_eq4 (V9 m ρ) c 5)
    | ⟨6, _⟩, hb => exact absurd rfl hb

/-- A buffer that no stretch writes and that is no region's result ends as launched. -/
theorem W10_unwritten (c : Dev nD) (b : Ref sig .tc) (h0 : b ∉ hostOps0_W) (h01 : b ∉ hostOps0_1_W) (h02 : b ∉ hostOps0_2_W)
    (h1 : b ∉ hostOps1_W) (h3 : b ∉ hostOps3_W)
    (hr : b ≠ main_v32 ∧ b ≠ main_v46 ∧ b ≠ main_v47 ∧ b ≠ main_v61 ∧ b ≠ main_v62) :
    W10 m ρ c (Proc.devRef .tc b) = m ((c : Thread nD τ).loc b) :=
  (W10_keep m ρ c b hr.2.2.2.2).trans <| (W9_keep m ρ c b hr.2.2.2.1).trans <|
  (StableHlo.after_of_writes_sub hostOps3 _ hostOps3_writes h3).trans <|
  (W7_keep m ρ c b hr.2.2.1).trans <| (W6_keep m ρ c b hr.2.1).trans <|
  (StableHlo.after_of_writes_sub hostOps1 _ hostOps1_writes h1).trans <|
  (W4_keep m ρ c b hr.1).trans <|
  (StableHlo.after_of_writes_sub hostOps0_2 _ hostOps0_2_writes h02).trans <|
  (StableHlo.after_of_writes_sub hostOps0_1 _ hostOps0_1_writes h01).trans <|
  (StableHlo.after_of_writes_sub hostOps0 _ hostOps0_writes h0).trans rfl

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W10_unwritten m ρ c main_arg0 (by decide) (by decide) (by decide) (by decide) (by decide) ⟨by decide, by decide, by decide, by decide, by decide⟩),
      (h c _ (mem_uc main_arg1 (by decide))).trans (W10_unwritten m ρ c main_arg1 (by decide) (by decide) (by decide) (by decide) (by decide) ⟨by decide, by decide, by decide, by decide, by decide⟩),
      (h c _ (mem_uc main_arg2 (by decide))).trans (W10_unwritten m ρ c main_arg2 (by decide) (by decide) (by decide) (by decide) (by decide) ⟨by decide, by decide, by decide, by decide, by decide⟩),
      (h c _ (mem_uc main_arg3 (by decide))).trans (W10_unwritten m ρ c main_arg3 (by decide) (by decide) (by decide) (by decide) (by decide) ⟨by decide, by decide, by decide, by decide, by decide⟩),
      (h c _ (mem_uc main_arg4 (by decide))).trans (W10_unwritten m ρ c main_arg4 (by decide) (by decide) (by decide) (by decide) (by decide) ⟨by decide, by decide, by decide, by decide, by decide⟩),
      (h c _ (mem_uc main_arg5 (by decide))).trans (W10_unwritten m ρ c main_arg5 (by decide) (by decide) (by decide) (by decide) (by decide) ⟨by decide, by decide, by decide, by decide, by decide⟩),
      (h c _ (mem_uc main_arg6 (by decide))).trans (W10_unwritten m ρ c main_arg6 (by decide) (by decide) (by decide) (by decide) (by decide) ⟨by decide, by decide, by decide, by decide, by decide⟩),
      (h c _ (mem_uc main_arg7 (by decide))).trans (W10_unwritten m ρ c main_arg7 (by decide) (by decide) (by decide) (by decide) (by decide) ⟨by decide, by decide, by decide, by decide, by decide⟩),
      (h c _ (mem_uc main_arg8 (by decide))).trans (W10_unwritten m ρ c main_arg8 (by decide) (by decide) (by decide) (by decide) (by decide) ⟨by decide, by decide, by decide, by decide, by decide⟩),
      (h c _ (mem_uc main_arg9 (by decide))).trans (W10_unwritten m ρ c main_arg9 (by decide) (by decide) (by decide) (by decide) (by decide) ⟨by decide, by decide, by decide, by decide, by decide⟩)⟩) (run_all m ρ)

end Cert.KernelIdeal.Hand

end
-- ==== Proof.KI.Bridge0.lean ====
/-
  Region 0 against the reference: the region's result array, after its twenty points, is the reference's first linear map,
  the whole [100000,5] array times the [5,64] weight. Point t writes rows 5000·t … 5000·t + 4999 of the result as its block of
  rows of the first operand times the whole second operand; a row's product only reads that row, so the block of the product
  is the product of the block, and the twenty blocks tile the rows.
-/
import proofs.«101636_j2104533975212_1_alg».proof.Proof.KI.Region0
import proofs.«101636_j2104533975212_1_alg».proof.Proof.RefReadP
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The zero offsets of a whole-buffer rectangle, as a constant function. -/
theorem zero_off0 : (![0, 0] : Fin 2 → Nat) = fun _ => 0 := funext fun a => by fin_cases a <;> rfl

/-- The product's first operand is read at the output's row, -/
theorem lhs0_row (j : S5000x64.Idx) (q : dot_S5000x5_S5x64_S5000x64_1_0_0_1_n_n.contr.Idx) :
    (dot_S5000x5_S5x64_S5000x64_1_0_0_1_n_n.lhsIdx j q 0).val = (j 0).val := by
  unfold DotDims.lhsIdx
  rw [dif_neg (show ¬(0 : Fin S5000x5.rank) ∈ dot_S5000x5_S5x64_S5000x64_1_0_0_1_n_n.lhsBatch by decide), dif_pos (show (0 : Fin S5000x5.rank) ∈ dot_S5000x5_S5x64_S5000x64_1_0_0_1_n_n.lhsNonContracting by decide)]
  rfl
/-- and its second operand at the output's column. -/
theorem rhs0_col (j : S5000x64.Idx) (q : dot_S5000x5_S5x64_S5000x64_1_0_0_1_n_n.contr.Idx) :
    (dot_S5000x5_S5x64_S5000x64_1_0_0_1_n_n.rhsIdx j q 1).val = (j 1).val := by
  unfold DotDims.rhsIdx
  rw [dif_neg (show ¬(1 : Fin S5x64.rank) ∈ dot_S5000x5_S5x64_S5000x64_1_0_0_1_n_n.rhsBatch by decide), dif_pos (show (1 : Fin S5x64.rank) ∈ dot_S5000x5_S5x64_S5000x64_1_0_0_1_n_n.rhsNonContracting by decide)]
  rfl

/-- The body's product at an index: row `j 0` of the first block against column `j 1` of the second (the casts to bf16 are
    the identity on ideal values and the accumulator is the zero splat). -/
theorem pay0_apply (x0 : Vec Ideal S5000x5 .f32) (x1 : Vec Ideal S5x64 .f32) (j : S5000x64.Idx) :
    k0_pay1 (F := Ideal) x0 x1 j = ∑ k : Fin 5, x0 (ix2 (j 0) k) * x1 (ix2 k (j 1)) := by
  unfold k0_pay1
  simp only [matmul]
  rw [Ideal.matmul_constant_zero_apply, ← Equiv.sum_comp (contrEquiv1 dot_S5000x5_S5x64_S5000x64_1_0_0_1_n_n 5 rfl rfl).symm]
  refine Finset.sum_congr rfl fun k _ => ?_
  have hk := contrEquiv1_symm_val dot_S5000x5_S5x64_S5000x64_1_0_0_1_n_n 5 rfl rfl k
  have el : dot_S5000x5_S5x64_S5000x64_1_0_0_1_n_n.lhsIdx j ((contrEquiv1 dot_S5000x5_S5x64_S5000x64_1_0_0_1_n_n 5 rfl rfl).symm k) = ix2 (j 0) k := funext fun a => Fin.ext (by
    match a with
    | ⟨0, _⟩ => exact lhs0_row _ _
    | ⟨1, _⟩ => exact (dot_S5000x5_S5x64_S5000x64_1_0_0_1_n_n.lhsIdx_val_of_single rfl j _).trans hk)
  have er : dot_S5000x5_S5x64_S5000x64_1_0_0_1_n_n.rhsIdx j ((contrEquiv1 dot_S5000x5_S5x64_S5000x64_1_0_0_1_n_n 5 rfl rfl).symm k) = ix2 k (j 1) := funext fun a => Fin.ext (by
    match a with
    | ⟨0, _⟩ => exact (dot_S5000x5_S5x64_S5000x64_1_0_0_1_n_n.rhsIdx_val_of_single rfl j _).trans hk
    | ⟨1, _⟩ => exact rhs0_col _ _)
  rw [el, er]
  rfl

/-- The printed index maps, decided over the grid: at point `t` the first operand's and the result's blocks are block `t` of the
    rows and the only block of the columns; the second operand's block is the whole operand. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One point, over plain vectors: if the first block holds rows `5000·n …` of the array `A0`, and the second the whole of
    `A1`, the body's product at `j` is the whole product at row `5000·n + j 0`, column `j 1`. -/
theorem point0 (A0 : (⟨S100000x5, .f32⟩ : BufTy).Contents (Elt Ideal)) (A1 : (⟨S5x64, .f32⟩ : BufTy).Contents (Elt Ideal))
    (x0 : Vec Ideal S5000x5 .f32) (x1 : Vec Ideal S5x64 .f32) (n : Nat)
    (h0 : ∀ (y : S5000x5.Idx) (i : S100000x5.Idx), (i 0).val = n * 5000 + (y 0).val → (i 1).val = (y 1).val → x0 y = A0 i)
    (h1 : ∀ (y : S5x64.Idx) (i : S5x64.Idx), (i 0).val = (y 0).val → (i 1).val = (y 1).val → x1 y = A1 i)
    (j : S5000x64.Idx) (i : S100000x64.Idx) (hi0 : (i 0).val = n * 5000 + (j 0).val) (hi1 : (i 1).val = (j 1).val) :
    k0_pay1 (F := Ideal) x0 x1 j = Cert.ReferenceIdeal.ReadP.val_main_v32 (F := Ideal) A0 A1 i := by
  rw [pay0_apply, Cert.ReferenceIdeal.ReadP.val_main_v32_apply]
  refine Finset.sum_congr rfl fun k _ => ?_
  rw [h0 (ix2 (j 0) k) (Cert.ReferenceIdeal.ReadP.lidx_main_v32 i k) hi0 rfl,
    h1 (ix2 k (j 1)) (Cert.ReferenceIdeal.ReadP.ridx_main_v32 i k) rfl hi1]

/-- WHAT POINT `t` WRITES BACK is block `t` of the whole product of the two arrays as the region finds them. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal)
      (Cert.ReferenceIdeal.ReadP.val_main_v32 (F := Ideal) (V c main_arg0) (V c main_arg2)) := by
  show (cfg0.win 2).cut (grid0.coords t) ((dat0 V c).after 2 t) = _
  rw [after0_2]
  unfold out0_2
  rw [View.canon_unit_zero zero_off0]
  simp only [View.ld_unit_zero (S := S5000x5) zero_off0, View.ld_unit_zero (S := S5x64) zero_off0]
  obtain ⟨e0, e1, e2, e3, e4, e5⟩ := idx_facts0 t
  funext j
  refine point0 _ _ _ _ t.val ?_ ?_ j _ ?_ ?_
  · intro y i hi0 hi1
    show V c main_arg0 (((cfg0.win 0).blk t).view.emb y) = V c main_arg0 i
    refine congrArg _ (funext fun a => Fin.ext ?_)
    match a with
    | ⟨0, _⟩ => show win0_0.index t (0 : Fin 2) * 5000 + 1 * (y 0).val = (i 0).val; omega
    | ⟨1, _⟩ => show win0_0.index t (1 : Fin 2) * 5 + 1 * (y 1).val = (i 1).val; omega
  · intro y i hi0 hi1
    show V c main_arg2 (((cfg0.win 1).blk t).view.emb y) = V c main_arg2 i
    refine congrArg _ (funext fun a => Fin.ext ?_)
    match a with
    | ⟨0, _⟩ => show win0_1.index t (0 : Fin 2) * 5 + 1 * (y 0).val = (i 0).val; omega
    | ⟨1, _⟩ => show win0_1.index t (1 : Fin 2) * 64 + 1 * (y 1).val = (i 1).val; omega
  · show win0_2.index t (0 : Fin 2) * 5000 + 1 * (j 0).val = t.val * 5000 + (j 0).val; omega
  · show win0_2.index t (1 : Fin 2) * 64 + 1 * (j 1).val = (j 1).val; omega

/-- An index of the result is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- The twenty blocks tile the rows: row `r` is in the block of point `r / 5000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE RESULT ARRAY after the region is the reference's product of the two arrays the region found. -/
theorem bridge0 (V : (c : Dev nD) → (b : Ref sig .tc) → Buf (Elt Ideal) ((c : Thread nD τ).loc b)) (c : Dev nD) :
    (dat0 (F := Ideal) V c).arrAt 2 cfg0.N = Cert.ReferenceIdeal.ReadP.val_main_v32 (F := Ideal) (V c main_arg0) (V c main_arg2) :=
  (dat0 (F := Ideal) V c).arrAt_eq_of_cover 2 _ (fun t _ => flushed0_eq V c t) cover0

end Cert.KernelIdeal.Hand

end
-- ==== Proof.KI.Bridge1.lean ====
/-
  Region 1 against the reference: the region's result array, after its twenty points, is the reference's first layer after
  its bias and its clip at zero, max(agg + b, 0) row by row. Point t writes rows 5000·t … 5000·t + 4999 of the result from
  its block of rows of the aggregate and the whole bias; the operation is pointwise in the row, so the block of the result
  is the result of the block, and the twenty blocks tile the rows. The reference adds the bias broadcast twice ([64] to
  [1,64] to [100000,64]) and clips against a broadcast zero; the body casts the bias to [1,64], broadcasts it over its 5000
  rows and clips against the splat of the same zero word: both read the bias at the column.
-/
import proofs.«101636_j2104533975212_1_alg».proof.Proof.KI.Region1
import proofs.«101636_j2104533975212_1_alg».proof.Proof.RefReadP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The zero offsets of a whole-buffer rectangle, as a constant function: two axes, -/
theorem zero_off1 : (![0, 0] : Fin 2 → Nat) = fun _ => 0 := funext fun a => by fin_cases a <;> rfl
/-- and one. -/
theorem zero_off1' : (![0] : Fin 1 → Nat) = fun _ => 0 := funext fun a => by fin_cases a; rfl

/-- The body's value at row `p`, column `q`: the aggregate there plus the bias at `q`, clipped below at the zero word (the
    reshape to the same shape is the identity; the bias cast to one row and broadcast over the rows reads it at the column). -/
theorem pay1_apply (x0 : Vec Ideal S5000x64 .f32) (x1 : Vec Ideal S64 .f32) (p : Fin 5000) (q : Fin 64) :
    k1_pay1 (F := Ideal) x0 x1 (ix2 p q) = max (x0 (ix2 p q) + x1 (ix1 q)) (Ideal.ofBits .f32 0x00000000#32) := by
  unfold k1_pay1
  simp only [shapeCast_self]
  rw [maximumf_apply, addf_apply, broadcast_apply, broadcastTo_1b_ab_apply, shapeCast_a_1a_apply]
  rfl

/-- The printed index maps, decided over the grid: at point `t` the aggregate's and the result's blocks are block `t` of the rows
    and the only block of the columns; the bias's block is the whole bias. -/
theorem idx_facts1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- One point, over plain vectors and arrays: let `G` be max(A0 + B, 0) row by row, index by index. If the first block holds
    rows `5000·n …` of `A0`, and the second the whole of `B`, the body's value at `j` is `G` at row `5000·n + j 0`, column `j 1`. -/
theorem point1 (A0 : S100000x64.Idx → EReal) (B : S64.Idx → EReal) (G : S100000x64.Idx → EReal)
    (hG : ∀ i, G i = max (A0 i + B (ix1 (i 1))) (Ideal.ofBits .f32 0x00000000#32))
    (x0 : Vec Ideal S5000x64 .f32) (x1 : Vec Ideal S64 .f32) (n : Nat)
    (h0 : ∀ (y : S5000x64.Idx) (i : S100000x64.Idx), (i 0).val = n * 5000 + (y 0).val → (i 1).val = (y 1).val → x0 y = A0 i)
    (h1 : ∀ (y : S64.Idx) (i : S64.Idx), (i 0).val = (y 0).val → x1 y = B i)
    (j : S5000x64.Idx) (i : S100000x64.Idx) (hi0 : (i 0).val = n * 5000 + (j 0).val) (hi1 : (i 1).val = (j 1).val) :
    k1_pay1 (F := Ideal) x0 x1 j = G i := by
  obtain ⟨p, q, rfl⟩ : ∃ (p : Fin 5000) (q : Fin 64), j = ix2 p q := ⟨j 0, j 1, eq_ix2 j⟩
  rw [pay1_apply, hG, h0 (ix2 p q) i hi0 hi1, h1 (ix1 q) (ix1 (i 1)) hi1]

/-- WHAT POINT `t` WRITES BACK is block `t` of `G`, max(A0 + B, 0) of the two arrays as the region finds them. -/
theorem flushed1_eq (V : (c : Dev nD) → (b : Ref sig .tc) → Buf (Elt Ideal) ((c : Thread nD τ).loc b)) (c : Dev nD) (G : S100000x64.Idx → EReal)
    (A0 : S100000x64.Idx → EReal) (B : S64.Idx → EReal) (hA0 : V c main_v45 = A0) (hB : V c main_arg3 = B)
    (hG : ∀ i, G i = max (A0 i + B (ix1 (i 1))) (Ideal.ofBits .f32 0x00000000#32))
    (t : Fin cfg1.N) :
    (dat1 (F := Ideal) V c).flushed 2 t = ((cfg1.win 2).blk t).view.read (Elt Ideal) G := by
  subst hA0 hB
  show (cfg1.win 2).cut (grid1.coords t) ((dat1 V c).after 2 t) = _
  rw [after1_2]
  unfold out1_2
  rw [View.canon_unit_zero zero_off1]
  simp only [View.ld_unit_zero (S := S5000x64) zero_off1, View.ld_unit_zero (S := S64) zero_off1']
  obtain ⟨e0, e1, e2, e3, e4⟩ := idx_facts1 t
  funext j
  show k1_pay1 (F := Ideal) (iblk1 V c 0 t) (iblk1 V c 1 t) j = G (((cfg1.win 2).blk t).view.emb j)
  refine point1 (V c main_v45) (V c main_arg3) G hG _ _ t.val ?_ ?_ j _ ?_ ?_
  · intro y i hi0 hi1
    show V c main_v45 (((cfg1.win 0).blk t).view.emb y) = V c main_v45 i
    refine congrArg _ (funext fun a => Fin.ext ?_)
    match a with
    | ⟨0, _⟩ => show win1_0.index t (0 : Fin 2) * 5000 + 1 * (y 0).val = (i 0).val; omega
    | ⟨1, _⟩ => show win1_0.index t (1 : Fin 2) * 64 + 1 * (y 1).val = (i 1).val; omega
  · intro y i hi0
    show V c main_arg3 (((cfg1.win 1).blk t).view.emb y) = V c main_arg3 i
    refine congrArg _ (funext fun a => Fin.ext ?_)
    match a with
    | ⟨0, _⟩ => show win1_1.index t (0 : Fin 1) * 64 + 1 * (y 0).val = (i 0).val; omega
  · show win1_2.index t (0 : Fin 2) * 5000 + 1 * (j 0).val = t.val * 5000 + (j 0).val; omega
  · show win1_2.index t (1 : Fin 2) * 64 + 1 * (j 1).val = (j 1).val; omega

/-- An index of the result is in point `t`'s block iff each coordinate is in the block's range on its axis. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v46).slice (win1_2.rect t)).set ↔ _
  rw [View.set_slice_whole, Rect.mem_set_unit]
  exact Iff.rfl

/-- The twenty blocks tile the rows: row `r` is in the block of point `r / 5000`. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e0, e1, e2, e3, e4⟩ := idx_facts1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The reference's stage, index by index: the aggregate plus the bias at the column (its two broadcasts read the bias there),
    clipped below at the zero word. -/
theorem ref1_apply (x0 : (⟨Cert.ReferenceIdeal.S100000x5, .f32⟩ : BufTy).Contents (Elt Ideal)) (x1 : (⟨Cert.ReferenceIdeal.S2x3200000, .i32⟩ : BufTy).Contents (Elt Ideal)) (x2 : (⟨Cert.ReferenceIdeal.S5x64, .f32⟩ : BufTy).Contents (Elt Ideal))
    (x3 : (⟨Cert.ReferenceIdeal.S64, .f32⟩ : BufTy).Contents (Elt Ideal)) (i : S100000x64.Idx) :
    Cert.ReferenceIdeal.ReadP.val_main_v49 (F := Ideal) x0 x1 x2 x3 i
      = max (Cert.ReferenceIdeal.ReadP.val_main_v45 (F := Ideal) x0 x1 x2 i + x3 (ix1 (i 1))) (Ideal.ofBits .f32 0x00000000#32) := by
  rw [Cert.ReferenceIdeal.ReadP.val_main_v49_apply, Cert.ReferenceIdeal.ReadP.val_main_v48_apply]
  generalize Cert.ReferenceIdeal.ReadP.val_main_v45 (F := Ideal) x0 x1 x2 = A
  have e : Cert.ReferenceIdeal.ReadP.idx_main_v46 (Cert.ReferenceIdeal.ReadP.idx_main_v47 i) = ix1 (i 1) := funext fun a => Fin.ext (by
    match a with
    | ⟨0, _⟩ => rfl)
  rw [Cert.ReferenceIdeal.ReadP.val_main_v47_apply, Cert.ReferenceIdeal.ReadP.val_main_v46_apply, Cert.ReferenceIdeal.ReadP.val_main_call1_v0_apply, Cert.ReferenceIdeal.ReadP.val_main_call1_cst_apply, e]
  rfl

/-- THE RESULT ARRAY after the region is the reference's first layer after its bias and clip, when the region finds the
    aggregate and the bias in its two operand arrays. -/
theorem bridge1 (V : (c : Dev nD) → (b : Ref sig .tc) → Buf (Elt Ideal) ((c : Thread nD τ).loc b)) (c : Dev nD)
    (x0 : (⟨Cert.ReferenceIdeal.S100000x5, .f32⟩ : BufTy).Contents (Elt Ideal)) (x1 : (⟨Cert.ReferenceIdeal.S2x3200000, .i32⟩ : BufTy).Contents (Elt Ideal)) (x2 : (⟨Cert.ReferenceIdeal.S5x64, .f32⟩ : BufTy).Contents (Elt Ideal))
    (x3 : (⟨Cert.ReferenceIdeal.S64, .f32⟩ : BufTy).Contents (Elt Ideal))
    (hagg : V c main_v45 = Cert.ReferenceIdeal.ReadP.val_main_v45 (F := Ideal) x0 x1 x2) (hb : V c main_arg3 = x3) :
    (dat1 (F := Ideal) V c).arrAt 2 cfg1.N = Cert.ReferenceIdeal.ReadP.val_main_v49 (F := Ideal) x0 x1 x2 x3 :=
  (dat1 (F := Ideal) V c).arrAt_eq_of_cover 2 _
    (fun t _ => flushed1_eq V c (Cert.ReferenceIdeal.ReadP.val_main_v49 (F := Ideal) x0 x1 x2 x3)
      (Cert.ReferenceIdeal.ReadP.val_main_v45 (F := Ideal) x0 x1 x2) x3 hagg hb
      (fun i => ref1_apply x0 x1 x2 x3 i) t) cover1

end Cert.KernelIdeal.Hand

end
-- ==== Proof.KI.Bridge2.lean ====
/-
  Region 2 against the reference: the region's result array, after its twenty points, is the reference's second linear map,
  the whole [100000,64] output of the first layer times the [64,64] weight. Point t writes rows 5000·t … 5000·t + 4999 of the
  result as its block of rows of the first operand times the whole second operand; a row's product only reads that row, so
  the block of the product is the product of the block, and the twenty blocks tile the rows.
-/
import proofs.«101636_j2104533975212_1_alg».proof.Proof.KI.Region2
import proofs.«101636_j2104533975212_1_alg».proof.Proof.RefReadP
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The zero offsets of a whole-buffer rectangle, as a constant function. -/
theorem zero_off2 : (![0, 0] : Fin 2 → Nat) = fun _ => 0 := funext fun a => by fin_cases a <;> rfl

/-- The product's first operand is read at the output's row, -/
theorem lhs2_row (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- and its second operand at the output's column. -/
theorem rhs2_col (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's product at an index: row `j 0` of the first block against column `j 1` of the second (the reshape to the same
    shape and the casts to bf16 are the identity on ideal values and the accumulator is the zero splat). -/
theorem pay2_apply (x0 : Vec Ideal S5000x64 .f32) (x1 : Vec Ideal S64x64 .f32) (j : S5000x64.Idx) :
    k2_pay1 (F := Ideal) x0 x1 j = ∑ k : Fin 64, x0 (ix2 (j 0) k) * x1 (ix2 k (j 1)) := by
  unfold k2_pay1
  simp only [matmul, shapeCast_self]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx j ((contrEquiv1 dot_S5000x64_S64x64_S5000x64_1_0_0_1_n_n 64 rfl rfl).symm k) = ix2 (j 0) k := funext fun a => Fin.ext (by
    match a with
    | ⟨0, _⟩ => exact lhs2_row _ _
    | ⟨1, _⟩ => exact (dot_S5000x64_S64x64_S5000x64_1_0_0_1_n_n.lhsIdx_val_of_single rfl j _).trans hk)
  have er : dot_S5000x64_S64x64_S5000x64_1_0_0_1_n_n.rhsIdx j ((contrEquiv1 dot_S5000x64_S64x64_S5000x64_1_0_0_1_n_n 64 rfl rfl).symm k) = ix2 k (j 1) := funext fun a => Fin.ext (by
    match a with
    | ⟨0, _⟩ => exact (dot_S5000x64_S64x64_S5000x64_1_0_0_1_n_n.rhsIdx_val_of_single rfl j _).trans hk
    | ⟨1, _⟩ => exact rhs2_col _ _)
  rw [el, er]
  rfl

/-- The printed index maps, decided over the grid: at point `t` the first operand's and the result's blocks are block `t` of the
    rows and the only block of the columns; the second operand's block is the whole operand. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One point, over plain vectors and arrays: let `G` be the whole product of the arrays `A0` and `A1`, index by index. If the
    first block holds rows `5000·n …` of `A0`, and the second the whole of `A1`, the body's product at `j` is `G` at row
    `5000·n + j 0`, column `j 1`. -/
theorem point2 (A0 : S100000x64.Idx → EReal) (A1 : S64x64.Idx → EReal) (G : S100000x64.Idx → EReal)
    (hG : ∀ i, G i = ∑ k : Fin 64, A0 (Cert.ReferenceIdeal.ReadP.lidx_main_v50 i k) * A1 (Cert.ReferenceIdeal.ReadP.ridx_main_v50 i k))
    (x0 : Vec Ideal S5000x64 .f32) (x1 : Vec Ideal S64x64 .f32) (n : Nat)
    (h0 : ∀ (y : S5000x64.Idx) (i : S100000x64.Idx), (i 0).val = n * 5000 + (y 0).val → (i 1).val = (y 1).val → x0 y = A0 i)
    (h1 : ∀ (y : S64x64.Idx) (i : S64x64.Idx), (i 0).val = (y 0).val → (i 1).val = (y 1).val → x1 y = A1 i)
    (j : S5000x64.Idx) (i : S100000x64.Idx) (hi0 : (i 0).val = n * 5000 + (j 0).val) (hi1 : (i 1).val = (j 1).val) :
    k2_pay1 (F := Ideal) x0 x1 j = G i := by
  rw [pay2_apply, hG]
  refine Finset.sum_congr rfl fun k _ => ?_
  rw [h0 (ix2 (j 0) k) (Cert.ReferenceIdeal.ReadP.lidx_main_v50 i k) hi0 rfl,
    h1 (ix2 k (j 1)) (Cert.ReferenceIdeal.ReadP.ridx_main_v50 i k) rfl hi1]

/-- WHAT POINT `t` WRITES BACK is block `t` of the whole product `G` of the two arrays as the region finds them. -/
theorem flushed2_eq (V : (c : Dev nD) → (b : Ref sig .tc) → Buf (Elt Ideal) ((c : Thread nD τ).loc b)) (c : Dev nD) (G : S100000x64.Idx → EReal)
    (A0 : S100000x64.Idx → EReal) (A1 : S64x64.Idx → EReal) (hA0 : V c main_v46 = A0) (hA1 : V c main_arg4 = A1)
    (hG : ∀ i, G i = ∑ k : Fin 64, A0 (Cert.ReferenceIdeal.ReadP.lidx_main_v50 i k) * A1 (Cert.ReferenceIdeal.ReadP.ridx_main_v50 i k))
    (t : Fin cfg2.N) :
    (dat2 (F := Ideal) V c).flushed 2 t = ((cfg2.win 2).blk t).view.read (Elt Ideal) G := by
  subst hA0 hA1
  show (cfg2.win 2).cut (grid2.coords t) ((dat2 V c).after 2 t) = _
  rw [after2_2]
  unfold out2_2
  rw [View.canon_unit_zero zero_off2]
  simp only [View.ld_unit_zero (S := S5000x64) zero_off2, View.ld_unit_zero (S := S64x64) zero_off2]
  obtain ⟨e0, e1, e2, e3, e4, e5⟩ := idx_facts2 t
  funext j
  show k2_pay1 (F := Ideal) (iblk2 V c 0 t) (iblk2 V c 1 t) j = G (((cfg2.win 2).blk t).view.emb j)
  refine point2 (V c main_v46) (V c main_arg4) G hG _ _ t.val ?_ ?_ j _ ?_ ?_
  · intro y i hi0 hi1
    show V c main_v46 (((cfg2.win 0).blk t).view.emb y) = V c main_v46 i
    refine congrArg _ (funext fun a => Fin.ext ?_)
    match a with
    | ⟨0, _⟩ => show win2_0.index t (0 : Fin 2) * 5000 + 1 * (y 0).val = (i 0).val; omega
    | ⟨1, _⟩ => show win2_0.index t (1 : Fin 2) * 64 + 1 * (y 1).val = (i 1).val; omega
  · intro y i hi0 hi1
    show V c main_arg4 (((cfg2.win 1).blk t).view.emb y) = V c main_arg4 i
    refine congrArg _ (funext fun a => Fin.ext ?_)
    match a with
    | ⟨0, _⟩ => show win2_1.index t (0 : Fin 2) * 64 + 1 * (y 0).val = (i 0).val; omega
    | ⟨1, _⟩ => show win2_1.index t (1 : Fin 2) * 64 + 1 * (y 1).val = (i 1).val; omega
  · show win2_2.index t (0 : Fin 2) * 5000 + 1 * (j 0).val = t.val * 5000 + (j 0).val; omega
  · show win2_2.index t (1 : Fin 2) * 64 + 1 * (j 1).val = (j 1).val; omega

/-- An index of the result is in point `t`'s block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v47).slice (win2_2.rect t)).set ↔ _
  rw [View.set_slice_whole, Rect.mem_set_unit]
  exact Iff.rfl

/-- The twenty blocks tile the rows: row `r` is in the block of point `r / 5000`. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- THE RESULT ARRAY after the region is the reference's second linear map, when the region finds the first layer's output and
    the weight in its two operand arrays. -/
theorem bridge2 (V : (c : Dev nD) → (b : Ref sig .tc) → Buf (Elt Ideal) ((c : Thread nD τ).loc b)) (c : Dev nD)
    (x0 : (⟨Cert.ReferenceIdeal.S100000x5, .f32⟩ : BufTy).Contents (Elt Ideal)) (x1 : (⟨Cert.ReferenceIdeal.S2x3200000, .i32⟩ : BufTy).Contents (Elt Ideal)) (x2 : (⟨Cert.ReferenceIdeal.S5x64, .f32⟩ : BufTy).Contents (Elt Ideal))
    (x3 : (⟨Cert.ReferenceIdeal.S64, .f32⟩ : BufTy).Contents (Elt Ideal)) (x4 : (⟨Cert.ReferenceIdeal.S64x64, .f32⟩ : BufTy).Contents (Elt Ideal))
    (hh : V c main_v46 = Cert.ReferenceIdeal.ReadP.val_main_v49 (F := Ideal) x0 x1 x2 x3) (hw : V c main_arg4 = x4) :
    (dat2 (F := Ideal) V c).arrAt 2 cfg2.N = Cert.ReferenceIdeal.ReadP.val_main_v50 (F := Ideal) x0 x1 x2 x3 x4 :=
  (dat2 (F := Ideal) V c).arrAt_eq_of_cover 2 _
    (fun t _ => flushed2_eq V c (Cert.ReferenceIdeal.ReadP.val_main_v50 (F := Ideal) x0 x1 x2 x3 x4)
      (Cert.ReferenceIdeal.ReadP.val_main_v49 (F := Ideal) x0 x1 x2 x3) x4 hh hw
      (fun i => Cert.ReferenceIdeal.ReadP.val_main_v50_apply x0 x1 x2 x3 x4 i) t) cover2

end Cert.KernelIdeal.Hand

end
-- ==== Proof.KI.Bridge3.lean ====
/-
  Region 3 against the reference: the region's result array, after its twenty points, is the reference's second layer after
  its bias and its clip at zero, max(agg + b, 0) row by row. Point t writes rows 5000·t … 5000·t + 4999 of the result from
  its block of rows of the aggregate and the whole bias; the operation is pointwise in the row, so the block of the result
  is the result of the block, and the twenty blocks tile the rows. The reference adds the bias broadcast twice ([64] to
  [1,64] to [100000,64]) and clips against a broadcast zero; the body casts the bias to [1,64], broadcasts it over its 5000
  rows and clips against the splat of the same zero word: both read the bias at the column.
-/
import proofs.«101636_j2104533975212_1_alg».proof.Proof.KI.Region3
import proofs.«101636_j2104533975212_1_alg».proof.Proof.RefReadP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The zero offsets of a whole-buffer rectangle, as a constant function: two axes, -/
theorem zero_off3 : (![0, 0] : Fin 2 → Nat) = fun _ => 0 := funext fun a => by fin_cases a <;> rfl
/-- and one. -/
theorem zero_off3' : (![0] : Fin 1 → Nat) = fun _ => 0 := funext fun a => by fin_cases a; rfl

/-- The body's value at row `p`, column `q`: the aggregate there plus the bias at `q`, clipped below at the zero word (the
    reshape to the same shape is the identity; the bias cast to one row and broadcast over the rows reads it at the column). -/
theorem pay3_apply (x0 : Vec Ideal S5000x64 .f32) (x1 : Vec Ideal S64 .f32) (p : Fin 5000) (q : Fin 64) :
    k3_pay1 (F := Ideal) x0 x1 (ix2 p q) = max (x0 (ix2 p q) + x1 (ix1 q)) (Ideal.ofBits .f32 0x00000000#32) := by
  unfold k3_pay1
  simp only [shapeCast_self]
  rw [maximumf_apply, addf_apply, broadcast_apply, broadcastTo_1b_ab_apply, shapeCast_a_1a_apply]
  rfl

/-- The printed index maps, decided over the grid: at point `t` the aggregate's and the result's blocks are block `t` of the rows
    and the only block of the columns; the bias's block is the whole bias. -/
theorem idx_facts3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- One point, over plain vectors and arrays: let `G` be max(A0 + B, 0) row by row, index by index. If the first block holds
    rows `5000·n …` of `A0`, and the second the whole of `B`, the body's value at `j` is `G` at row `5000·n + j 0`, column `j 1`. -/
theorem point3 (A0 : S100000x64.Idx → EReal) (B : S64.Idx → EReal) (G : S100000x64.Idx → EReal)
    (hG : ∀ i, G i = max (A0 i + B (ix1 (i 1))) (Ideal.ofBits .f32 0x00000000#32))
    (x0 : Vec Ideal S5000x64 .f32) (x1 : Vec Ideal S64 .f32) (n : Nat)
    (h0 : ∀ (y : S5000x64.Idx) (i : S100000x64.Idx), (i 0).val = n * 5000 + (y 0).val → (i 1).val = (y 1).val → x0 y = A0 i)
    (h1 : ∀ (y : S64.Idx) (i : S64.Idx), (i 0).val = (y 0).val → x1 y = B i)
    (j : S5000x64.Idx) (i : S100000x64.Idx) (hi0 : (i 0).val = n * 5000 + (j 0).val) (hi1 : (i 1).val = (j 1).val) :
    k3_pay1 (F := Ideal) x0 x1 j = G i := by
  obtain ⟨p, q, rfl⟩ : ∃ (p : Fin 5000) (q : Fin 64), j = ix2 p q := ⟨j 0, j 1, eq_ix2 j⟩
  rw [pay3_apply, hG, h0 (ix2 p q) i hi0 hi1, h1 (ix1 q) (ix1 (i 1)) hi1]

/-- WHAT POINT `t` WRITES BACK is block `t` of `G`, max(A0 + B, 0) of the two arrays as the region finds them. -/
theorem flushed3_eq (V : (c : Dev nD) → (b : Ref sig .tc) → Buf (Elt Ideal) ((c : Thread nD τ).loc b)) (c : Dev nD) (G : S100000x64.Idx → EReal)
    (A0 : S100000x64.Idx → EReal) (B : S64.Idx → EReal) (hA0 : V c main_v60 = A0) (hB : V c main_arg5 = B)
    (hG : ∀ i, G i = max (A0 i + B (ix1 (i 1))) (Ideal.ofBits .f32 0x00000000#32))
    (t : Fin cfg3.N) :
    (dat3 (F := Ideal) V c).flushed 2 t = ((cfg3.win 2).blk t).view.read (Elt Ideal) G := by
  subst hA0 hB
  show (cfg3.win 2).cut (grid3.coords t) ((dat3 V c).after 2 t) = _
  rw [after3_2]
  unfold out3_2
  rw [View.canon_unit_zero zero_off3]
  simp only [View.ld_unit_zero (S := S5000x64) zero_off3, View.ld_unit_zero (S := S64) zero_off3']
  obtain ⟨e0, e1, e2, e3, e4⟩ := idx_facts3 t
  funext j
  show k3_pay1 (F := Ideal) (iblk3 V c 0 t) (iblk3 V c 1 t) j = G (((cfg3.win 2).blk t).view.emb j)
  refine point3 (V c main_v60) (V c main_arg5) G hG _ _ t.val ?_ ?_ j _ ?_ ?_
  · intro y i hi0 hi1
    show V c main_v60 (((cfg3.win 0).blk t).view.emb y) = V c main_v60 i
    refine congrArg _ (funext fun a => Fin.ext ?_)
    match a with
    | ⟨0, _⟩ => show win3_0.index t (0 : Fin 2) * 5000 + 1 * (y 0).val = (i 0).val; omega
    | ⟨1, _⟩ => show win3_0.index t (1 : Fin 2) * 64 + 1 * (y 1).val = (i 1).val; omega
  · intro y i hi0
    show V c main_arg5 (((cfg3.win 1).blk t).view.emb y) = V c main_arg5 i
    refine congrArg _ (funext fun a => Fin.ext ?_)
    match a with
    | ⟨0, _⟩ => show win3_1.index t (0 : Fin 1) * 64 + 1 * (y 0).val = (i 0).val; omega
  · show win3_2.index t (0 : Fin 2) * 5000 + 1 * (j 0).val = t.val * 5000 + (j 0).val; omega
  · show win3_2.index t (1 : Fin 2) * 64 + 1 * (j 1).val = (j 1).val; omega

/-- An index of the result is in point `t`'s block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- The twenty blocks tile the rows: row `r` is in the block of point `r / 5000`. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨e0, e1, e2, e3, e4⟩ := idx_facts3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The reference's stage, index by index: the aggregate plus the bias at the column (its two broadcasts read the bias there),
    clipped below at the zero word. -/
theorem ref3_apply (x0 : (⟨Cert.ReferenceIdeal.S100000x5, .f32⟩ : BufTy).Contents (Elt Ideal)) (x1 : (⟨Cert.ReferenceIdeal.S2x3200000, .i32⟩ : BufTy).Contents (Elt Ideal)) (x2 : (⟨Cert.ReferenceIdeal.S5x64, .f32⟩ : BufTy).Contents (Elt Ideal))
    (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (i : S100000x64.Idx) :
    Cert.ReferenceIdeal.ReadP.val_main_v67 (F := Ideal) x0 x1 x2 x3 x4 x5 i
      = max (Cert.ReferenceIdeal.ReadP.val_main_v63 (F := Ideal) x0 x1 x2 x3 x4 i + x5 (ix1 (i 1))) (Ideal.ofBits .f32 0x00000000#32) := by
  rw [Cert.ReferenceIdeal.ReadP.val_main_v67_apply, Cert.ReferenceIdeal.ReadP.val_main_v66_apply]
  generalize Cert.ReferenceIdeal.ReadP.val_main_v63 (F := Ideal) x0 x1 x2 x3 x4 = A
  have e : Cert.ReferenceIdeal.ReadP.idx_main_v64 (Cert.ReferenceIdeal.ReadP.idx_main_v65 i) = ix1 (i 1) := funext fun a => Fin.ext (by
    match a with
    | ⟨0, _⟩ => rfl)
  rw [Cert.ReferenceIdeal.ReadP.val_main_v65_apply, Cert.ReferenceIdeal.ReadP.val_main_v64_apply, Cert.ReferenceIdeal.ReadP.val_main_call2_v0_apply, Cert.ReferenceIdeal.ReadP.val_main_call2_cst_apply, e]
  rfl

/-- THE RESULT ARRAY after the region is the reference's second layer after its bias and clip, when the region finds the
    aggregate and the bias in its two operand arrays. -/
theorem bridge3 (V : (c : Dev nD) → (b : Ref sig .tc) → Buf (Elt Ideal) ((c : Thread nD τ).loc b)) (c : Dev nD)
    (x0 : (⟨Cert.ReferenceIdeal.S100000x5, .f32⟩ : BufTy).Contents (Elt Ideal)) (x1 : (⟨Cert.ReferenceIdeal.S2x3200000, .i32⟩ : BufTy).Contents (Elt Ideal)) (x2 : (⟨Cert.ReferenceIdeal.S5x64, .f32⟩ : BufTy).Contents (Elt Ideal))
    (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal))
    (hagg : V c main_v60 = Cert.ReferenceIdeal.ReadP.val_main_v63 (F := Ideal) x0 x1 x2 x3 x4) (hb : V c main_arg5 = x5) :
    (dat3 (F := Ideal) V c).arrAt 2 cfg3.N = Cert.ReferenceIdeal.ReadP.val_main_v67 (F := Ideal) x0 x1 x2 x3 x4 x5 :=
  (dat3 (F := Ideal) V c).arrAt_eq_of_cover 2 _
    (fun t _ => flushed3_eq V c (Cert.ReferenceIdeal.ReadP.val_main_v67 (F := Ideal) x0 x1 x2 x3 x4 x5)
      (Cert.ReferenceIdeal.ReadP.val_main_v63 (F := Ideal) x0 x1 x2 x3 x4) x5 hagg hb
      (fun i => ref3_apply x0 x1 x2 x3 x4 x5 i) t) cover3

end Cert.KernelIdeal.Hand

end
-- ==== Proof.KI.Glue.lean ====
/-
  The host operations between the regions, stage by stage against the reference. Both programs build the index vectors,
  the node degrees and the edge norm from the edge array by the same operations, and after each linear map both gather its
  rows by the source indices, scale them by the edge norm and add them up by the destination indices. So the contents the
  host operations leave at each boundary are the reference's stages of the same operations, once the linear maps' results
  are; and a buffer no host operation writes and that is no region's result is still as launched where a region reads it.
-/
import proofs.«101636_j2104533975212_1_alg».proof.Proof.KI.Frame
import proofs.«101636_j2104533975212_1_alg».proof.Proof.RefReadP
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The index vectors and the edge norm at region 0's entry

The first stretch builds the source and destination index vectors (each edge row followed by the self-loops), the degree of
every node (ones added up by the destination indices) and its inverse root; the second keeps the inverse root where the
degree is positive and puts zero elsewhere; the third gathers it at both ends of every edge and multiplies the two. Each
stage is the reference's stage of the same number: the same operation applied to the same operands, down to the edge array
the program was launched with. -/

/-- The source index vector after the first stretch. -/
theorem W1_v3 (c : Dev nD) :
    W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results
  rfl

/-- The destination index vector after the first stretch. -/
theorem W1_v6 (c : Dev nD) :
    W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  after_results
  rfl

/-- Where the degree is positive, after the first stretch. -/
theorem W1_v12 (c : Dev nD) :
    W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  after_results
  rfl

/-- The inverse root of the degree, after the first stretch. -/
theorem W1_v15 (c : Dev nD) :
    W1 m ρ c (Proc.devRef .tc main_v15) = Cert.ReferenceIdeal.ReadP.val_main_v15 (F := Ideal) (m ((c : Thread nD τ).loc main_arg1)) := by
  show StableHlo.after hostOps0 (W0 m ρ c) (Proc.devRef .tc main_v15) = _
  after_results
  rfl

/-- The zero that stands for the inverse root of a zero degree. -/
theorem W1_cst_3 (c : Dev nD) :
    W1 m ρ c (Proc.devRef .tc main_cst_3) = Cert.ReferenceIdeal.ReadP.val_main_cst_3 (F := Ideal) := by
  show StableHlo.after hostOps0 (W0 m ρ c) (Proc.devRef .tc main_cst_3) = _
  after_results
  rfl

/-- The second stretch as one term: the selection between the inverse root and the broadcast zero. -/
theorem ops0_1_term (V : Valuation τ sig (Elt Ideal)) :
    StableHlo.after hostOps0_1 V (Proc.devRef .tc main_v16)
      = select (V (Proc.devRef .tc main_v12)) (V (Proc.devRef .tc main_v15))
          (broadcastInDim S100000 ![] bcast_S_S100000 (id (V (Proc.devRef .tc main_cst_3)))) := by
  after_results
  rfl

/-- The second stretch: the inverse-root degree where the degree is positive, zero elsewhere, from any contents that hold
    the three operands at the reference's stages. -/
theorem ops0_1_v16 (V : Valuation τ sig (Elt Ideal)) (x1 : (⟨Cert.ReferenceIdeal.S2x3200000, .i32⟩ : BufTy).Contents (Elt Ideal))
    (h12 : V (Proc.devRef .tc main_v12) = Cert.ReferenceIdeal.ReadP.val_main_v12 (F := Ideal) x1)
    (h15 : V (Proc.devRef .tc main_v15) = Cert.ReferenceIdeal.ReadP.val_main_v15 (F := Ideal) x1)
    (h3 : V (Proc.devRef .tc main_cst_3) = Cert.ReferenceIdeal.ReadP.val_main_cst_3 (F := Ideal)) :
    StableHlo.after hostOps0_1 V (Proc.devRef .tc main_v16) = Cert.ReferenceIdeal.ReadP.val_main_v16 (F := Ideal) x1 := by
  rw [ops0_1_term, h12, h15, h3]
  rfl

/-- The third stretch: the edge norm, from any contents that hold the index vectors and the selected inverse-root degrees
    at the reference's stages. -/
theorem ops0_2_v31 (V : Valuation τ sig (Elt Ideal)) (x1 : (⟨Cert.ReferenceIdeal.S2x3200000, .i32⟩ : BufTy).Contents (Elt Ideal))
    (h3 : V (Proc.devRef .tc main_v3) = Cert.ReferenceIdeal.ReadP.val_main_v3 (F := Ideal) x1)
    (h6 : V (Proc.devRef .tc main_v6) = Cert.ReferenceIdeal.ReadP.val_main_v6 (F := Ideal) x1)
    (h16 : V (Proc.devRef .tc main_v16) = Cert.ReferenceIdeal.ReadP.val_main_v16 (F := Ideal) x1) :
    StableHlo.after hostOps0_2 V (Proc.devRef .tc main_v31) = Cert.ReferenceIdeal.ReadP.val_main_v31 (F := Ideal) x1 := by
  after_results_simp
  rw [h3, h6, h16]
  rfl

/-- A buffer the second stretch does not write is as the first left it. -/
theorem W2_of (c : Dev nD) (b : Ref sig .tc) (h : b ∉ hostOps0_1_W) :
    W2 m ρ c (Proc.devRef .tc b) = W1 m ρ c (Proc.devRef .tc b) :=
  StableHlo.after_of_writes_sub hostOps0_1 _ hostOps0_1_writes h

/-- A buffer the third stretch does not write is as the second left it. -/
theorem W3_of (c : Dev nD) (b : Ref sig .tc) (h : b ∉ hostOps0_2_W) :
    W3 m ρ c (Proc.devRef .tc b) = W2 m ρ c (Proc.devRef .tc b) :=
  StableHlo.after_of_writes_sub hostOps0_2 _ hostOps0_2_writes h

/-- The selected inverse-root degrees after the second stretch. -/
theorem W2_v16 (c : Dev nD) :
    W2 m ρ c (Proc.devRef .tc main_v16) = Cert.ReferenceIdeal.ReadP.val_main_v16 (F := Ideal) (m ((c : Thread nD τ).loc main_arg1)) :=
  ops0_1_v16 (W1 m ρ c) _ (W1_v12 m ρ c) (W1_v15 m ρ c) (W1_cst_3 m ρ c)

/-- At region 0's entry the two index vectors and the edge norm are the reference's. -/
theorem glue_idx (c : Dev nD) :
    W3 m ρ c (Proc.devRef .tc main_v3) = Cert.ReferenceIdeal.ReadP.val_main_v3 (F := Ideal) (m ((c : Thread nD τ).loc main_arg1))
    ∧ W3 m ρ c (Proc.devRef .tc main_v6) = Cert.ReferenceIdeal.ReadP.val_main_v6 (F := Ideal) (m ((c : Thread nD τ).loc main_arg1))
    ∧ W3 m ρ c (Proc.devRef .tc main_v31) = Cert.ReferenceIdeal.ReadP.val_main_v31 (F := Ideal) (m ((c : Thread nD τ).loc main_arg1)) :=
  ⟨(W3_of m ρ c main_v3 (by decide)).trans ((W2_of m ρ c main_v3 (by decide)).trans (W1_v3 m ρ c)),
   (W3_of m ρ c main_v6 (by decide)).trans ((W2_of m ρ c main_v6 (by decide)).trans (W1_v6 m ρ c)),
   ops0_2_v31 (W2 m ρ c) _ ((W2_of m ρ c main_v3 (by decide)).trans (W1_v3 m ρ c))
     ((W2_of m ρ c main_v6 (by decide)).trans (W1_v6 m ρ c)) (W2_v16 m ρ c)⟩

/-! ## The aggregation after each linear map

Rows of the linear map's result gathered by the source indices, scaled by the edge norm, added up by the destination
indices into zeros. The index vectors and the edge norm were written before region 0 and nothing since has touched them. -/

/-- A buffer that is neither of the first three regions' results and that the stretch after region 0 does not write is, at
    region 2's exit, as at region 0's entry. -/
theorem W7_eq_W3 (c : Dev nD) (b : Ref sig .tc) (hr : b ≠ main_v32 ∧ b ≠ main_v46 ∧ b ≠ main_v47) (h1 : b ∉ hostOps1_W) :
    W7 m ρ c (Proc.devRef .tc b) = W3 m ρ c (Proc.devRef .tc b) :=
  (W7_keep m ρ c b hr.2.2).trans <| (W6_keep m ρ c b hr.2.1).trans <|
  (StableHlo.after_of_writes_sub hostOps1 _ hostOps1_writes h1).trans <| W4_keep m ρ c b hr.1

/-- The aggregation stretch after region 0, from any contents that hold the index vectors, the edge norm and the linear
    map's result at the reference's stages. -/
theorem ops1_v45 (V : Valuation τ sig (Elt Ideal)) (x0 : (⟨Cert.ReferenceIdeal.S100000x5, .f32⟩ : BufTy).Contents (Elt Ideal)) (x1 : (⟨Cert.ReferenceIdeal.S2x3200000, .i32⟩ : BufTy).Contents (Elt Ideal))
    (x2 : (⟨Cert.ReferenceIdeal.S5x64, .f32⟩ : BufTy).Contents (Elt Ideal))
    (h3 : V (Proc.devRef .tc main_v3) = Cert.ReferenceIdeal.ReadP.val_main_v3 (F := Ideal) x1)
    (h6 : V (Proc.devRef .tc main_v6) = Cert.ReferenceIdeal.ReadP.val_main_v6 (F := Ideal) x1)
    (h31 : V (Proc.devRef .tc main_v31) = Cert.ReferenceIdeal.ReadP.val_main_v31 (F := Ideal) x1)
    (h32 : V (Proc.devRef .tc main_v32) = Cert.ReferenceIdeal.ReadP.val_main_v32 (F := Ideal) x0 x2) :
    StableHlo.after hostOps1 V (Proc.devRef .tc main_v45) = Cert.ReferenceIdeal.ReadP.val_main_v45 (F := Ideal) x0 x1 x2 := by
  after_results_simp
  rw [h3, h6, h31, h32]
  rfl

/-- The first layer's aggregate at region 1's entry is the reference's, once region 0's result is the reference's linear map. -/
theorem glue45 (c : Dev nD) (x0 : (⟨Cert.ReferenceIdeal.S100000x5, .f32⟩ : BufTy).Contents (Elt Ideal)) (x2 : (⟨Cert.ReferenceIdeal.S5x64, .f32⟩ : BufTy).Contents (Elt Ideal))
    (h32 : W4 m ρ c (Proc.devRef .tc main_v32) = Cert.ReferenceIdeal.ReadP.val_main_v32 (F := Ideal) x0 x2) :
    W5 m ρ c (Proc.devRef .tc main_v45) = Cert.ReferenceIdeal.ReadP.val_main_v45 (F := Ideal) x0 (m ((c : Thread nD τ).loc main_arg1)) x2 :=
  ops1_v45 (W4 m ρ c) x0 _ x2
    ((W4_keep m ρ c main_v3 (by decide)).trans (glue_idx m ρ c).1)
    ((W4_keep m ρ c main_v6 (by decide)).trans (glue_idx m ρ c).2.1)
    ((W4_keep m ρ c main_v31 (by decide)).trans (glue_idx m ρ c).2.2) h32

/-- The aggregation stretch after region 2, from any contents that hold the index vectors, the edge norm and the second
    linear map's result at the reference's stages. -/
theorem ops3_v60 (V : Valuation τ sig (Elt Ideal)) (x0 : (⟨Cert.ReferenceIdeal.S100000x5, .f32⟩ : BufTy).Contents (Elt Ideal)) (x1 : (⟨Cert.ReferenceIdeal.S2x3200000, .i32⟩ : BufTy).Contents (Elt Ideal))
    (x2 : (⟨Cert.ReferenceIdeal.S5x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal))
    (h3 : V (Proc.devRef .tc main_v3) = Cert.ReferenceIdeal.ReadP.val_main_v3 (F := Ideal) x1)
    (h6 : V (Proc.devRef .tc main_v6) = Cert.ReferenceIdeal.ReadP.val_main_v6 (F := Ideal) x1)
    (h31 : V (Proc.devRef .tc main_v31) = Cert.ReferenceIdeal.ReadP.val_main_v31 (F := Ideal) x1)
    (h47 : V (Proc.devRef .tc main_v47) = Cert.ReferenceIdeal.ReadP.val_main_v50 (F := Ideal) x0 x1 x2 x3 x4) :
    StableHlo.after hostOps3 V (Proc.devRef .tc main_v60) = Cert.ReferenceIdeal.ReadP.val_main_v63 (F := Ideal) x0 x1 x2 x3 x4 := by
  after_results_simp
  rw [h3, h6, h31, h47]
  rfl

/-- The second layer's aggregate at region 3's entry is the reference's, once region 2's result is the reference's second
    linear map. -/
theorem glue60 (c : Dev nD) (x0 : (⟨Cert.ReferenceIdeal.S100000x5, .f32⟩ : BufTy).Contents (Elt Ideal)) (x2 : (⟨Cert.ReferenceIdeal.S5x64, .f32⟩ : BufTy).Contents (Elt Ideal)) (x3 : (⟨Cert.ReferenceIdeal.S64, .f32⟩ : BufTy).Contents (Elt Ideal))
    (x4 : (⟨Cert.ReferenceIdeal.S64x64, .f32⟩ : BufTy).Contents (Elt Ideal))
    (h47 : W7 m ρ c (Proc.devRef .tc main_v47) = Cert.ReferenceIdeal.ReadP.val_main_v50 (F := Ideal) x0 (m ((c : Thread nD τ).loc main_arg1)) x2 x3 x4) :
    W8 m ρ c (Proc.devRef .tc main_v60) = Cert.ReferenceIdeal.ReadP.val_main_v63 (F := Ideal) x0 (m ((c : Thread nD τ).loc main_arg1)) x2 x3 x4 :=
  ops3_v60 (W7 m ρ c) x0 _ x2 x3 x4
    ((W7_eq_W3 m ρ c main_v3 ⟨by decide, by decide, by decide⟩ (by decide)).trans (glue_idx m ρ c).1)
    ((W7_eq_W3 m ρ c main_v6 ⟨by decide, by decide, by decide⟩ (by decide)).trans (glue_idx m ρ c).2.1)
    ((W7_eq_W3 m ρ c main_v31 ⟨by decide, by decide, by decide⟩ (by decide)).trans (glue_idx m ρ c).2.2) h47

/-! ## The launched arrays where the regions read them

A buffer no stretch so far has written and that is no earlier region's result is still as launched. -/

/-- At region 0's entry. -/
theorem arg_at3 (c : Dev nD) (b : Ref sig .tc) (h0 : b ∉ hostOps0_W) (h01 : b ∉ hostOps0_1_W) (h02 : b ∉ hostOps0_2_W) :
    W3 m ρ c (Proc.devRef .tc b) = m ((c : Thread nD τ).loc b) :=
  (StableHlo.after_of_writes_sub hostOps0_2 _ hostOps0_2_writes h02).trans <|
  (StableHlo.after_of_writes_sub hostOps0_1 _ hostOps0_1_writes h01).trans <|
  (StableHlo.after_of_writes_sub hostOps0 _ hostOps0_writes h0).trans rfl

/-- At region 1's entry. -/
theorem arg_at5 (c : Dev nD) (b : Ref sig .tc) (h0 : b ∉ hostOps0_W) (h01 : b ∉ hostOps0_1_W) (h02 : b ∉ hostOps0_2_W)
    (h32 : b ≠ main_v32) (h1 : b ∉ hostOps1_W) :
    W5 m ρ c (Proc.devRef .tc b) = m ((c : Thread nD τ).loc b) :=
  (StableHlo.after_of_writes_sub hostOps1 _ hostOps1_writes h1).trans <|
  (W4_keep m ρ c b h32).trans <| arg_at3 m ρ c b h0 h01 h02

/-- At region 2's entry. -/
theorem arg_at6 (c : Dev nD) (b : Ref sig .tc) (h0 : b ∉ hostOps0_W) (h01 : b ∉ hostOps0_1_W) (h02 : b ∉ hostOps0_2_W)
    (h32 : b ≠ main_v32) (h1 : b ∉ hostOps1_W) (h46 : b ≠ main_v46) :
    W6 m ρ c (Proc.devRef .tc b) = m ((c : Thread nD τ).loc b) :=
  (W6_keep m ρ c b h46).trans <| arg_at5 m ρ c b h0 h01 h02 h32 h1

/-- At region 3's entry. -/
theorem arg_at8 (c : Dev nD) (b : Ref sig .tc) (h0 : b ∉ hostOps0_W) (h01 : b ∉ hostOps0_1_W) (h02 : b ∉ hostOps0_2_W)
    (h32 : b ≠ main_v32) (h1 : b ∉ hostOps1_W) (h46 : b ≠ main_v46) (h47 : b ≠ main_v47) (h3 : b ∉ hostOps3_W) :
    W8 m ρ c (Proc.devRef .tc b) = m ((c : Thread nD τ).loc b) :=
  (StableHlo.after_of_writes_sub hostOps3 _ hostOps3_writes h3).trans <|
  (W7_keep m ρ c b h47).trans <| arg_at6 m ρ c b h0 h01 h02 h32 h1 h46

/-- At region 4's entry. -/
theorem arg_at9 (c : Dev nD) (b : Ref sig .tc) (h0 : b ∉ hostOps0_W) (h01 : b ∉ hostOps0_1_W) (h02 : b ∉ hostOps0_2_W)
    (h32 : b ≠ main_v32) (h1 : b ∉ hostOps1_W) (h46 : b ≠ main_v46) (h47 : b ≠ main_v47) (h3 : b ∉ hostOps3_W)
    (h61 : b ≠ main_v61) :
    W9 m ρ c (Proc.devRef .tc b) = m ((c : Thread nD τ).loc b) :=
  (W9_keep m ρ c b h61).trans <| arg_at8 m ρ c b h0 h01 h02 h32 h1 h46 h47 h3

end Cert.KernelIdeal.Hand

end
-- ==== Proof.KI.PoolSpec.lean ====
/-
  What region 4 (the pooling and the head) computes, stated over whole arrays at exact arithmetic: the scratch buffer ends
  holding 70 sums over all 100000 rows — the 64 column sums of
  the second layer's output, the column sums of x's columns 2, 3, 4, the sums of columns 0 and 1 of x over the rows whose
  column 2 is exactly 1, and the number of such rows (`PoolSums`) — and the [1,2] result is the head applied to that buffer
  and the four weight arrays (`headOf`: the body's own arithmetic, as one pure term).
-/
import proofs.«101636_j2104533975212_1_alg».proof.Proof.Gen.KernelIdeal.Skeleton
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-- The float 1 or 0 according to whether `v` is exactly 1: the comparison's one-bit result widened to 32 bits and read as a
    signed integer. -/
def msk (v : EReal) : EReal :=
  FloatOps.sitofp (F := Ideal) .f32 (BitVec.setWidth 32 (FloatOps.cmpf (F := Ideal) (φ := .f32) .oeq v (FloatOps.ofBits .f32 0x3F800000#32)))

/-- The 70 sums over all rows that the scratch buffer `S` ends holding, for the second layer's output `H` and the node
    features `X`. -/
structure PoolSums (S : Vec Ideal S1x128 .f32) (H : Vec Ideal S100000x64 .f32) (X : Vec Ideal S100000x5 .f32) : Prop where
  h : ∀ k : Fin 64, S (ix2 (0 : Fin 1) (⟨k.val, by omega⟩ : Fin 128)) = ∑ i : Fin 100000, H (ix2 i k)
  nc : S (ix2 (0 : Fin 1) (64 : Fin 128)) = ∑ i : Fin 100000, X (ix2 i (2 : Fin 5))
  na : S (ix2 (0 : Fin 1) (65 : Fin 128)) = ∑ i : Fin 100000, X (ix2 i (3 : Fin 5))
  no : S (ix2 (0 : Fin 1) (66 : Fin 128)) = ∑ i : Fin 100000, X (ix2 i (4 : Fin 5))
  sl : S (ix2 (0 : Fin 1) (67 : Fin 128)) = ∑ i : Fin 100000, X (ix2 i (0 : Fin 5)) * msk (X (ix2 i (2 : Fin 5)))
  sm : S (ix2 (0 : Fin 1) (68 : Fin 128)) = ∑ i : Fin 100000, X (ix2 i (1 : Fin 5)) * msk (X (ix2 i (2 : Fin 5)))
  cnt : S (ix2 (0 : Fin 1) (69 : Fin 128)) = ∑ i : Fin 100000, msk (X (ix2 i (2 : Fin 5)))

/-- The head as the kernel computes it from the scratch buffer and the four weight arrays. -/
def headOf (S : Vec Ideal S1x128 .f32) (W1 : Vec Ideal S70x32 .f32) (B1 : Vec Ideal S32 .f32) (W2 : Vec Ideal S32x2 .f32)
    (B2 : Vec Ideal S2 .f32) : Vec Ideal S1x2 .f32 :=
  k4_pay1 (F := Ideal) (k4_pay4 S) W1 B1 (k4_pay5 S W1) (k4_pay6 S W1) W2 B2

end Cert.KernelIdeal.Hand

end
-- ==== Proof.KI.HeadRef.lean ====
/-
  The head of region 4 against the reference's tail, at exact arithmetic: applied to a scratch buffer holding the 70 sums
  over all rows (`PoolSums`), the kernel's head (`headOf`) is the reference's [1,2] result.

  Both sides are one function of the 70 sums and the four weight arrays. The feature row is the 64 column sums times
  1/100000 — the reference divides by the word 100000, the kernel multiplies by the named reciprocal, and on every extended
  real the quotient by a nonzero real is the product with its reciprocal — followed by six scalars: three column sums, the
  sum of two of them, and two masked sums divided by the count clipped below at 1, selected where the count is above zero.
  The reference contracts the 70 features with the [70,32] weight in one sum; the kernel contracts the first 64 and adds
  the six products in the order the sum over `Fin 6` unfolds to, so the two agree by splitting `Fin 70` as
  `Fin (64 + 6)` — associativity of the sum only, no distributivity. After that the two chains are the same operations
  in the same order: the bias, the clip at zero, the [32,2] contraction, the bias, the logistic (which is
  `1 / (1 + exp (−x))` by definition), times 3, plus 2. A reference sum is "the word 0 plus the sum", and the word 0 is
  the extended real 0; the reference's mask (the one-bit comparison read unsigned) and the kernel's (the bit widened to
  32 bits and read signed) are both 0 or 1. The second layer's output is never opened: it is the same opaque term on both
  sides.
-/
import proofs.«101636_j2104533975212_1_alg».proof.Proof.KI.PoolSpec
import proofs.«101636_j2104533975212_1_alg».proof.Proof.RefReadP
import Idealize.ShloMosaic.Lib.Pipeline.Value
import Idealize.ShloMosaic.Lib.ValueIdx
import Idealize.ShloMosaic.Lib.IdealHost
import Idealize.ShloMosaic.PureOps.Ideal.Laws
import Idealize.ShloMosaic.PureOps.IdealRules

noncomputable section

namespace Cert.KernelIdeal.Hand

open Cert.KernelIdeal Cert.KernelIdeal.Gen Idealize.ShloMosaic Idealize.ShloMosaic.ValueIdx
open scoped BigOperators

namespace HeadRef

open Cert.ReferenceIdeal.ReadP

/-! ## Small tools: indices, a rank-1 sum, the constants -/

/-- Two rank-2 indices with the same coordinates are equal. -/
theorem idx2_ext {n0 n1 : Nat} (j k : (⟨2, ![n0, n1]⟩ : Shape).Idx) (h0 : (j 0).val = (k 0).val)
    (h1 : (j 1).val = (k 1).val) : j = k := by
  funext a; match a with | ⟨0, _⟩ => exact Fin.ext h0 | ⟨1, _⟩ => exact Fin.ext h1

/-- Two rank-1 indices with the same coordinate are equal. -/
theorem idx1_ext {n : Nat} (j k : (⟨1, ![n]⟩ : Shape).Idx) (h0 : (j 0).val = (k 0).val) : j = k := by
  funext a; match a with | ⟨0, _⟩ => exact Fin.ext h0

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The word `0x47C35000` denotes the real 100000. -/
theorem ofBits_100000 : Ideal.ofBits .f32 0x47C35000#32 = ((100000 : ℝ) : EReal) := by
  simp [Ideal.ofBits, Ideal.ieee, -EReal.coe_mul]; norm_num

/-- The named reciprocal denotes the rational 1/100000, by the certificate's table. -/
theorem inv_100000 : Named.named (F := Ideal) Cert.KernelIdeal.κ "inv_100000" (φ := .f32) 0x3727C5AC#32
    = ((1 / 100000 : ℝ) : EReal) :=
  IdealRules.named_const.ideal_named_scalar _ _ _ _ rfl

/-- Division by the word 100000 is the product with the named reciprocal, on every extended real. -/
theorem div_100000 (x : EReal) : Ideal.div x (Ideal.ofBits .f32 0x47C35000#32)
    = x * Named.named (F := Ideal) Cert.KernelIdeal.κ "inv_100000" (φ := .f32) 0x3727C5AC#32 := by
  rw [ofBits_100000, inv_100000, Ideal.div_coe (by norm_num : (100000 : ℝ) ≠ 0)]

/-- The one-bit comparison widened to 32 bits and read signed is the bit read unsigned: both are 0 or 1. -/
theorem msk_eq (v : EReal) : msk v = FloatOps.uitofp (F := Ideal) .f32
    (FloatOps.cmpf (F := Ideal) (φ := .f32) .oeq v (FloatOps.ofBits .f32 0x3F800000#32)) := by
  unfold msk
  generalize FloatOps.cmpf (F := Ideal) (φ := .f32) .oeq v (FloatOps.ofBits .f32 0x3F800000#32) = b
  rcases BitVec.eq_zero_or_eq_one b with h | h
  · subst h
    show (((BitVec.setWidth 32 (0#1)).toInt : ℝ) : EReal) = (((0#1 : BitVec 1).toNat : ℝ) : EReal)
    rw [show (BitVec.setWidth 32 (0#1)).toInt = 0 by decide, show (0#1 : BitVec 1).toNat = 0 by decide]
    simp
  · subst h
    show (((BitVec.setWidth 32 (1#1)).toInt : ℝ) : EReal) = (((1#1 : BitVec 1).toNat : ℝ) : EReal)
    rw [show (BitVec.setWidth 32 (1#1)).toInt = 1 by decide, show (1#1 : BitVec 1).toNat = 1 by decide]
    simp

/-! ## The reference's six scalars: sums over all rows of columns of the node features -/

section RefScalars
variable (x0 : (⟨Cert.ReferenceIdeal.S100000x5, .f32⟩ : BufTy).Contents (Elt Ideal))

theorem v73_at (i : Fin 100000) : val_main_v73 (F := Ideal) x0 (ix1 i) = x0 (ix2 i 2) := by
  rw [val_main_v73_apply, val_main_v72_apply]
  exact congrArg x0 (idx2_ext _ _ (Nat.div_one _) rfl)

theorem v76_at (i : Fin 100000) : val_main_v76 (F := Ideal) x0 (ix1 i) = x0 (ix2 i 3) := by
  rw [val_main_v76_apply, val_main_v75_apply]
  exact congrArg x0 (idx2_ext _ _ (Nat.div_one _) rfl)

theorem v79_at (i : Fin 100000) : val_main_v79 (F := Ideal) x0 (ix1 i) = x0 (ix2 i 4) := by
  rw [val_main_v79_apply, val_main_v78_apply]
  exact congrArg x0 (idx2_ext _ _ (Nat.div_one _) rfl)

theorem v85_at (i : Fin 100000) : val_main_v85 (F := Ideal) x0 (ix1 i) = msk (x0 (ix2 i 2)) := by
  rw [msk_eq, val_main_v85_apply, val_main_v84_apply, val_main_v82_apply, val_main_v81_apply, val_main_v83_apply,
    val_main_cst_18_apply]
  rw [show idx_main_v81 (idx_main_v82 (ix1 i)) = ix2 i 2 from idx2_ext _ _ (Nat.div_one _) rfl]

theorem v91_at (i : Fin 100000) : val_main_v91 (F := Ideal) x0 (ix1 i) = x0 (ix2 i 0) * msk (x0 (ix2 i 2)) := by
  rw [val_main_v91_apply, v85_at, val_main_v90_apply, val_main_v89_apply]
  rw [show idx_main_v89 (idx_main_v90 (ix1 i)) = ix2 i 0 from idx2_ext _ _ (Nat.div_one _) rfl]
  rfl

theorem v98_at (i : Fin 100000) : val_main_v98 (F := Ideal) x0 (ix1 i) = x0 (ix2 i 1) * msk (x0 (ix2 i 2)) := by
  rw [val_main_v98_apply, v85_at, val_main_v97_apply, val_main_v96_apply]
  rw [show idx_main_v96 (idx_main_v97 (ix1 i)) = ix2 i 1 from idx2_ext _ _ (Nat.div_one _) rfl]
  rfl

theorem v74_eq (j : Cert.ReferenceIdeal.S_.Idx) : val_main_v74 (F := Ideal) x0 j = ∑ i : Fin 100000, x0 (ix2 i 2) := by
  rw [val_main_v74_apply, val_main_cst_15_apply, Ideal.ofBits_def, Ideal.ofBits_zero_f32, zero_add]
  exact (sum_idx1 _).trans (Finset.sum_congr rfl fun i _ => v73_at x0 i)

theorem v77_eq (j : Cert.ReferenceIdeal.S_.Idx) : val_main_v77 (F := Ideal) x0 j = ∑ i : Fin 100000, x0 (ix2 i 3) := by
  rw [val_main_v77_apply, val_main_cst_16_apply, Ideal.ofBits_def, Ideal.ofBits_zero_f32, zero_add]
  exact (sum_idx1 _).trans (Finset.sum_congr rfl fun i _ => v76_at x0 i)

theorem v80_eq (j : Cert.ReferenceIdeal.S_.Idx) : val_main_v80 (F := Ideal) x0 j = ∑ i : Fin 100000, x0 (ix2 i 4) := by
  rw [val_main_v80_apply, val_main_cst_17_apply, Ideal.ofBits_def, Ideal.ofBits_zero_f32, zero_add]
  exact (sum_idx1 _).trans (Finset.sum_congr rfl fun i _ => v79_at x0 i)

theorem v86_eq (j : Cert.ReferenceIdeal.S_.Idx) : val_main_v86 (F := Ideal) x0 j = ∑ i : Fin 100000, msk (x0 (ix2 i 2)) := by
  rw [val_main_v86_apply, val_main_cst_19_apply, Ideal.ofBits_def, Ideal.ofBits_zero_f32, zero_add]
  exact (sum_idx1 _).trans (Finset.sum_congr rfl fun i _ => v85_at x0 i)

theorem v92_eq (j : Cert.ReferenceIdeal.S_.Idx) :
    val_main_v92 (F := Ideal) x0 j = ∑ i : Fin 100000, x0 (ix2 i 0) * msk (x0 (ix2 i 2)) := by
  rw [val_main_v92_apply, val_main_cst_22_apply, Ideal.ofBits_def, Ideal.ofBits_zero_f32, zero_add]
  exact (sum_idx1 _).trans (Finset.sum_congr rfl fun i _ => v91_at x0 i)

theorem v99_eq (j : Cert.ReferenceIdeal.S_.Idx) :
    val_main_v99 (F := Ideal) x0 j = ∑ i : Fin 100000, x0 (ix2 i 1) * msk (x0 (ix2 i 2)) := by
  rw [val_main_v99_apply, val_main_cst_25_apply, Ideal.ofBits_def, Ideal.ofBits_zero_f32, zero_add]
  exact (sum_idx1 _).trans (Finset.sum_congr rfl fun i _ => v98_at x0 i)

end RefScalars

/-! ## The reference's feature row: the 64 means and the six scalars, as functions of the scratch buffer -/

/-- A masked sum over the count, guarded: the select on "count above zero" of the quotient by the count clipped below at 1. -/
def avgOf (S : Vec Ideal S1x128 .f32) (c : Fin 128) : EReal :=
  Scalar.select (FloatOps.cmpf (F := Ideal) (φ := .f32) .ogt (S (ix2 (0 : Fin 1) (69 : Fin 128))) (FloatOps.ofBits .f32 0x00000000#32))
    (Ideal.div (S (ix2 (0 : Fin 1) c)) (max (S (ix2 (0 : Fin 1) (69 : Fin 128))) (FloatOps.ofBits (F := Ideal) .f32 0x3F800000#32)))
    (FloatOps.ofBits (F := Ideal) .f32 0x00000000#32)

/-- The six scalar features, from the scratch buffer. -/
def six (S : Vec Ideal S1x128 .f32) : Fin 6 → EReal :=
  ![S (ix2 (0 : Fin 1) (64 : Fin 128)), S (ix2 (0 : Fin 1) (65 : Fin 128)), S (ix2 (0 : Fin 1) (66 : Fin 128)),
    S (ix2 (0 : Fin 1) (65 : Fin 128)) + S (ix2 (0 : Fin 1) (66 : Fin 128)), avgOf S 67, avgOf S 68]

section RefFeatures
variable (x0 : (⟨Cert.ReferenceIdeal.S100000x5, .f32⟩ : BufTy).Contents (Elt Ideal))

theorem v109_0 : val_main_v109 (F := Ideal) x0 (ix1 (0 : Fin 6)) = val_main_v103 (F := Ideal) x0 (ix1 (0 : Fin 1)) := by
  unfold val_main_v109
  exact concatenate_apply_piece 0 _ _ (ix1 (0 : Fin 6)) 0 (by simp) Cert.ReferenceIdeal.S1 (val_main_v103 (F := Ideal) x0)
    (by rfl) (by rfl) 0 (by rfl) (ix1 (0 : Fin 1))
    (fun b hb => (hb (Fin.ext (by have h : b.val < 1 := b.isLt; show b.val = 0; omega))).elim) (by rfl)

theorem v109_1 : val_main_v109 (F := Ideal) x0 (ix1 (1 : Fin 6)) = val_main_v104 (F := Ideal) x0 (ix1 (0 : Fin 1)) := by
  unfold val_main_v109
  exact concatenate_apply_piece 0 _ _ (ix1 (1 : Fin 6)) 1 (by simp) Cert.ReferenceIdeal.S1 (val_main_v104 (F := Ideal) x0)
    (by rfl) (by rfl) 1 (by rfl) (ix1 (0 : Fin 1))
    (fun b hb => (hb (Fin.ext (by have h : b.val < 1 := b.isLt; show b.val = 0; omega))).elim) (by rfl)

theorem v109_2 : val_main_v109 (F := Ideal) x0 (ix1 (2 : Fin 6)) = val_main_v105 (F := Ideal) x0 (ix1 (0 : Fin 1)) := by
  unfold val_main_v109
  exact concatenate_apply_piece 0 _ _ (ix1 (2 : Fin 6)) 2 (by simp) Cert.ReferenceIdeal.S1 (val_main_v105 (F := Ideal) x0)
    (by rfl) (by rfl) 2 (by rfl) (ix1 (0 : Fin 1))
    (fun b hb => (hb (Fin.ext (by have h : b.val < 1 := b.isLt; show b.val = 0; omega))).elim) (by rfl)

theorem v109_3 : val_main_v109 (F := Ideal) x0 (ix1 (3 : Fin 6)) = val_main_v106 (F := Ideal) x0 (ix1 (0 : Fin 1)) := by
  unfold val_main_v109
  exact concatenate_apply_piece 0 _ _ (ix1 (3 : Fin 6)) 3 (by simp) Cert.ReferenceIdeal.S1 (val_main_v106 (F := Ideal) x0)
    (by rfl) (by rfl) 3 (by rfl) (ix1 (0 : Fin 1))
    (fun b hb => (hb (Fin.ext (by have h : b.val < 1 := b.isLt; show b.val = 0; omega))).elim) (by rfl)

theorem v109_4 : val_main_v109 (F := Ideal) x0 (ix1 (4 : Fin 6)) = val_main_v107 (F := Ideal) x0 (ix1 (0 : Fin 1)) := by
  unfold val_main_v109
  exact concatenate_apply_piece 0 _ _ (ix1 (4 : Fin 6)) 4 (by simp) Cert.ReferenceIdeal.S1 (val_main_v107 (F := Ideal) x0)
    (by rfl) (by rfl) 4 (by rfl) (ix1 (0 : Fin 1))
    (fun b hb => (hb (Fin.ext (by have h : b.val < 1 := b.isLt; show b.val = 0; omega))).elim) (by rfl)

theorem v109_5 : val_main_v109 (F := Ideal) x0 (ix1 (5 : Fin 6)) = val_main_v108 (F := Ideal) x0 (ix1 (0 : Fin 1)) := by
  unfold val_main_v109
  exact concatenate_apply_piece 0 _ _ (ix1 (5 : Fin 6)) 5 (by simp) Cert.ReferenceIdeal.S1 (val_main_v108 (F := Ideal) x0)
    (by rfl) (by rfl) 5 (by rfl) (ix1 (0 : Fin 1))
    (fun b hb => (hb (Fin.ext (by have h : b.val < 1 := b.isLt; show b.val = 0; omega))).elim) (by rfl)

theorem idx110 (m : Fin 6) : idx_main_v110 (ix2 (0 : Fin 1) m) = ix1 m := idx1_ext _ _ rfl

variable (S : Vec Ideal S1x128 .f32)

theorem feat_0 (h : S (ix2 (0 : Fin 1) (64 : Fin 128)) = ∑ i : Fin 100000, x0 (ix2 i (2 : Fin 5))) :
    val_main_v110 (F := Ideal) x0 (ix2 (0 : Fin 1) (0 : Fin 6)) = six S 0 := by
  rw [val_main_v110_apply, idx110, v109_0, val_main_v103_apply, v74_eq]
  exact h.symm

theorem feat_1 (h : S (ix2 (0 : Fin 1) (65 : Fin 128)) = ∑ i : Fin 100000, x0 (ix2 i (3 : Fin 5))) :
    val_main_v110 (F := Ideal) x0 (ix2 (0 : Fin 1) (1 : Fin 6)) = six S 1 := by
  rw [val_main_v110_apply, idx110, v109_1, val_main_v104_apply, v77_eq]
  exact h.symm

theorem feat_2 (h : S (ix2 (0 : Fin 1) (66 : Fin 128)) = ∑ i : Fin 100000, x0 (ix2 i (4 : Fin 5))) :
    val_main_v110 (F := Ideal) x0 (ix2 (0 : Fin 1) (2 : Fin 6)) = six S 2 := by
  rw [val_main_v110_apply, idx110, v109_2, val_main_v105_apply, v80_eq]
  exact h.symm

theorem feat_3 (h1 : S (ix2 (0 : Fin 1) (65 : Fin 128)) = ∑ i : Fin 100000, x0 (ix2 i (3 : Fin 5)))
    (h2 : S (ix2 (0 : Fin 1) (66 : Fin 128)) = ∑ i : Fin 100000, x0 (ix2 i (4 : Fin 5))) :
    val_main_v110 (F := Ideal) x0 (ix2 (0 : Fin 1) (3 : Fin 6)) = six S 3 := by
  rw [val_main_v110_apply, idx110, v109_3, val_main_v106_apply, val_main_v102_apply, v77_eq, v80_eq]
  show _ = S (ix2 (0 : Fin 1) (65 : Fin 128)) + S (ix2 (0 : Fin 1) (66 : Fin 128))
  rw [h1, h2]
  rfl

theorem feat_4 (hc : S (ix2 (0 : Fin 1) (69 : Fin 128)) = ∑ i : Fin 100000, msk (x0 (ix2 i (2 : Fin 5))))
    (hl : S (ix2 (0 : Fin 1) (67 : Fin 128)) = ∑ i : Fin 100000, x0 (ix2 i (0 : Fin 5)) * msk (x0 (ix2 i (2 : Fin 5)))) :
    val_main_v110 (F := Ideal) x0 (ix2 (0 : Fin 1) (4 : Fin 6)) = six S 4 := by
  rw [val_main_v110_apply, idx110, v109_4, val_main_v107_apply, val_main_v94_apply, val_main_v88_apply, val_main_v93_apply,
    val_main_v87_apply, val_main_call3_v0_apply, val_main_cst_21_apply, val_main_cst_20_apply, val_main_cst_23_apply, v86_eq, v92_eq]
  show _ = avgOf S 67
  unfold avgOf
  rw [hc, hl]
  rfl

theorem feat_5 (hc : S (ix2 (0 : Fin 1) (69 : Fin 128)) = ∑ i : Fin 100000, msk (x0 (ix2 i (2 : Fin 5))))
    (hm : S (ix2 (0 : Fin 1) (68 : Fin 128)) = ∑ i : Fin 100000, x0 (ix2 i (1 : Fin 5)) * msk (x0 (ix2 i (2 : Fin 5)))) :
    val_main_v110 (F := Ideal) x0 (ix2 (0 : Fin 1) (5 : Fin 6)) = six S 5 := by
  rw [val_main_v110_apply, idx110, v109_5, val_main_v108_apply, val_main_v101_apply, val_main_v95_apply, val_main_v100_apply,
    val_main_v87_apply, val_main_call4_v0_apply, val_main_cst_24_apply, val_main_cst_20_apply, val_main_cst_26_apply, v86_eq, v99_eq]
  show _ = avgOf S 68
  unfold avgOf
  rw [hc, hm]
  rfl

end RefFeatures

/-! ## The 32 hidden pre-activations, as one function of the scratch buffer and the first weight array -/

/-- The contraction of the feature row with the first weight array: the 64 means' part plus the six scalars' part. -/
def hidPre (S : Vec Ideal S1x128 .f32) (W1 : Vec Ideal S70x32 .f32) (q : Fin 32) : EReal :=
  (∑ k : Fin 64, (S (ix2 (0 : Fin 1) (⟨k.val, by omega⟩ : Fin 128)) * (Named.named (F := Ideal) Cert.KernelIdeal.κ "inv_100000" (φ := .f32) 0x3727C5AC#32))
      * W1 (ix2 (⟨k.val, by omega⟩ : Fin 70) q))
    + ∑ m : Fin 6, six S m * W1 (ix2 (⟨64 + m.val, by omega⟩ : Fin 70) q)

section RefHidden
variable (x0 : (⟨Cert.ReferenceIdeal.S100000x5, .f32⟩ : BufTy).Contents (Elt Ideal)) (x1 : (⟨Cert.ReferenceIdeal.S2x3200000, .i32⟩ : BufTy).Contents (Elt Ideal)) (x2 : (⟨Cert.ReferenceIdeal.S5x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal))
  (x6 : (⟨Cert.ReferenceIdeal.S70x32, .f32⟩ : BufTy).Contents (Elt Ideal))
  (S : Vec Ideal S1x128 .f32)

theorem v111_left (k : Fin 64) :
    val_main_v111 (F := Ideal) x0 x1 x2 x3 x4 x5 (ix2 (0 : Fin 1) (⟨k.val, by omega⟩ : Fin 70))
      = val_main_v71 (F := Ideal) x0 x1 x2 x3 x4 x5 (ix2 (0 : Fin 1) k) := by
  unfold val_main_v111
  exact concatenate_pair_apply_left 1 _ _ _ _ (by rfl) (ix2 (0 : Fin 1) k)
    (fun b => match b with | ⟨0, _⟩ => rfl | ⟨1, _⟩ => rfl)

theorem v111_right (m : Fin 6) :
    val_main_v111 (F := Ideal) x0 x1 x2 x3 x4 x5 (ix2 (0 : Fin 1) (⟨64 + m.val, by omega⟩ : Fin 70))
      = val_main_v110 (F := Ideal) x0 (ix2 (0 : Fin 1) m) := by
  unfold val_main_v111
  exact concatenate_pair_apply_right 1 _ _ _ _ (by rfl) (by rfl) (ix2 (0 : Fin 1) m)
    (fun b hb => match b, hb with | ⟨0, _⟩, _ => rfl | ⟨1, _⟩, hb => (hb rfl).elim)
    (Nat.add_comm _ _)

theorem v71_at (hh : ∀ k : Fin 64, S (ix2 (0 : Fin 1) (⟨k.val, by omega⟩ : Fin 128))
      = ∑ i : Fin 100000, val_main_v67 (F := Ideal) x0 x1 x2 x3 x4 x5 (ix2 i k)) (k : Fin 64) :
    val_main_v71 (F := Ideal) x0 x1 x2 x3 x4 x5 (ix2 (0 : Fin 1) k)
      = S (ix2 (0 : Fin 1) (⟨k.val, by omega⟩ : Fin 128)) * (Named.named (F := Ideal) Cert.KernelIdeal.κ "inv_100000" (φ := .f32) 0x3727C5AC#32) := by
  rw [val_main_v71_apply, val_main_v69_apply, val_main_v70_apply, val_main_cst_14_apply, val_main_v68_apply,
    val_main_cst_13_apply, Ideal.ofBits_def, Ideal.ofBits_def, Ideal.ofBits_zero_f32, zero_add, Ideal.hostDivf_def,
    div_100000]
  refine congrArg (fun t : EReal => t * (Named.named (F := Ideal) Cert.KernelIdeal.κ "inv_100000" (φ := .f32) 0x3727C5AC#32)) ?_
  rw [hh k]
  refine Finset.sum_congr rfl fun i _ => ?_
  exact congrArg (val_main_v67 (F := Ideal) x0 x1 x2 x3 x4 x5) (idx2_ext _ _ rfl rfl)

theorem feat_all (hS : PoolSums S (val_main_v67 (F := Ideal) x0 x1 x2 x3 x4 x5) x0) (m : Fin 6) :
    val_main_v110 (F := Ideal) x0 (ix2 (0 : Fin 1) m) = six S m := by
  match m with
  | ⟨0, _⟩ => exact feat_0 x0 S hS.nc
  | ⟨1, _⟩ => exact feat_1 x0 S hS.na
  | ⟨2, _⟩ => exact feat_2 x0 S hS.no
  | ⟨3, _⟩ => exact feat_3 x0 S hS.na hS.no
  | ⟨4, _⟩ => exact feat_4 x0 S hS.cnt hS.sl
  | ⟨5, _⟩ => exact feat_5 x0 S hS.cnt hS.sm

theorem ref_hidden (hS : PoolSums S (val_main_v67 (F := Ideal) x0 x1 x2 x3 x4 x5) x0) (q : Fin 32) :
    val_main_v112 (F := Ideal) x0 x1 x2 x3 x4 x5 x6 (ix2 (0 : Fin 1) q) = hidPre S x6 q := by
  rw [val_main_v112_apply]
  unfold hidPre
  refine (Fin.sum_univ_add (a := 64) (b := 6) (fun k : Fin 70 =>
    val_main_v111 (F := Ideal) x0 x1 x2 x3 x4 x5 (lidx_main_v112 (ix2 (0 : Fin 1) q) k) * x6 (ridx_main_v112 (ix2 (0 : Fin 1) q) k))).trans ?_
  refine congrArg₂ (· + ·) (Finset.sum_congr rfl fun k _ => ?_) (Finset.sum_congr rfl fun m _ => ?_)
  · show val_main_v111 (F := Ideal) x0 x1 x2 x3 x4 x5 (lidx_main_v112 (ix2 (0 : Fin 1) q) (Fin.castAdd 6 k))
        * x6 (ridx_main_v112 (ix2 (0 : Fin 1) q) (Fin.castAdd 6 k)) = _
    rw [show lidx_main_v112 (ix2 (0 : Fin 1) q) (Fin.castAdd 6 k) = ix2 (0 : Fin 1) (⟨k.val, by omega⟩ : Fin 70) from idx2_ext _ _ rfl rfl,
      show ridx_main_v112 (ix2 (0 : Fin 1) q) (Fin.castAdd 6 k) = ix2 (⟨k.val, by omega⟩ : Fin 70) q from idx2_ext _ _ rfl rfl,
      v111_left, v71_at x0 x1 x2 x3 x4 x5 S hS.h]
  · show val_main_v111 (F := Ideal) x0 x1 x2 x3 x4 x5 (lidx_main_v112 (ix2 (0 : Fin 1) q) (Fin.natAdd 64 m))
        * x6 (ridx_main_v112 (ix2 (0 : Fin 1) q) (Fin.natAdd 64 m)) = _
    rw [show lidx_main_v112 (ix2 (0 : Fin 1) q) (Fin.natAdd 64 m) = ix2 (0 : Fin 1) (⟨64 + m.val, by omega⟩ : Fin 70) from idx2_ext _ _ rfl rfl,
      show ridx_main_v112 (ix2 (0 : Fin 1) q) (Fin.natAdd 64 m) = ix2 (⟨64 + m.val, by omega⟩ : Fin 70) q from idx2_ext _ _ rfl rfl,
      v111_right, feat_all x0 x1 x2 x3 x4 x5 S hS]

end RefHidden

/-! ## The kernel's layout operations and contractions read at an index -/

theorem slice_S (S : Vec Ideal S1x128 .f32) (off : Nat) (hc : off < 128) (h : S1x128.Slices ![0, off] S1x1) :
    extractStridedSlice S1x1 ![0, off] S h (ix2 (0 : Fin 1) (0 : Fin 1)) = S (ix2 (0 : Fin 1) (⟨off, hc⟩ : Fin 128)) :=
  extractStridedSlice_apply _ S h _ _ (fun a => match a with | ⟨0, _⟩ => rfl | ⟨1, _⟩ => rfl)

theorem slice_S64 (S : Vec Ideal S1x128 .f32) (h : S1x128.Slices ![0, 0] S1x64) (k : Fin 64) :
    extractStridedSlice S1x64 ![0, 0] S h (ix2 (0 : Fin 1) k) = S (ix2 (0 : Fin 1) (⟨k.val, by omega⟩ : Fin 128)) :=
  extractStridedSlice_apply _ S h _ _ (fun a => match a with | ⟨0, _⟩ => rfl | ⟨1, _⟩ => (Nat.zero_add _).symm)

theorem slice_W (W1 : Vec Ideal S70x32 .f32) (r : Nat) (hr : r < 70) (h : S70x32.Slices ![r, 0] S1x32) (q : Fin 32) :
    extractStridedSlice S1x32 ![r, 0] W1 h (ix2 (0 : Fin 1) q) = W1 (ix2 (⟨r, hr⟩ : Fin 70) q) :=
  extractStridedSlice_apply _ W1 h _ _ (fun a => match a with | ⟨0, _⟩ => rfl | ⟨1, _⟩ => (Nat.zero_add _).symm)

theorem slice_W64 (W1 : Vec Ideal S70x32 .f32) (h : S70x32.Slices ![0, 0] S64x32) (k : Fin 64) (q : Fin 32) :
    extractStridedSlice S64x32 ![0, 0] W1 h (ix2 k q) = W1 (ix2 (⟨k.val, by omega⟩ : Fin 70) q) :=
  extractStridedSlice_apply _ W1 h _ _ (fun a => match a with
    | ⟨0, _⟩ => (Nat.zero_add _).symm | ⟨1, _⟩ => (Nat.zero_add _).symm)

theorem bcast11 (v : FVec Ideal S1x1 .f32) (h : S1x1.Broadcasts S1x32) (q : Fin 32) :
    broadcastTo S1x32 v h (ix2 (0 : Fin 1) q) = v (ix2 (0 : Fin 1) (0 : Fin 1)) :=
  broadcastTo_apply v h _ _ (fun a => match a with
    | ⟨0, _⟩ => show (0 : Nat) = if (1 : Nat) = 1 then 0 else _ from (if_pos rfl).symm
    | ⟨1, _⟩ => show (0 : Nat) = if (1 : Nat) = 1 then 0 else _ from (if_pos rfl).symm)

theorem cast32 {α : Type} (B1 : S32.Idx → α) (h : S32.ShapeCasts S1x32) (q : Fin 32) :
    shapeCast S1x32 B1 h (ix2 (0 : Fin 1) q) = B1 (ix1 q) :=
  shapeCast_apply B1 h _ _ (by
    rewrite [Shape.rowMajor_val_two, Shape.rowMajor_val_one]
    show q.val = 0 * 32 + q.val
    omega)

theorem cast2 {α : Type} (B2 : S2.Idx → α) (h : S2.ShapeCasts S1x2) (q : Fin 2) :
    shapeCast S1x2 B2 h (ix2 (0 : Fin 1) q) = B2 (ix1 q) :=
  shapeCast_apply B2 h _ _ (by
    rewrite [Shape.rowMajor_val_two, Shape.rowMajor_val_one]
    show q.val = 0 * 2 + q.val
    omega)

/-- The [1,64] × [64,32] contraction into a zero accumulator, read at column `q`: the sum over the 64 positions. -/
theorem matmul64 (l : FVec Ideal S1x64 .bf16) (r : FVec Ideal S64x32 .bf16) (q : Fin 32) :
    FloatOps.matmul dot_S1x64_S64x32_S1x32_1_0_0_1_n_n none l r (constant S1x32 .f32 0x00000000#32) (ix2 (0 : Fin 1) q)
      = ∑ k : Fin 64, l (ix2 (0 : Fin 1) k) * r (ix2 k q) := by
  rw [Ideal.matmul_constant_zero_apply,
    ← Equiv.sum_comp (contrEquiv1 dot_S1x64_S64x32_S1x32_1_0_0_1_n_n 64 rfl rfl).symm]
  refine Finset.sum_congr rfl fun k _ => ?_
  have hk := contrEquiv1_symm_val dot_S1x64_S64x32_S1x32_1_0_0_1_n_n 64 rfl rfl k
  have l0 : ∀ (i : S1x32.Idx) (c : dot_S1x64_S64x32_S1x32_1_0_0_1_n_n.contr.Idx),
      (dot_S1x64_S64x32_S1x32_1_0_0_1_n_n.lhsIdx i c 0).val = (i 0).val := fun i c => by
    unfold DotDims.lhsIdx
    rw [dif_neg (show ¬(0 : Fin S1x64.rank) ∈ dot_S1x64_S64x32_S1x32_1_0_0_1_n_n.lhsBatch by decide),
      dif_pos (show (0 : Fin S1x64.rank) ∈ dot_S1x64_S64x32_S1x32_1_0_0_1_n_n.lhsNonContracting by decide)]
    rfl
  have r1 : ∀ (i : S1x32.Idx) (c : dot_S1x64_S64x32_S1x32_1_0_0_1_n_n.contr.Idx),
      (dot_S1x64_S64x32_S1x32_1_0_0_1_n_n.rhsIdx i c 1).val = (i 1).val := fun i c => by
    unfold DotDims.rhsIdx
    rw [dif_neg (show ¬(1 : Fin S64x32.rank) ∈ dot_S1x64_S64x32_S1x32_1_0_0_1_n_n.rhsBatch by decide),
      dif_pos (show (1 : Fin S64x32.rank) ∈ dot_S1x64_S64x32_S1x32_1_0_0_1_n_n.rhsNonContracting by decide)]
    rfl
  have el : dot_S1x64_S64x32_S1x32_1_0_0_1_n_n.lhsIdx (ix2 (0 : Fin 1) q)
      ((contrEquiv1 dot_S1x64_S64x32_S1x32_1_0_0_1_n_n 64 rfl rfl).symm k) = ix2 (0 : Fin 1) k :=
    idx2_ext _ _ (l0 _ _) ((dot_S1x64_S64x32_S1x32_1_0_0_1_n_n.lhsIdx_val_of_single rfl _ _).trans hk)
  have er : dot_S1x64_S64x32_S1x32_1_0_0_1_n_n.rhsIdx (ix2 (0 : Fin 1) q)
      ((contrEquiv1 dot_S1x64_S64x32_S1x32_1_0_0_1_n_n 64 rfl rfl).symm k) = ix2 k q :=
    idx2_ext _ _ ((dot_S1x64_S64x32_S1x32_1_0_0_1_n_n.rhsIdx_val_of_single rfl _ _).trans hk) (r1 _ _)
  rw [el, er]

/-- The [1,32] × [32,2] contraction into a zero accumulator, read at column `q`: the sum over the 32 positions. -/
theorem matmul32 (l : FVec Ideal S1x32 .bf16) (r : FVec Ideal S32x2 .bf16) (q : Fin 2) :
    FloatOps.matmul dot_S1x32_S32x2_S1x2_1_0_0_1_n_n none l r (constant S1x2 .f32 0x00000000#32) (ix2 (0 : Fin 1) q)
      = ∑ k : Fin 32, l (ix2 (0 : Fin 1) k) * r (ix2 k q) := by
  rw [Ideal.matmul_constant_zero_apply,
    ← Equiv.sum_comp (contrEquiv1 dot_S1x32_S32x2_S1x2_1_0_0_1_n_n 32 rfl rfl).symm]
  refine Finset.sum_congr rfl fun k _ => ?_
  have hk := contrEquiv1_symm_val dot_S1x32_S32x2_S1x2_1_0_0_1_n_n 32 rfl rfl k
  have l0 : ∀ (i : S1x2.Idx) (c : dot_S1x32_S32x2_S1x2_1_0_0_1_n_n.contr.Idx),
      (dot_S1x32_S32x2_S1x2_1_0_0_1_n_n.lhsIdx i c 0).val = (i 0).val := fun i c => by
    unfold DotDims.lhsIdx
    rw [dif_neg (show ¬(0 : Fin S1x32.rank) ∈ dot_S1x32_S32x2_S1x2_1_0_0_1_n_n.lhsBatch by decide),
      dif_pos (show (0 : Fin S1x32.rank) ∈ dot_S1x32_S32x2_S1x2_1_0_0_1_n_n.lhsNonContracting by decide)]
    rfl
  have r1 : ∀ (i : S1x2.Idx) (c : dot_S1x32_S32x2_S1x2_1_0_0_1_n_n.contr.Idx),
      (dot_S1x32_S32x2_S1x2_1_0_0_1_n_n.rhsIdx i c 1).val = (i 1).val := fun i c => by
    unfold DotDims.rhsIdx
    rw [dif_neg (show ¬(1 : Fin S32x2.rank) ∈ dot_S1x32_S32x2_S1x2_1_0_0_1_n_n.rhsBatch by decide),
      dif_pos (show (1 : Fin S32x2.rank) ∈ dot_S1x32_S32x2_S1x2_1_0_0_1_n_n.rhsNonContracting by decide)]
    rfl
  have el : dot_S1x32_S32x2_S1x2_1_0_0_1_n_n.lhsIdx (ix2 (0 : Fin 1) q)
      ((contrEquiv1 dot_S1x32_S32x2_S1x2_1_0_0_1_n_n 32 rfl rfl).symm k) = ix2 (0 : Fin 1) k :=
    idx2_ext _ _ (l0 _ _) ((dot_S1x32_S32x2_S1x2_1_0_0_1_n_n.lhsIdx_val_of_single rfl _ _).trans hk)
  have er : dot_S1x32_S32x2_S1x2_1_0_0_1_n_n.rhsIdx (ix2 (0 : Fin 1) q)
      ((contrEquiv1 dot_S1x32_S32x2_S1x2_1_0_0_1_n_n 32 rfl rfl).symm k) = ix2 k q :=
    idx2_ext _ _ ((dot_S1x32_S32x2_S1x2_1_0_0_1_n_n.rhsIdx_val_of_single rfl _ _).trans hk) (r1 _ _)
  rw [el, er]

/-! ## The kernel's head read at an index -/

section Kernel
variable (S : Vec Ideal S1x128 .f32) (W1 : Vec Ideal S70x32 .f32) (B1 : Vec Ideal S32 .f32)
  (W2 : Vec Ideal S32x2 .f32) (B2 : Vec Ideal S2 .f32)

theorem pay2_at : k4_pay2 (F := Ideal) S (ix2 (0 : Fin 1) (0 : Fin 1)) = S (ix2 (0 : Fin 1) (69 : Fin 128)) := by
  unfold k4_pay2
  exact slice_S S 69 (by omega) _

theorem pay3_at : k4_pay3 (F := Ideal) S (ix2 (0 : Fin 1) (0 : Fin 1))
    = max (S (ix2 (0 : Fin 1) (69 : Fin 128))) (FloatOps.ofBits (F := Ideal) .f32 0x3F800000#32) := by
  unfold k4_pay3
  simp only [maximumf_apply, broadcast_apply, pay2_at]

theorem pay4_at : k4_pay4 (F := Ideal) S (ix2 (0 : Fin 1) (0 : Fin 1)) = avgOf S 68 := by
  unfold k4_pay4 avgOf
  simp only [select_apply, cmpf_apply, divf_apply, broadcast_apply, pay2_at, pay3_at, slice_S S 68 (by omega)]
  rfl

theorem pay5_at (q : Fin 32) : k4_pay5 (F := Ideal) S W1 (ix2 (0 : Fin 1) q)
    = ∑ k : Fin 64, (S (ix2 (0 : Fin 1) (⟨k.val, by omega⟩ : Fin 128)) * (Named.named (F := Ideal) Cert.KernelIdeal.κ "inv_100000" (φ := .f32) 0x3727C5AC#32))
        * W1 (ix2 (⟨k.val, by omega⟩ : Fin 70) q) := by
  unfold k4_pay5
  refine (matmul64 _ _ q).trans (Finset.sum_congr rfl fun k _ => ?_)
  rw [truncf_apply, truncf_apply, mulf_apply, broadcast_apply, slice_S64, slice_W64]

theorem pay6_at (q : Fin 32) : k4_pay6 (F := Ideal) S W1 (ix2 (0 : Fin 1) q)
    = S (ix2 (0 : Fin 1) (64 : Fin 128)) * W1 (ix2 (⟨64, by omega⟩ : Fin 70) q) + S (ix2 (0 : Fin 1) (65 : Fin 128)) * W1 (ix2 (⟨65, by omega⟩ : Fin 70) q) + S (ix2 (0 : Fin 1) (66 : Fin 128)) * W1 (ix2 (⟨66, by omega⟩ : Fin 70) q)
      + (S (ix2 (0 : Fin 1) (65 : Fin 128)) + S (ix2 (0 : Fin 1) (66 : Fin 128))) * W1 (ix2 (⟨67, by omega⟩ : Fin 70) q) + avgOf S 67 * W1 (ix2 (⟨68, by omega⟩ : Fin 70) q) := by
  unfold k4_pay6
  simp only [addf_apply, mulf_apply, bcast11, select_apply, cmpf_apply, divf_apply, broadcast_apply, pay2_at, pay3_at,
    slice_S S 64 (by omega), slice_S S 65 (by omega), slice_S S 66 (by omega), slice_S S 67 (by omega),
    slice_W W1 64 (by omega), slice_W W1 65 (by omega), slice_W W1 66 (by omega), slice_W W1 67 (by omega),
    slice_W W1 68 (by omega)]
  rfl

end Kernel

/-! ## The head's two stages as functions of the scratch buffer and the weights, and the two programs' terms -/

/-- The hidden activations: the bias added, clipped below at zero. -/
def hidAct (S : Vec Ideal S1x128 .f32) (W1 : Vec Ideal S70x32 .f32) (B1 : Vec Ideal S32 .f32) (k : Fin 32) : EReal :=
  max (hidPre S W1 k + B1 (ix1 k)) (FloatOps.ofBits (F := Ideal) .f32 0x00000000#32)

/-- The result at column `q`: the second contraction, the bias, the logistic, times 3, plus 2. -/
def outOf (S : Vec Ideal S1x128 .f32) (W1 : Vec Ideal S70x32 .f32) (B1 : Vec Ideal S32 .f32)
    (W2 : Vec Ideal S32x2 .f32) (B2 : Vec Ideal S2 .f32) (q : Fin 2) : EReal :=
  (FloatOps.ofBits (F := Ideal) .f32 0x40000000#32) + Ideal.logistic ((∑ k : Fin 32, hidAct S W1 B1 k * W2 (ix2 k q)) + B2 (ix1 q)) * (FloatOps.ofBits (F := Ideal) .f32 0x40400000#32)

theorem logistic_at {s : Shape} (v : FVec Ideal s .f32) (i : s.Idx) : logistic v i = Ideal.logistic (v i) := rfl

section KernelOut
variable (S : Vec Ideal S1x128 .f32) (W1 : Vec Ideal S70x32 .f32) (B1 : Vec Ideal S32 .f32)
  (W2 : Vec Ideal S32x2 .f32) (B2 : Vec Ideal S2 .f32)

theorem ker_hidden (k : Fin 32) :
    k4_pay5 (F := Ideal) S W1 (ix2 (0 : Fin 1) k) + (k4_pay6 (F := Ideal) S W1 (ix2 (0 : Fin 1) k)
      + k4_pay4 (F := Ideal) S (ix2 (0 : Fin 1) (0 : Fin 1)) * W1 (ix2 (⟨69, by omega⟩ : Fin 70) k)) = hidPre S W1 k := by
  rw [pay5_at, pay6_at, pay4_at]
  unfold hidPre
  rw [Fin.sum_univ_six]
  rfl

theorem pay1_at (v90 : FVec Ideal S1x1 .f32) (v97 v116 : FVec Ideal S1x32 .f32) (q : Fin 2) :
    k4_pay1 (F := Ideal) v90 W1 B1 v97 v116 W2 B2 (ix2 (0 : Fin 1) q)
      = (FloatOps.ofBits (F := Ideal) .f32 0x40000000#32) + Ideal.logistic ((∑ k : Fin 32,
          max ((v97 (ix2 (0 : Fin 1) k) + (v116 (ix2 (0 : Fin 1) k)
            + v90 (ix2 (0 : Fin 1) (0 : Fin 1)) * W1 (ix2 (⟨69, by omega⟩ : Fin 70) k))) + B1 (ix1 k)) (FloatOps.ofBits (F := Ideal) .f32 0x00000000#32)
          * W2 (ix2 k q)) + B2 (ix1 q)) * (FloatOps.ofBits (F := Ideal) .f32 0x40400000#32) := by
  unfold k4_pay1
  simp only [addf_apply, mulf_apply, broadcast_apply, logistic_at, matmul32, cast2, truncf_apply, maximumf_apply, cast32,
    bcast11, slice_W W1 69 (by omega)]

end KernelOut

section Out
variable (S : Vec Ideal S1x128 .f32) (W1 : Vec Ideal S70x32 .f32) (B1 : Vec Ideal S32 .f32)
  (W2 : Vec Ideal S32x2 .f32) (B2 : Vec Ideal S2 .f32)

theorem ker_out (q : Fin 2) : headOf S W1 B1 W2 B2 (ix2 (0 : Fin 1) q) = outOf S W1 B1 W2 B2 q := by
  unfold headOf
  rw [pay1_at]
  unfold outOf hidAct
  refine congrArg (fun t : EReal => (FloatOps.ofBits (F := Ideal) .f32 0x40000000#32 : EReal)
    + Ideal.logistic (t + B2 (ix1 q)) * (FloatOps.ofBits (F := Ideal) .f32 0x40400000#32 : EReal))
    (Finset.sum_congr rfl fun k _ => ?_)
  exact congrArg (fun t : EReal => max (t + B1 (ix1 k)) (FloatOps.ofBits (F := Ideal) .f32 0x00000000#32 : EReal) * W2 (ix2 k q))
    (ker_hidden S W1 k)

end Out

section RefOut
variable (x0 : (⟨Cert.ReferenceIdeal.S100000x5, .f32⟩ : BufTy).Contents (Elt Ideal)) (x1 : (⟨Cert.ReferenceIdeal.S2x3200000, .i32⟩ : BufTy).Contents (Elt Ideal)) (x2 : (⟨Cert.ReferenceIdeal.S5x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S70x32, .f32⟩ : BufTy).Contents (Elt Ideal)) (x7 : (⟨Cert.ReferenceIdeal.S32, .f32⟩ : BufTy).Contents (Elt Ideal)) (x8 : (⟨Cert.ReferenceIdeal.S32x2, .f32⟩ : BufTy).Contents (Elt Ideal)) (x9 : (⟨Cert.ReferenceIdeal.S2, .f32⟩ : BufTy).Contents (Elt Ideal))
  (S : Vec Ideal S1x128 .f32)

theorem one_f32 : FloatOps.ofBits (F := Ideal) .f32 0x3F800000#32 = 1 := Ideal.ofBits_one_f32

theorem ref_act (hS : PoolSums S (val_main_v67 (F := Ideal) x0 x1 x2 x3 x4 x5) x0) (k : Fin 32) :
    val_main_v115 (F := Ideal) x0 x1 x2 x3 x4 x5 x6 x7 (ix2 (0 : Fin 1) k) = hidAct S x6 x7 k := by
  rw [val_main_v115_apply, val_main_v114_apply, ref_hidden x0 x1 x2 x3 x4 x5 x6 S hS, val_main_v113_apply,
    val_main_call5_v0_apply, val_main_call5_cst_apply,
    show idx_main_v113 (ix2 (0 : Fin 1) k) = ix1 k from idx1_ext _ _ rfl]
  rfl

theorem ref_out (hS : PoolSums S (val_main_v67 (F := Ideal) x0 x1 x2 x3 x4 x5) x0) (q : Fin 2) :
    val_main_v128 (F := Ideal) x0 x1 x2 x3 x4 x5 x6 x7 x8 x9 (ix2 (0 : Fin 1) q) = outOf S x6 x7 x8 x9 q := by
  rw [val_main_v128_apply, val_main_v127_apply, val_main_cst_30_apply, val_main_v126_apply, val_main_v125_apply,
    val_main_cst_29_apply, val_main_v124_apply, val_main_v123_apply, val_main_cst_28_apply, val_main_v122_apply,
    val_main_v121_apply, val_main_cst_27_apply, val_main_v120_apply, val_main_v119_apply, val_main_v118_apply,
    val_main_v117_apply, val_main_v116_apply,
    show idx_main_v117 (ix2 (0 : Fin 1) q) = ix1 q from idx1_ext _ _ rfl]
  have hsum : (∑ k : Fin 32, val_main_v115 (F := Ideal) x0 x1 x2 x3 x4 x5 x6 x7 (lidx_main_v116 (ix2 (0 : Fin 1) q) k)
        * x8 (ridx_main_v116 (ix2 (0 : Fin 1) q) k))
      = ∑ k : Fin 32, hidAct S x6 x7 k * x8 (ix2 k q) := Finset.sum_congr rfl fun k _ => by
    rw [show lidx_main_v116 (ix2 (0 : Fin 1) q) k = ix2 (0 : Fin 1) k from idx2_ext _ _ rfl rfl,
      show ridx_main_v116 (ix2 (0 : Fin 1) q) k = ix2 k q from idx2_ext _ _ rfl rfl,
      ref_act x0 x1 x2 x3 x4 x5 x6 x7 S hS]
  rw [hsum, one_f32]
  rfl

end RefOut

end HeadRef

open HeadRef in
/-- The head applied to a scratch buffer holding the 70 sums is the reference's result: both are the same function of the
    sums and the four weight arrays. -/
theorem head_eq_ref (x0 : (⟨Cert.ReferenceIdeal.S100000x5, .f32⟩ : BufTy).Contents (Elt Ideal)) (x1 : (⟨Cert.ReferenceIdeal.S2x3200000, .i32⟩ : BufTy).Contents (Elt Ideal)) (x2 : (⟨Cert.ReferenceIdeal.S5x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S70x32, .f32⟩ : BufTy).Contents (Elt Ideal)) (x7 : (⟨Cert.ReferenceIdeal.S32, .f32⟩ : BufTy).Contents (Elt Ideal)) (x8 : (⟨Cert.ReferenceIdeal.S32x2, .f32⟩ : BufTy).Contents (Elt Ideal)) (x9 : (⟨Cert.ReferenceIdeal.S2, .f32⟩ : BufTy).Contents (Elt Ideal))
    (S : Vec Ideal S1x128 .f32)
    (hS : PoolSums S (Cert.ReferenceIdeal.ReadP.val_main_v67 (F := Ideal) x0 x1 x2 x3 x4 x5) x0) :
    headOf S x6 x7 x8 x9 = Cert.ReferenceIdeal.ReadP.val_main_v128 (F := Ideal) x0 x1 x2 x3 x4 x5 x6 x7 x8 x9 := by
  funext i
  obtain ⟨p, q, rfl⟩ : ∃ (p : Fin 1) (q : Fin 2), i = ix2 p q := ⟨i 0, i 1, eq_ix2 i⟩
  obtain rfl : p = 0 := Subsingleton.elim _ _
  rw [ker_out, ref_out x0 x1 x2 x3 x4 x5 x6 x7 x8 x9 S hS]

end Cert.KernelIdeal.Hand

end
-- ==== Proof.KI.PoolStep.lean ====
/-
  One grid point of the pooling, at exact arithmetic, index by index: each of the seven values the body stores into the
  scratch is the scratch's previous entry plus the point's partial sum — over the 5000 staged rows, a column of the second
  layer's output (64 of them), columns 2, 3, 4 of x, columns 0 and 1 of x over the rows whose column 2 is exactly 1, and the
  number of such rows.
-/
import proofs.«101636_j2104533975212_1_alg».proof.Proof.KI.PoolSpec
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx
open scoped BigOperators

/-- A staged block's column sum. -/
def pH (hb : Vec Ideal S5000x64 .f32) (k : Fin 64) : EReal := ∑ r : Fin 5000, hb (ix2 r k)
def pX (xb : Vec Ideal S5000x5 .f32) (j : Fin 5) : EReal := ∑ r : Fin 5000, xb (ix2 r j)
/-- Column `j` of the staged rows of x summed over the rows whose column 2 is exactly 1. -/
def pXm (xb : Vec Ideal S5000x5 .f32) (j : Fin 5) : EReal := ∑ r : Fin 5000, xb (ix2 r j) * msk (xb (ix2 r (2 : Fin 5)))
/-- The number of staged rows whose column 2 is exactly 1. -/
def pCnt (xb : Vec Ideal S5000x5 .f32) : EReal := ∑ r : Fin 5000, msk (xb (ix2 r (2 : Fin 5)))

theorem pay16_apply (v3 : Vec Ideal S5000x64 .f32) (v31 : Vec Ideal S1x64 .f32) (k : Fin 64) :
    k4_pay16 (F := Ideal) v3 v31 (ix2 (0 : Fin 1) k) = v31 (ix2 (0 : Fin 1) k) + pH v3 k := by
  unfold k4_pay16 pH
  simp only [shapeCast_self]
  show v31 (ix2 (0 : Fin 1) k) + _ = _
  refine congrArg (v31 (ix2 (0 : Fin 1) k) + ·) ?_
  rw [shapeCast_a_1a_apply]
  refine (Ideal.multiReduction_add_single v3 0x00000000#32 reduces_S5000x64_S64 (.inl rfl) rfl (ix1 k)).trans ?_
  show (∑ r : Fin 5000, v3 (reduces_S5000x64_S64.lift (ix1 k) r)) = _
  exact Finset.sum_congr rfl fun r _ => congrArg v3 (funext fun a => Fin.ext (by match a with | ⟨0, _⟩ => rfl | ⟨1, _⟩ => rfl))

/-- A [5000,1] column reduced along its rows and kept as a [1,1] cell is the sum of its 5000 entries. -/
theorem mred1 (src : FVec Ideal S5000x1 .f32) :
    shapeCast S1x1 (multiReduction (F := Ideal) .add [0] S1 src 0x00000000#32 reduces_S5000x1_S1 (.inl rfl) rfl) shapeCasts_S1_S1x1
        (ix2 (0 : Fin 1) (0 : Fin 1))
      = ∑ r : Fin 5000, src (ix2 r (0 : Fin 1)) := by
  rw [shapeCast_a_1a_apply]
  refine (Ideal.multiReduction_add_single src 0x00000000#32 reduces_S5000x1_S1 (.inl rfl) rfl (ix1 (0 : Fin 1))).trans ?_
  show (∑ r : Fin 5000, src (reduces_S5000x1_S1.lift (ix1 (0 : Fin 1)) r)) = _
  exact Finset.sum_congr rfl fun r _ => congrArg src (funext fun a => Fin.ext (by match a with | ⟨0, _⟩ => rfl | ⟨1, _⟩ => rfl))

theorem pay9_apply (v5 : Vec Ideal S5000x5 .f32) : k4_pay9 (F := Ideal) v5 (ix2 (0 : Fin 1) (0 : Fin 1)) = pX v5 (2 : Fin 5) := by
  refine (mred1 (extractStridedSlice S5000x1 ![0, 2] v5 slices_S5000x5_o0_2_S5000x1)).trans ?_
  exact Finset.sum_congr rfl fun r _ => slice2_axis1_apply 2 v5 slices_S5000x5_o0_2_S5000x1 r (0 : Fin 1) (2 : Fin 5) rfl
theorem pay10_apply (v5 : Vec Ideal S5000x5 .f32) : k4_pay10 (F := Ideal) v5 (ix2 (0 : Fin 1) (0 : Fin 1)) = pX v5 (3 : Fin 5) := by
  refine (mred1 (extractStridedSlice S5000x1 ![0, 3] v5 slices_S5000x5_o0_3_S5000x1)).trans ?_
  exact Finset.sum_congr rfl fun r _ => slice2_axis1_apply 3 v5 slices_S5000x5_o0_3_S5000x1 r (0 : Fin 1) (3 : Fin 5) rfl
theorem pay11_apply (v5 : Vec Ideal S5000x5 .f32) : k4_pay11 (F := Ideal) v5 (ix2 (0 : Fin 1) (0 : Fin 1)) = pX v5 (4 : Fin 5) := by
  refine (mred1 (extractStridedSlice S5000x1 ![0, 4] v5 slices_S5000x5_o0_4_S5000x1)).trans ?_
  exact Finset.sum_congr rfl fun r _ => slice2_axis1_apply 4 v5 slices_S5000x5_o0_4_S5000x1 r (0 : Fin 1) (4 : Fin 5) rfl

/-- The 0/1 mask of the staged rows, at a row. -/
theorem pay12_apply (v5 : Vec Ideal S5000x5 .f32) (r : Fin 5000) :
    k4_pay12 (F := Ideal) v5 (ix2 r (0 : Fin 1)) = msk (v5 (ix2 r (2 : Fin 5))) := by
  unfold k4_pay12 k4_pay8 msk
  show FloatOps.sitofp (F := Ideal) .f32 (BitVec.setWidth 32 (FloatOps.cmpf (F := Ideal) .oeq (extractStridedSlice S5000x1 ![0, 2] v5 slices_S5000x5_o0_2_S5000x1 (ix2 r (0 : Fin 1))) _)) = _
  rw [slice2_axis1_apply 2 v5 slices_S5000x5_o0_2_S5000x1 r (0 : Fin 1) (2 : Fin 5) rfl]
  rfl

theorem pay13_apply (v5 : Vec Ideal S5000x5 .f32) : k4_pay13 (F := Ideal) v5 (ix2 (0 : Fin 1) (0 : Fin 1)) = pXm v5 (0 : Fin 5) := by
  refine (mred1 (mulf (extractStridedSlice S5000x1 ![0, 0] v5 slices_S5000x5_o0_0_S5000x1) (k4_pay12 (F := Ideal) v5))).trans ?_
  refine Finset.sum_congr rfl fun r _ => ?_
  show (extractStridedSlice S5000x1 ![0, 0] v5 slices_S5000x5_o0_0_S5000x1 (ix2 r (0 : Fin 1))) * (k4_pay12 (F := Ideal) v5 (ix2 r (0 : Fin 1))) = _
  rw [pay12_apply, slice2_axis1_apply 0 v5 slices_S5000x5_o0_0_S5000x1 r (0 : Fin 1) (0 : Fin 5) rfl]

theorem pay14_apply (v5 : Vec Ideal S5000x5 .f32) : k4_pay14 (F := Ideal) v5 (ix2 (0 : Fin 1) (0 : Fin 1)) = pXm v5 (1 : Fin 5) := by
  refine (mred1 (mulf (extractStridedSlice S5000x1 ![0, 1] v5 slices_S5000x5_o0_1_S5000x1) (k4_pay12 (F := Ideal) v5))).trans ?_
  refine Finset.sum_congr rfl fun r _ => ?_
  show (extractStridedSlice S5000x1 ![0, 1] v5 slices_S5000x5_o0_1_S5000x1 (ix2 r (0 : Fin 1))) * (k4_pay12 (F := Ideal) v5 (ix2 r (0 : Fin 1))) = _
  rw [pay12_apply, slice2_axis1_apply 1 v5 slices_S5000x5_o0_1_S5000x1 r (0 : Fin 1) (1 : Fin 5) rfl]

theorem pay15_apply (v5 : Vec Ideal S5000x5 .f32) : k4_pay15 (F := Ideal) v5 (ix2 (0 : Fin 1) (0 : Fin 1)) = pCnt v5 := by
  refine (mred1 (k4_pay12 (F := Ideal) v5)).trans ?_
  exact Finset.sum_congr rfl fun r _ => pay12_apply v5 r

/-- The six single-cell updates: the previous entry plus the point's partial sum. -/
theorem pay17_apply (v14 v36 : Vec Ideal S1x1 .f32) (y : S1x1.Idx) : k4_pay17 (F := Ideal) v14 v36 y = v36 y + v14 y := by
  unfold k4_pay17; simp only [shapeCast_self]; rfl
theorem pay18_apply (v16 v41 : Vec Ideal S1x1 .f32) (y : S1x1.Idx) : k4_pay18 (F := Ideal) v16 v41 y = v41 y + v16 y := by
  unfold k4_pay18; simp only [shapeCast_self]; rfl
theorem pay19_apply (v18 v46 : Vec Ideal S1x1 .f32) (y : S1x1.Idx) : k4_pay19 (F := Ideal) v18 v46 y = v46 y + v18 y := by
  unfold k4_pay19; simp only [shapeCast_self]; rfl
theorem pay20_apply (v25 v51 : Vec Ideal S1x1 .f32) (y : S1x1.Idx) : k4_pay20 (F := Ideal) v25 v51 y = v51 y + v25 y := by
  unfold k4_pay20; simp only [shapeCast_self]; rfl
theorem pay21_apply (v28 v56 : Vec Ideal S1x1 .f32) (y : S1x1.Idx) : k4_pay21 (F := Ideal) v28 v56 y = v56 y + v28 y := by
  unfold k4_pay21; simp only [shapeCast_self]; rfl
theorem pay22_apply (v30 v61 : Vec Ideal S1x1 .f32) (y : S1x1.Idx) : k4_pay22 (F := Ideal) v30 v61 y = v61 y + v30 y := by
  unfold k4_pay22; simp only [shapeCast_self]; rfl

end Cert.KernelIdeal.Hand

end
-- ==== Proof.LibPartialStores.lean ====
/-
  A buffer after a list of stores (last store first), read at an element that lies under one store of the list and that
  every LATER store misses: it holds that store's payload there, whatever the buffer held before and whatever the earlier
  stores were. (The library has the two ends of this: an element under the last store, and an element no store covers.)
  This is what reads back a buffer that a kernel updates slice by slice without ever storing it whole.
-/
import Idealize.ShloMosaic.Lib.Writes
import Idealize.ShloMosaic.Lib.Exec.Geometry

noncomputable section

namespace Idealize.ShloMosaic.View

variable {sig : RefSig} {κ : Kind} {sp : Space} {s : Shape} {e : EltTy} {Val : EltTy → Type}

/-- An element under the store `⟨r, w⟩` that none of the later stores `L₁` covers reads `w` at its place in `r`. -/
theorem read_writes_at (v : View sig κ sp s e) (f : v.ty.Contents Val) :
    ∀ (L₁ : List (Piece Val s e)) (r : Rect s) (w : r.shape.Idx → Val e) (L₂ : List (Piece Val s e)) (x : r.shape.Idx),
      (∀ p ∈ L₁, r.emb x ∉ p.1.set) → v.read Val (v.writes Val f (L₁ ++ ⟨r, w⟩ :: L₂)) (r.emb x) = w x
  | [], r, w, L₂, x, _ => read_writes_cons_emb v f r w L₂ x
  | p :: L₁, r, w, L₂, x, h => by
    rw [List.cons_append, writes_cons,
      read_slice_write_of_not_mem p.1 _ _ _ (by rw [Rect.map_emb_univ]; exact h p List.mem_cons_self)]
    exact read_writes_at v f L₁ r w L₂ x fun p' hp' => h p' (List.mem_cons_of_mem _ hp')

/-- The same for a load made after the stores: the loaded box's element `j`, sitting at `r.emb x` of the buffer, reads `w x`. -/
theorem readCov_at [∀ e, Nonempty (Val e)] (v : View sig κ sp s e) (L₁ : List (Piece Val s e)) (r : Rect s) (w : r.shape.Idx → Val e)
    (L₂ : List (Piece Val s e)) (B : LoadRect s) (j : B.shape.Idx) (x : r.shape.Idx) (hidx : B.idx j = r.emb x)
    (h : ∀ p ∈ L₁, r.emb x ∉ p.1.set) : v.readCov (L₁ ++ ⟨r, w⟩ :: L₂) B j = w x := by
  show v.read Val (v.writes Val v.junk (L₁ ++ ⟨r, w⟩ :: L₂)) (B.idx j) = w x
  rw [hidx]
  exact read_writes_at v v.junk L₁ r w L₂ x h

end Idealize.ShloMosaic.View

end
-- ==== Proof.KI.PoolAcc.lean ====
/-
  The pooling's scratch buffer, point by point, at exact arithmetic. At every grid point the body reads seven slices of the
  [1,128] scratch (columns 0–63, then 64, …, 69), adds the point's partial sums, and stores them back; the later stores miss
  the earlier cells, so each of the 70 cells ends at its previous entry plus its partial sum (`StepCells`) — at the first
  point over the zero-fill, afterwards over what the point before left. By induction on the point, after point n each cell
  holds the sum of its partial sums over points 0 … n.
-/
import proofs.«101636_j2104533975212_1_alg».proof.Proof.KI.Region4
import proofs.«101636_j2104533975212_1_alg».proof.Proof.KI.PoolStep
import proofs.«101636_j2104533975212_1_alg».proof.Proof.LibPartialStores
import Idealize.ShloMosaic.Lib.Pipeline.Value

-- membership in a rectangle of 5000 rows is decided by a structural recursion once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## The seven cells of the scratch the body updates, and reading the buffer back after its seven stores -/

abbrev c0 : Rect S1x128 := Rect.unit (s := S1x128) ![0, 0] S1x64.size inb_S1x128_S1x64_0_0
abbrev c64 : Rect S1x128 := Rect.unit (s := S1x128) ![0, 64] S1x1.size inb_S1x128_S1x1_0_64
abbrev c65 : Rect S1x128 := Rect.unit (s := S1x128) ![0, 65] S1x1.size inb_S1x128_S1x1_0_65
abbrev c66 : Rect S1x128 := Rect.unit (s := S1x128) ![0, 66] S1x1.size inb_S1x128_S1x1_0_66
abbrev c67 : Rect S1x128 := Rect.unit (s := S1x128) ![0, 67] S1x1.size inb_S1x128_S1x1_0_67
abbrev c68 : Rect S1x128 := Rect.unit (s := S1x128) ![0, 68] S1x1.size inb_S1x128_S1x1_0_68
abbrev c69 : Rect S1x128 := Rect.unit (s := S1x128) ![0, 69] S1x1.size inb_S1x128_S1x1_0_69
/-- The whole scratch, as the zero-fill stores through it. -/
abbrev cW : Rect S1x128 := Rect.unit (s := S1x128) ![0, 0] S1x128.size inb_S1x128_S1x128_0_0

theorem c0_emb (k : Fin 64) : c0.emb (ix2 (0 : Fin 1) k) = ix2 (0 : Fin 1) (⟨k.val, by omega⟩ : Fin 128) :=
  funext fun a => Fin.ext (by
    match a with
    | ⟨0, _⟩ => show 0 + 1 * 0 = 0; rfl
    | ⟨1, _⟩ => show 0 + 1 * k.val = k.val; omega)
theorem c64_emb (x : S1x1.Idx) : c64.emb x = ix2 (0 : Fin 1) (64 : Fin 128) :=
  funext fun a => Fin.ext (by
    have h0 : (x 0 : Nat) < 1 := (x 0).isLt
    have h1 : (x 1 : Nat) < 1 := (x 1).isLt
    match a with
    | ⟨0, _⟩ => show 0 + 1 * (x 0 : Nat) = 0; omega
    | ⟨1, _⟩ => show 64 + 1 * (x 1 : Nat) = 64; omega)
theorem c65_emb (x : S1x1.Idx) : c65.emb x = ix2 (0 : Fin 1) (65 : Fin 128) :=
  funext fun a => Fin.ext (by
    have h0 : (x 0 : Nat) < 1 := (x 0).isLt
    have h1 : (x 1 : Nat) < 1 := (x 1).isLt
    match a with
    | ⟨0, _⟩ => show 0 + 1 * (x 0 : Nat) = 0; omega
    | ⟨1, _⟩ => show 65 + 1 * (x 1 : Nat) = 65; omega)
theorem c66_emb (x : S1x1.Idx) : c66.emb x = ix2 (0 : Fin 1) (66 : Fin 128) :=
  funext fun a => Fin.ext (by
    have h0 : (x 0 : Nat) < 1 := (x 0).isLt
    have h1 : (x 1 : Nat) < 1 := (x 1).isLt
    match a with
    | ⟨0, _⟩ => show 0 + 1 * (x 0 : Nat) = 0; omega
    | ⟨1, _⟩ => show 66 + 1 * (x 1 : Nat) = 66; omega)
theorem c67_emb (x : S1x1.Idx) : c67.emb x = ix2 (0 : Fin 1) (67 : Fin 128) :=
  funext fun a => Fin.ext (by
    have h0 : (x 0 : Nat) < 1 := (x 0).isLt
    have h1 : (x 1 : Nat) < 1 := (x 1).isLt
    match a with
    | ⟨0, _⟩ => show 0 + 1 * (x 0 : Nat) = 0; omega
    | ⟨1, _⟩ => show 67 + 1 * (x 1 : Nat) = 67; omega)
theorem c68_emb (x : S1x1.Idx) : c68.emb x = ix2 (0 : Fin 1) (68 : Fin 128) :=
  funext fun a => Fin.ext (by
    have h0 : (x 0 : Nat) < 1 := (x 0).isLt
    have h1 : (x 1 : Nat) < 1 := (x 1).isLt
    match a with
    | ⟨0, _⟩ => show 0 + 1 * (x 0 : Nat) = 0; omega
    | ⟨1, _⟩ => show 68 + 1 * (x 1 : Nat) = 68; omega)
theorem c69_emb (x : S1x1.Idx) : c69.emb x = ix2 (0 : Fin 1) (69 : Fin 128) :=
  funext fun a => Fin.ext (by
    have h0 : (x 0 : Nat) < 1 := (x 0).isLt
    have h1 : (x 1 : Nat) < 1 := (x 1).isLt
    match a with
    | ⟨0, _⟩ => show 0 + 1 * (x 0 : Nat) = 0; omega
    | ⟨1, _⟩ => show 69 + 1 * (x 1 : Nat) = 69; omega)
theorem cW_emb (x : S1x128.Idx) : cW.emb x = x :=
  funext fun a => Fin.ext (by match a with | ⟨0, _⟩ => show 0 + 1 * (x 0 : Nat) = (x 0 : Nat); omega | ⟨1, _⟩ => show 0 + 1 * (x 1 : Nat) = (x 1 : Nat); omega)

theorem c0_miss69 (x : S1x64.Idx) : c0.emb x ∉ c69.set := fun h => by
  have h1 : 69 ≤ ((c0.emb x) 1 : Nat) := (Rect.mem_set_unit.mp h 1).1
  have h2 : ((c0.emb x) 1 : Nat) = 0 + 1 * (x 1 : Nat) := rfl
  have h3 : (x 1 : Nat) < 64 := (x 1).isLt
  omega
theorem c0_miss68 (x : S1x64.Idx) : c0.emb x ∉ c68.set := fun h => by
  have h1 : 68 ≤ ((c0.emb x) 1 : Nat) := (Rect.mem_set_unit.mp h 1).1
  have h2 : ((c0.emb x) 1 : Nat) = 0 + 1 * (x 1 : Nat) := rfl
  have h3 : (x 1 : Nat) < 64 := (x 1).isLt
  omega
theorem c0_miss67 (x : S1x64.Idx) : c0.emb x ∉ c67.set := fun h => by
  have h1 : 67 ≤ ((c0.emb x) 1 : Nat) := (Rect.mem_set_unit.mp h 1).1
  have h2 : ((c0.emb x) 1 : Nat) = 0 + 1 * (x 1 : Nat) := rfl
  have h3 : (x 1 : Nat) < 64 := (x 1).isLt
  omega
theorem c0_miss66 (x : S1x64.Idx) : c0.emb x ∉ c66.set := fun h => by
  have h1 : 66 ≤ ((c0.emb x) 1 : Nat) := (Rect.mem_set_unit.mp h 1).1
  have h2 : ((c0.emb x) 1 : Nat) = 0 + 1 * (x 1 : Nat) := rfl
  have h3 : (x 1 : Nat) < 64 := (x 1).isLt
  omega
theorem c0_miss65 (x : S1x64.Idx) : c0.emb x ∉ c65.set := fun h => by
  have h1 : 65 ≤ ((c0.emb x) 1 : Nat) := (Rect.mem_set_unit.mp h 1).1
  have h2 : ((c0.emb x) 1 : Nat) = 0 + 1 * (x 1 : Nat) := rfl
  have h3 : (x 1 : Nat) < 64 := (x 1).isLt
  omega
theorem c0_miss64 (x : S1x64.Idx) : c0.emb x ∉ c64.set := fun h => by
  have h1 : 64 ≤ ((c0.emb x) 1 : Nat) := (Rect.mem_set_unit.mp h 1).1
  have h2 : ((c0.emb x) 1 : Nat) = 0 + 1 * (x 1 : Nat) := rfl
  have h3 : (x 1 : Nat) < 64 := (x 1).isLt
  omega
theorem c68_miss69 (x : S1x1.Idx) : c68.emb x ∉ c69.set := fun h => by
  have h1 : 69 ≤ ((c68.emb x) 1 : Nat) := (Rect.mem_set_unit.mp h 1).1
  have h2 : ((c68.emb x) 1 : Nat) = 68 + 1 * (x 1 : Nat) := rfl
  have h3 : (x 1 : Nat) < 1 := (x 1).isLt
  omega
theorem c67_miss69 (x : S1x1.Idx) : c67.emb x ∉ c69.set := fun h => by
  have h1 : 69 ≤ ((c67.emb x) 1 : Nat) := (Rect.mem_set_unit.mp h 1).1
  have h2 : ((c67.emb x) 1 : Nat) = 67 + 1 * (x 1 : Nat) := rfl
  have h3 : (x 1 : Nat) < 1 := (x 1).isLt
  omega
theorem c67_miss68 (x : S1x1.Idx) : c67.emb x ∉ c68.set := fun h => by
  have h1 : 68 ≤ ((c67.emb x) 1 : Nat) := (Rect.mem_set_unit.mp h 1).1
  have h2 : ((c67.emb x) 1 : Nat) = 67 + 1 * (x 1 : Nat) := rfl
  have h3 : (x 1 : Nat) < 1 := (x 1).isLt
  omega
theorem c66_miss69 (x : S1x1.Idx) : c66.emb x ∉ c69.set := fun h => by
  have h1 : 69 ≤ ((c66.emb x) 1 : Nat) := (Rect.mem_set_unit.mp h 1).1
  have h2 : ((c66.emb x) 1 : Nat) = 66 + 1 * (x 1 : Nat) := rfl
  have h3 : (x 1 : Nat) < 1 := (x 1).isLt
  omega
theorem c66_miss68 (x : S1x1.Idx) : c66.emb x ∉ c68.set := fun h => by
  have h1 : 68 ≤ ((c66.emb x) 1 : Nat) := (Rect.mem_set_unit.mp h 1).1
  have h2 : ((c66.emb x) 1 : Nat) = 66 + 1 * (x 1 : Nat) := rfl
  have h3 : (x 1 : Nat) < 1 := (x 1).isLt
  omega
theorem c66_miss67 (x : S1x1.Idx) : c66.emb x ∉ c67.set := fun h => by
  have h1 : 67 ≤ ((c66.emb x) 1 : Nat) := (Rect.mem_set_unit.mp h 1).1
  have h2 : ((c66.emb x) 1 : Nat) = 66 + 1 * (x 1 : Nat) := rfl
  have h3 : (x 1 : Nat) < 1 := (x 1).isLt
  omega
theorem c65_miss69 (x : S1x1.Idx) : c65.emb x ∉ c69.set := fun h => by
  have h1 : 69 ≤ ((c65.emb x) 1 : Nat) := (Rect.mem_set_unit.mp h 1).1
  have h2 : ((c65.emb x) 1 : Nat) = 65 + 1 * (x 1 : Nat) := rfl
  have h3 : (x 1 : Nat) < 1 := (x 1).isLt
  omega
theorem c65_miss68 (x : S1x1.Idx) : c65.emb x ∉ c68.set := fun h => by
  have h1 : 68 ≤ ((c65.emb x) 1 : Nat) := (Rect.mem_set_unit.mp h 1).1
  have h2 : ((c65.emb x) 1 : Nat) = 65 + 1 * (x 1 : Nat) := rfl
  have h3 : (x 1 : Nat) < 1 := (x 1).isLt
  omega
theorem c65_miss67 (x : S1x1.Idx) : c65.emb x ∉ c67.set := fun h => by
  have h1 : 67 ≤ ((c65.emb x) 1 : Nat) := (Rect.mem_set_unit.mp h 1).1
  have h2 : ((c65.emb x) 1 : Nat) = 65 + 1 * (x 1 : Nat) := rfl
  have h3 : (x 1 : Nat) < 1 := (x 1).isLt
  omega
theorem c65_miss66 (x : S1x1.Idx) : c65.emb x ∉ c66.set := fun h => by
  have h1 : 66 ≤ ((c65.emb x) 1 : Nat) := (Rect.mem_set_unit.mp h 1).1
  have h2 : ((c65.emb x) 1 : Nat) = 65 + 1 * (x 1 : Nat) := rfl
  have h3 : (x 1 : Nat) < 1 := (x 1).isLt
  omega
theorem c64_miss69 (x : S1x1.Idx) : c64.emb x ∉ c69.set := fun h => by
  have h1 : 69 ≤ ((c64.emb x) 1 : Nat) := (Rect.mem_set_unit.mp h 1).1
  have h2 : ((c64.emb x) 1 : Nat) = 64 + 1 * (x 1 : Nat) := rfl
  have h3 : (x 1 : Nat) < 1 := (x 1).isLt
  omega
theorem c64_miss68 (x : S1x1.Idx) : c64.emb x ∉ c68.set := fun h => by
  have h1 : 68 ≤ ((c64.emb x) 1 : Nat) := (Rect.mem_set_unit.mp h 1).1
  have h2 : ((c64.emb x) 1 : Nat) = 64 + 1 * (x 1 : Nat) := rfl
  have h3 : (x 1 : Nat) < 1 := (x 1).isLt
  omega
theorem c64_miss67 (x : S1x1.Idx) : c64.emb x ∉ c67.set := fun h => by
  have h1 : 67 ≤ ((c64.emb x) 1 : Nat) := (Rect.mem_set_unit.mp h 1).1
  have h2 : ((c64.emb x) 1 : Nat) = 64 + 1 * (x 1 : Nat) := rfl
  have h3 : (x 1 : Nat) < 1 := (x 1).isLt
  omega
theorem c64_miss66 (x : S1x1.Idx) : c64.emb x ∉ c66.set := fun h => by
  have h1 : 66 ≤ ((c64.emb x) 1 : Nat) := (Rect.mem_set_unit.mp h 1).1
  have h2 : ((c64.emb x) 1 : Nat) = 64 + 1 * (x 1 : Nat) := rfl
  have h3 : (x 1 : Nat) < 1 := (x 1).isLt
  omega
theorem c64_miss65 (x : S1x1.Idx) : c64.emb x ∉ c65.set := fun h => by
  have h1 : 65 ≤ ((c64.emb x) 1 : Nat) := (Rect.mem_set_unit.mp h 1).1
  have h2 : ((c64.emb x) 1 : Nat) = 64 + 1 * (x 1 : Nat) := rfl
  have h3 : (x 1 : Nat) < 1 := (x 1).isLt
  omega
theorem c69_miss0 (x : S1x1.Idx) : c69.emb x ∉ c0.set := fun h => by
  have h1 : ((c69.emb x) 1 : Nat) < 0 + 64 := (Rect.mem_set_unit.mp h 1).2
  have h2 : ((c69.emb x) 1 : Nat) = 69 + 1 * (x 1 : Nat) := rfl
  omega
theorem c68_miss0 (x : S1x1.Idx) : c68.emb x ∉ c0.set := fun h => by
  have h1 : ((c68.emb x) 1 : Nat) < 0 + 64 := (Rect.mem_set_unit.mp h 1).2
  have h2 : ((c68.emb x) 1 : Nat) = 68 + 1 * (x 1 : Nat) := rfl
  omega
theorem c67_miss0 (x : S1x1.Idx) : c67.emb x ∉ c0.set := fun h => by
  have h1 : ((c67.emb x) 1 : Nat) < 0 + 64 := (Rect.mem_set_unit.mp h 1).2
  have h2 : ((c67.emb x) 1 : Nat) = 67 + 1 * (x 1 : Nat) := rfl
  omega
theorem c66_miss0 (x : S1x1.Idx) : c66.emb x ∉ c0.set := fun h => by
  have h1 : ((c66.emb x) 1 : Nat) < 0 + 64 := (Rect.mem_set_unit.mp h 1).2
  have h2 : ((c66.emb x) 1 : Nat) = 66 + 1 * (x 1 : Nat) := rfl
  omega
theorem c65_miss0 (x : S1x1.Idx) : c65.emb x ∉ c0.set := fun h => by
  have h1 : ((c65.emb x) 1 : Nat) < 0 + 64 := (Rect.mem_set_unit.mp h 1).2
  have h2 : ((c65.emb x) 1 : Nat) = 65 + 1 * (x 1 : Nat) := rfl
  omega
theorem c64_miss0 (x : S1x1.Idx) : c64.emb x ∉ c0.set := fun h => by
  have h1 : ((c64.emb x) 1 : Nat) < 0 + 64 := (Rect.mem_set_unit.mp h 1).2
  have h2 : ((c64.emb x) 1 : Nat) = 64 + 1 * (x 1 : Nat) := rfl
  omega
theorem c69_miss68 (x : S1x1.Idx) : c69.emb x ∉ c68.set := fun h => by
  have h1 : ((c69.emb x) 1 : Nat) < 68 + 1 := (Rect.mem_set_unit.mp h 1).2
  have h2 : ((c69.emb x) 1 : Nat) = 69 + 1 * (x 1 : Nat) := rfl
  omega
theorem c69_miss67 (x : S1x1.Idx) : c69.emb x ∉ c67.set := fun h => by
  have h1 : ((c69.emb x) 1 : Nat) < 67 + 1 := (Rect.mem_set_unit.mp h 1).2
  have h2 : ((c69.emb x) 1 : Nat) = 69 + 1 * (x 1 : Nat) := rfl
  omega
theorem c69_miss66 (x : S1x1.Idx) : c69.emb x ∉ c66.set := fun h => by
  have h1 : ((c69.emb x) 1 : Nat) < 66 + 1 := (Rect.mem_set_unit.mp h 1).2
  have h2 : ((c69.emb x) 1 : Nat) = 69 + 1 * (x 1 : Nat) := rfl
  omega
theorem c69_miss65 (x : S1x1.Idx) : c69.emb x ∉ c65.set := fun h => by
  have h1 : ((c69.emb x) 1 : Nat) < 65 + 1 := (Rect.mem_set_unit.mp h 1).2
  have h2 : ((c69.emb x) 1 : Nat) = 69 + 1 * (x 1 : Nat) := rfl
  omega
theorem c69_miss64 (x : S1x1.Idx) : c69.emb x ∉ c64.set := fun h => by
  have h1 : ((c69.emb x) 1 : Nat) < 64 + 1 := (Rect.mem_set_unit.mp h 1).2
  have h2 : ((c69.emb x) 1 : Nat) = 69 + 1 * (x 1 : Nat) := rfl
  omega
theorem c68_miss67 (x : S1x1.Idx) : c68.emb x ∉ c67.set := fun h => by
  have h1 : ((c68.emb x) 1 : Nat) < 67 + 1 := (Rect.mem_set_unit.mp h 1).2
  have h2 : ((c68.emb x) 1 : Nat) = 68 + 1 * (x 1 : Nat) := rfl
  omega
theorem c68_miss66 (x : S1x1.Idx) : c68.emb x ∉ c66.set := fun h => by
  have h1 : ((c68.emb x) 1 : Nat) < 66 + 1 := (Rect.mem_set_unit.mp h 1).2
  have h2 : ((c68.emb x) 1 : Nat) = 68 + 1 * (x 1 : Nat) := rfl
  omega
theorem c68_miss65 (x : S1x1.Idx) : c68.emb x ∉ c65.set := fun h => by
  have h1 : ((c68.emb x) 1 : Nat) < 65 + 1 := (Rect.mem_set_unit.mp h 1).2
  have h2 : ((c68.emb x) 1 : Nat) = 68 + 1 * (x 1 : Nat) := rfl
  omega
theorem c68_miss64 (x : S1x1.Idx) : c68.emb x ∉ c64.set := fun h => by
  have h1 : ((c68.emb x) 1 : Nat) < 64 + 1 := (Rect.mem_set_unit.mp h 1).2
  have h2 : ((c68.emb x) 1 : Nat) = 68 + 1 * (x 1 : Nat) := rfl
  omega
theorem c67_miss66 (x : S1x1.Idx) : c67.emb x ∉ c66.set := fun h => by
  have h1 : ((c67.emb x) 1 : Nat) < 66 + 1 := (Rect.mem_set_unit.mp h 1).2
  have h2 : ((c67.emb x) 1 : Nat) = 67 + 1 * (x 1 : Nat) := rfl
  omega
theorem c67_miss65 (x : S1x1.Idx) : c67.emb x ∉ c65.set := fun h => by
  have h1 : ((c67.emb x) 1 : Nat) < 65 + 1 := (Rect.mem_set_unit.mp h 1).2
  have h2 : ((c67.emb x) 1 : Nat) = 67 + 1 * (x 1 : Nat) := rfl
  omega
theorem c67_miss64 (x : S1x1.Idx) : c67.emb x ∉ c64.set := fun h => by
  have h1 : ((c67.emb x) 1 : Nat) < 64 + 1 := (Rect.mem_set_unit.mp h 1).2
  have h2 : ((c67.emb x) 1 : Nat) = 67 + 1 * (x 1 : Nat) := rfl
  omega
theorem c66_miss65 (x : S1x1.Idx) : c66.emb x ∉ c65.set := fun h => by
  have h1 : ((c66.emb x) 1 : Nat) < 65 + 1 := (Rect.mem_set_unit.mp h 1).2
  have h2 : ((c66.emb x) 1 : Nat) = 66 + 1 * (x 1 : Nat) := rfl
  omega
theorem c66_miss64 (x : S1x1.Idx) : c66.emb x ∉ c64.set := fun h => by
  have h1 : ((c66.emb x) 1 : Nat) < 64 + 1 := (Rect.mem_set_unit.mp h 1).2
  have h2 : ((c66.emb x) 1 : Nat) = 66 + 1 * (x 1 : Nat) := rfl
  omega
theorem c65_miss64 (x : S1x1.Idx) : c65.emb x ∉ c64.set := fun h => by
  have h1 : ((c65.emb x) 1 : Nat) < 64 + 1 := (Rect.mem_set_unit.mp h 1).2
  have h2 : ((c65.emb x) 1 : Nat) = 65 + 1 * (x 1 : Nat) := rfl
  omega

section Seven
variable {sig' : RefSig} {κ : Kind} {sp : Space} {Val : EltTy → Type} (v : View sig' κ sp S1x128 .f32) (f : v.ty.Contents Val)

theorem read_c0 (w69 w68 w67 w66 w65 w64 : S1x1.Idx → Val .f32) (w0 : S1x64.Idx → Val .f32) (L₂ : List (View.Piece Val S1x128 .f32)) (x : S1x64.Idx) :
    v.read Val (v.writes Val f (⟨c69, w69⟩ :: ⟨c68, w68⟩ :: ⟨c67, w67⟩ :: ⟨c66, w66⟩ :: ⟨c65, w65⟩ :: ⟨c64, w64⟩ :: ⟨c0, w0⟩ :: L₂ : List (View.Piece Val S1x128 .f32))) (c0.emb x) = w0 x :=
  View.read_writes_at v f [⟨c69, w69⟩, ⟨c68, w68⟩, ⟨c67, w67⟩, ⟨c66, w66⟩, ⟨c65, w65⟩, ⟨c64, w64⟩] c0 w0 L₂ x (by
      intro p hp
      simp only [List.mem_cons, List.mem_nil_iff, _root_.or_false] at hp
      rcases hp with rfl | rfl | rfl | rfl | rfl | rfl
      · exact c0_miss69 x
      · exact c0_miss68 x
      · exact c0_miss67 x
      · exact c0_miss66 x
      · exact c0_miss65 x
      · exact c0_miss64 x)

theorem read_c64 (w69 w68 w67 w66 w65 w64 : S1x1.Idx → Val .f32) (w0 : S1x64.Idx → Val .f32) (L₂ : List (View.Piece Val S1x128 .f32)) (x : S1x1.Idx) :
    v.read Val (v.writes Val f (⟨c69, w69⟩ :: ⟨c68, w68⟩ :: ⟨c67, w67⟩ :: ⟨c66, w66⟩ :: ⟨c65, w65⟩ :: ⟨c64, w64⟩ :: ⟨c0, w0⟩ :: L₂ : List (View.Piece Val S1x128 .f32))) (c64.emb x) = w64 x :=
  View.read_writes_at v f [⟨c69, w69⟩, ⟨c68, w68⟩, ⟨c67, w67⟩, ⟨c66, w66⟩, ⟨c65, w65⟩] c64 w64 (⟨c0, w0⟩ :: L₂) x (by
      intro p hp
      simp only [List.mem_cons, List.mem_nil_iff, _root_.or_false] at hp
      rcases hp with rfl | rfl | rfl | rfl | rfl
      · exact c64_miss69 x
      · exact c64_miss68 x
      · exact c64_miss67 x
      · exact c64_miss66 x
      · exact c64_miss65 x)

theorem read_c65 (w69 w68 w67 w66 w65 w64 : S1x1.Idx → Val .f32) (w0 : S1x64.Idx → Val .f32) (L₂ : List (View.Piece Val S1x128 .f32)) (x : S1x1.Idx) :
    v.read Val (v.writes Val f (⟨c69, w69⟩ :: ⟨c68, w68⟩ :: ⟨c67, w67⟩ :: ⟨c66, w66⟩ :: ⟨c65, w65⟩ :: ⟨c64, w64⟩ :: ⟨c0, w0⟩ :: L₂ : List (View.Piece Val S1x128 .f32))) (c65.emb x) = w65 x :=
  View.read_writes_at v f [⟨c69, w69⟩, ⟨c68, w68⟩, ⟨c67, w67⟩, ⟨c66, w66⟩] c65 w65 (⟨c64, w64⟩ :: ⟨c0, w0⟩ :: L₂) x (by
      intro p hp
      simp only [List.mem_cons, List.mem_nil_iff, _root_.or_false] at hp
      rcases hp with rfl | rfl | rfl | rfl
      · exact c65_miss69 x
      · exact c65_miss68 x
      · exact c65_miss67 x
      · exact c65_miss66 x)

theorem read_c66 (w69 w68 w67 w66 w65 w64 : S1x1.Idx → Val .f32) (w0 : S1x64.Idx → Val .f32) (L₂ : List (View.Piece Val S1x128 .f32)) (x : S1x1.Idx) :
    v.read Val (v.writes Val f (⟨c69, w69⟩ :: ⟨c68, w68⟩ :: ⟨c67, w67⟩ :: ⟨c66, w66⟩ :: ⟨c65, w65⟩ :: ⟨c64, w64⟩ :: ⟨c0, w0⟩ :: L₂ : List (View.Piece Val S1x128 .f32))) (c66.emb x) = w66 x :=
  View.read_writes_at v f [⟨c69, w69⟩, ⟨c68, w68⟩, ⟨c67, w67⟩] c66 w66 (⟨c65, w65⟩ :: ⟨c64, w64⟩ :: ⟨c0, w0⟩ :: L₂) x (by
      intro p hp
      simp only [List.mem_cons, List.mem_nil_iff, _root_.or_false] at hp
      rcases hp with rfl | rfl | rfl
      · exact c66_miss69 x
      · exact c66_miss68 x
      · exact c66_miss67 x)

theorem read_c67 (w69 w68 w67 w66 w65 w64 : S1x1.Idx → Val .f32) (w0 : S1x64.Idx → Val .f32) (L₂ : List (View.Piece Val S1x128 .f32)) (x : S1x1.Idx) :
    v.read Val (v.writes Val f (⟨c69, w69⟩ :: ⟨c68, w68⟩ :: ⟨c67, w67⟩ :: ⟨c66, w66⟩ :: ⟨c65, w65⟩ :: ⟨c64, w64⟩ :: ⟨c0, w0⟩ :: L₂ : List (View.Piece Val S1x128 .f32))) (c67.emb x) = w67 x :=
  View.read_writes_at v f [⟨c69, w69⟩, ⟨c68, w68⟩] c67 w67 (⟨c66, w66⟩ :: ⟨c65, w65⟩ :: ⟨c64, w64⟩ :: ⟨c0, w0⟩ :: L₂) x (by
      intro p hp
      simp only [List.mem_cons, List.mem_nil_iff, _root_.or_false] at hp
      rcases hp with rfl | rfl
      · exact c67_miss69 x
      · exact c67_miss68 x)

theorem read_c68 (w69 w68 w67 w66 w65 w64 : S1x1.Idx → Val .f32) (w0 : S1x64.Idx → Val .f32) (L₂ : List (View.Piece Val S1x128 .f32)) (x : S1x1.Idx) :
    v.read Val (v.writes Val f (⟨c69, w69⟩ :: ⟨c68, w68⟩ :: ⟨c67, w67⟩ :: ⟨c66, w66⟩ :: ⟨c65, w65⟩ :: ⟨c64, w64⟩ :: ⟨c0, w0⟩ :: L₂ : List (View.Piece Val S1x128 .f32))) (c68.emb x) = w68 x :=
  View.read_writes_at v f [⟨c69, w69⟩] c68 w68 (⟨c67, w67⟩ :: ⟨c66, w66⟩ :: ⟨c65, w65⟩ :: ⟨c64, w64⟩ :: ⟨c0, w0⟩ :: L₂) x (by
      intro p hp
      simp only [List.mem_cons, List.mem_nil_iff, _root_.or_false] at hp
      rcases hp with rfl
      · exact c68_miss69 x)

theorem read_c69 (w69 w68 w67 w66 w65 w64 : S1x1.Idx → Val .f32) (w0 : S1x64.Idx → Val .f32) (L₂ : List (View.Piece Val S1x128 .f32)) (x : S1x1.Idx) :
    v.read Val (v.writes Val f (⟨c69, w69⟩ :: ⟨c68, w68⟩ :: ⟨c67, w67⟩ :: ⟨c66, w66⟩ :: ⟨c65, w65⟩ :: ⟨c64, w64⟩ :: ⟨c0, w0⟩ :: L₂ : List (View.Piece Val S1x128 .f32))) (c69.emb x) = w69 x :=
  View.read_writes_at v f [] c69 w69 (⟨c68, w68⟩ :: ⟨c67, w67⟩ :: ⟨c66, w66⟩ :: ⟨c65, w65⟩ :: ⟨c64, w64⟩ :: ⟨c0, w0⟩ :: L₂) x (fun _ hp => absurd hp List.not_mem_nil)
end Seven

theorem hz2 : (![0, 0] : Fin 2 → Nat) = fun _ => 0 := funext fun a => by fin_cases a <;> rfl

/-- The zero-fill's payload is 0 everywhere. -/
theorem pay7_apply (y : S1x128.Idx) : k4_pay7 (F := Ideal) y = 0 := by
  unfold k4_pay7; simp only [shapeCast_self]; exact Ideal.ofBits_zero_f32

/-! ## One grid point -/

/-- The new scratch `S'` is the old one `S` with each of the 70 cells increased by its partial sum over the staged blocks. -/
structure StepCells (S' S : Vec Ideal S1x128 .f32) (x0 : Vec Ideal S5000x64 .f32) (x1 : Vec Ideal S5000x5 .f32) : Prop where
  h : ∀ k : Fin 64, S' (ix2 (0 : Fin 1) (⟨k.val, by omega⟩ : Fin 128)) = S (ix2 (0 : Fin 1) (⟨k.val, by omega⟩ : Fin 128)) + pH x0 k
  c64 : S' (ix2 (0 : Fin 1) (64 : Fin 128)) = S (ix2 (0 : Fin 1) (64 : Fin 128)) + pX x1 (2 : Fin 5)
  c65 : S' (ix2 (0 : Fin 1) (65 : Fin 128)) = S (ix2 (0 : Fin 1) (65 : Fin 128)) + pX x1 (3 : Fin 5)
  c66 : S' (ix2 (0 : Fin 1) (66 : Fin 128)) = S (ix2 (0 : Fin 1) (66 : Fin 128)) + pX x1 (4 : Fin 5)
  c67 : S' (ix2 (0 : Fin 1) (67 : Fin 128)) = S (ix2 (0 : Fin 1) (67 : Fin 128)) + pXm x1 (0 : Fin 5)
  c68 : S' (ix2 (0 : Fin 1) (68 : Fin 128)) = S (ix2 (0 : Fin 1) (68 : Fin 128)) + pXm x1 (1 : Fin 5)
  c69 : S' (ix2 (0 : Fin 1) (69 : Fin 128)) = S (ix2 (0 : Fin 1) (69 : Fin 128)) + pCnt x1

set_option maxHeartbeats 2000000 in
/-- A middle point's step. -/
theorem stepB (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (hc0 : ¬cond4_0 i) (hc1 : ¬cond4_1 i)
    (x0 : Vec Ideal S5000x64 .f32) (x1 : Vec Ideal S5000x5 .f32) (x2 : Vec Ideal S70x32 .f32) (x3 : Vec Ideal S32 .f32) (x4 : Vec Ideal S32x2 .f32) (x5 : Vec Ideal S2 .f32) (xs : Vec Ideal S1x128 .f32) :
    StepCells (sout4_B (F := Ideal) c i arg1 harg1 arg2 harg2 arg3 harg3 arg4 harg4 arg5 harg5 arg6 harg6 arg7 harg7 hc0 hc1 x0 x1 x2 x3 x4 x5 xs) xs x0 x1 where
  h k := by
    unfold sout4_B kernelRun4_B; dsimp only; sl_unfold_words
    rw [← c0_emb k]
    refine (read_c0 scM4.view _ _ _ _ _ _ _ _ [] (ix2 (0 : Fin 1) k)).trans ?_
    simp only [View.readAt_eq_ld, Memref.IsWhole.read_unread, View.ld_unit_zero (S := S5000x64) hz2, View.ld_unit_zero (S := S5000x5) hz2]
    refine (pay16_apply x0 _ k).trans ?_
    have hr : scM4.view.read (Elt Ideal) ((Memref.isWhole_whole cc4_scratch0).unread xs) = xs := (Memref.isWhole_whole cc4_scratch0).read_unread xs
    show View.ld (scM4.view.read (Elt Ideal) ((Memref.isWhole_whole cc4_scratch0).unread xs)) c0 (ix2 (0 : Fin 1) k) + _ = _
    rw [hr]
    show xs (c0.emb (ix2 (0 : Fin 1) k)) + _ = _
    rw [c0_emb k]
  c64 := by
    unfold sout4_B kernelRun4_B; dsimp only; sl_unfold_words
    rw [← c64_emb (ix2 (0 : Fin 1) (0 : Fin 1))]
    refine (read_c64 scM4.view _ _ _ _ _ _ _ _ [] (ix2 (0 : Fin 1) (0 : Fin 1))).trans ?_
    simp only [View.readAt_eq_ld, Memref.IsWhole.read_unread, View.ld_unit_zero (S := S5000x64) hz2, View.ld_unit_zero (S := S5000x5) hz2]
    refine (pay17_apply _ _ _).trans ?_
    rw [pay9_apply x1]
    have hr : scM4.view.read (Elt Ideal) ((Memref.isWhole_whole cc4_scratch0).unread xs) = xs := (Memref.isWhole_whole cc4_scratch0).read_unread xs
    show View.ld (scM4.view.read (Elt Ideal) ((Memref.isWhole_whole cc4_scratch0).unread xs)) c64 (ix2 (0 : Fin 1) (0 : Fin 1)) + _ = _
    rw [hr]
    show xs (c64.emb (ix2 (0 : Fin 1) (0 : Fin 1))) + _ = _
    rw [c64_emb (ix2 (0 : Fin 1) (0 : Fin 1))]
  c65 := by
    unfold sout4_B kernelRun4_B; dsimp only; sl_unfold_words
    rw [← c65_emb (ix2 (0 : Fin 1) (0 : Fin 1))]
    refine (read_c65 scM4.view _ _ _ _ _ _ _ _ [] (ix2 (0 : Fin 1) (0 : Fin 1))).trans ?_
    simp only [View.readAt_eq_ld, Memref.IsWhole.read_unread, View.ld_unit_zero (S := S5000x64) hz2, View.ld_unit_zero (S := S5000x5) hz2]
    refine (pay18_apply _ _ _).trans ?_
    rw [pay10_apply x1]
    have hr : scM4.view.read (Elt Ideal) ((Memref.isWhole_whole cc4_scratch0).unread xs) = xs := (Memref.isWhole_whole cc4_scratch0).read_unread xs
    show View.ld (scM4.view.read (Elt Ideal) ((Memref.isWhole_whole cc4_scratch0).unread xs)) c65 (ix2 (0 : Fin 1) (0 : Fin 1)) + _ = _
    rw [hr]
    show xs (c65.emb (ix2 (0 : Fin 1) (0 : Fin 1))) + _ = _
    rw [c65_emb (ix2 (0 : Fin 1) (0 : Fin 1))]
  c66 := by
    unfold sout4_B kernelRun4_B; dsimp only; sl_unfold_words
    rw [← c66_emb (ix2 (0 : Fin 1) (0 : Fin 1))]
    refine (read_c66 scM4.view _ _ _ _ _ _ _ _ [] (ix2 (0 : Fin 1) (0 : Fin 1))).trans ?_
    simp only [View.readAt_eq_ld, Memref.IsWhole.read_unread, View.ld_unit_zero (S := S5000x64) hz2, View.ld_unit_zero (S := S5000x5) hz2]
    refine (pay19_apply _ _ _).trans ?_
    rw [pay11_apply x1]
    have hr : scM4.view.read (Elt Ideal) ((Memref.isWhole_whole cc4_scratch0).unread xs) = xs := (Memref.isWhole_whole cc4_scratch0).read_unread xs
    show View.ld (scM4.view.read (Elt Ideal) ((Memref.isWhole_whole cc4_scratch0).unread xs)) c66 (ix2 (0 : Fin 1) (0 : Fin 1)) + _ = _
    rw [hr]
    show xs (c66.emb (ix2 (0 : Fin 1) (0 : Fin 1))) + _ = _
    rw [c66_emb (ix2 (0 : Fin 1) (0 : Fin 1))]
  c67 := by
    unfold sout4_B kernelRun4_B; dsimp only; sl_unfold_words
    rw [← c67_emb (ix2 (0 : Fin 1) (0 : Fin 1))]
    refine (read_c67 scM4.view _ _ _ _ _ _ _ _ [] (ix2 (0 : Fin 1) (0 : Fin 1))).trans ?_
    simp only [View.readAt_eq_ld, Memref.IsWhole.read_unread, View.ld_unit_zero (S := S5000x64) hz2, View.ld_unit_zero (S := S5000x5) hz2]
    refine (pay20_apply _ _ _).trans ?_
    rw [pay13_apply x1]
    have hr : scM4.view.read (Elt Ideal) ((Memref.isWhole_whole cc4_scratch0).unread xs) = xs := (Memref.isWhole_whole cc4_scratch0).read_unread xs
    show View.ld (scM4.view.read (Elt Ideal) ((Memref.isWhole_whole cc4_scratch0).unread xs)) c67 (ix2 (0 : Fin 1) (0 : Fin 1)) + _ = _
    rw [hr]
    show xs (c67.emb (ix2 (0 : Fin 1) (0 : Fin 1))) + _ = _
    rw [c67_emb (ix2 (0 : Fin 1) (0 : Fin 1))]
  c68 := by
    unfold sout4_B kernelRun4_B; dsimp only; sl_unfold_words
    rw [← c68_emb (ix2 (0 : Fin 1) (0 : Fin 1))]
    refine (read_c68 scM4.view _ _ _ _ _ _ _ _ [] (ix2 (0 : Fin 1) (0 : Fin 1))).trans ?_
    simp only [View.readAt_eq_ld, Memref.IsWhole.read_unread, View.ld_unit_zero (S := S5000x64) hz2, View.ld_unit_zero (S := S5000x5) hz2]
    refine (pay21_apply _ _ _).trans ?_
    rw [pay14_apply x1]
    have hr : scM4.view.read (Elt Ideal) ((Memref.isWhole_whole cc4_scratch0).unread xs) = xs := (Memref.isWhole_whole cc4_scratch0).read_unread xs
    show View.ld (scM4.view.read (Elt Ideal) ((Memref.isWhole_whole cc4_scratch0).unread xs)) c68 (ix2 (0 : Fin 1) (0 : Fin 1)) + _ = _
    rw [hr]
    show xs (c68.emb (ix2 (0 : Fin 1) (0 : Fin 1))) + _ = _
    rw [c68_emb (ix2 (0 : Fin 1) (0 : Fin 1))]
  c69 := by
    unfold sout4_B kernelRun4_B; dsimp only; sl_unfold_words
    rw [← c69_emb (ix2 (0 : Fin 1) (0 : Fin 1))]
    refine (read_c69 scM4.view _ _ _ _ _ _ _ _ [] (ix2 (0 : Fin 1) (0 : Fin 1))).trans ?_
    simp only [View.readAt_eq_ld, Memref.IsWhole.read_unread, View.ld_unit_zero (S := S5000x64) hz2, View.ld_unit_zero (S := S5000x5) hz2]
    refine (pay22_apply _ _ _).trans ?_
    rw [pay15_apply x1]
    have hr : scM4.view.read (Elt Ideal) ((Memref.isWhole_whole cc4_scratch0).unread xs) = xs := (Memref.isWhole_whole cc4_scratch0).read_unread xs
    show View.ld (scM4.view.read (Elt Ideal) ((Memref.isWhole_whole cc4_scratch0).unread xs)) c69 (ix2 (0 : Fin 1) (0 : Fin 1)) + _ = _
    rw [hr]
    show xs (c69.emb (ix2 (0 : Fin 1) (0 : Fin 1))) + _ = _
    rw [c69_emb (ix2 (0 : Fin 1) (0 : Fin 1))]

set_option maxHeartbeats 2000000 in
/-- The last point's step (the head that follows reads the scratch and does not change it). -/
theorem stepC (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (hc0 : ¬cond4_0 i) (hc1 : cond4_1 i)
    (x0 : Vec Ideal S5000x64 .f32) (x1 : Vec Ideal S5000x5 .f32) (x2 : Vec Ideal S70x32 .f32) (x3 : Vec Ideal S32 .f32) (x4 : Vec Ideal S32x2 .f32) (x5 : Vec Ideal S2 .f32) (xs : Vec Ideal S1x128 .f32) :
    StepCells (sout4_C (F := Ideal) c i arg1 harg1 arg2 harg2 arg3 harg3 arg4 harg4 arg5 harg5 arg6 harg6 arg7 harg7 hc0 hc1 x0 x1 x2 x3 x4 x5 xs) xs x0 x1 where
  h k := by
    unfold sout4_C kernelRun4_C; dsimp only; sl_unfold_words
    rw [← c0_emb k]
    refine (read_c0 scM4.view _ _ _ _ _ _ _ _ [] (ix2 (0 : Fin 1) k)).trans ?_
    simp only [View.readAt_eq_ld, Memref.IsWhole.read_unread, View.ld_unit_zero (S := S5000x64) hz2, View.ld_unit_zero (S := S5000x5) hz2]
    refine (pay16_apply x0 _ k).trans ?_
    have hr : scM4.view.read (Elt Ideal) ((Memref.isWhole_whole cc4_scratch0).unread xs) = xs := (Memref.isWhole_whole cc4_scratch0).read_unread xs
    show View.ld (scM4.view.read (Elt Ideal) ((Memref.isWhole_whole cc4_scratch0).unread xs)) c0 (ix2 (0 : Fin 1) k) + _ = _
    rw [hr]
    show xs (c0.emb (ix2 (0 : Fin 1) k)) + _ = _
    rw [c0_emb k]
  c64 := by
    unfold sout4_C kernelRun4_C; dsimp only; sl_unfold_words
    rw [← c64_emb (ix2 (0 : Fin 1) (0 : Fin 1))]
    refine (read_c64 scM4.view _ _ _ _ _ _ _ _ [] (ix2 (0 : Fin 1) (0 : Fin 1))).trans ?_
    simp only [View.readAt_eq_ld, Memref.IsWhole.read_unread, View.ld_unit_zero (S := S5000x64) hz2, View.ld_unit_zero (S := S5000x5) hz2]
    refine (pay17_apply _ _ _).trans ?_
    rw [pay9_apply x1]
    have hr : scM4.view.read (Elt Ideal) ((Memref.isWhole_whole cc4_scratch0).unread xs) = xs := (Memref.isWhole_whole cc4_scratch0).read_unread xs
    show View.ld (scM4.view.read (Elt Ideal) ((Memref.isWhole_whole cc4_scratch0).unread xs)) c64 (ix2 (0 : Fin 1) (0 : Fin 1)) + _ = _
    rw [hr]
    show xs (c64.emb (ix2 (0 : Fin 1) (0 : Fin 1))) + _ = _
    rw [c64_emb (ix2 (0 : Fin 1) (0 : Fin 1))]
  c65 := by
    unfold sout4_C kernelRun4_C; dsimp only; sl_unfold_words
    rw [← c65_emb (ix2 (0 : Fin 1) (0 : Fin 1))]
    refine (read_c65 scM4.view _ _ _ _ _ _ _ _ [] (ix2 (0 : Fin 1) (0 : Fin 1))).trans ?_
    simp only [View.readAt_eq_ld, Memref.IsWhole.read_unread, View.ld_unit_zero (S := S5000x64) hz2, View.ld_unit_zero (S := S5000x5) hz2]
    refine (pay18_apply _ _ _).trans ?_
    rw [pay10_apply x1]
    have hr : scM4.view.read (Elt Ideal) ((Memref.isWhole_whole cc4_scratch0).unread xs) = xs := (Memref.isWhole_whole cc4_scratch0).read_unread xs
    show View.ld (scM4.view.read (Elt Ideal) ((Memref.isWhole_whole cc4_scratch0).unread xs)) c65 (ix2 (0 : Fin 1) (0 : Fin 1)) + _ = _
    rw [hr]
    show xs (c65.emb (ix2 (0 : Fin 1) (0 : Fin 1))) + _ = _
    rw [c65_emb (ix2 (0 : Fin 1) (0 : Fin 1))]
  c66 := by
    unfold sout4_C kernelRun4_C; dsimp only; sl_unfold_words
    rw [← c66_emb (ix2 (0 : Fin 1) (0 : Fin 1))]
    refine (read_c66 scM4.view _ _ _ _ _ _ _ _ [] (ix2 (0 : Fin 1) (0 : Fin 1))).trans ?_
    simp only [View.readAt_eq_ld, Memref.IsWhole.read_unread, View.ld_unit_zero (S := S5000x64) hz2, View.ld_unit_zero (S := S5000x5) hz2]
    refine (pay19_apply _ _ _).trans ?_
    rw [pay11_apply x1]
    have hr : scM4.view.read (Elt Ideal) ((Memref.isWhole_whole cc4_scratch0).unread xs) = xs := (Memref.isWhole_whole cc4_scratch0).read_unread xs
    show View.ld (scM4.view.read (Elt Ideal) ((Memref.isWhole_whole cc4_scratch0).unread xs)) c66 (ix2 (0 : Fin 1) (0 : Fin 1)) + _ = _
    rw [hr]
    show xs (c66.emb (ix2 (0 : Fin 1) (0 : Fin 1))) + _ = _
    rw [c66_emb (ix2 (0 : Fin 1) (0 : Fin 1))]
  c67 := by
    unfold sout4_C kernelRun4_C; dsimp only; sl_unfold_words
    rw [← c67_emb (ix2 (0 : Fin 1) (0 : Fin 1))]
    refine (read_c67 scM4.view _ _ _ _ _ _ _ _ [] (ix2 (0 : Fin 1) (0 : Fin 1))).trans ?_
    simp only [View.readAt_eq_ld, Memref.IsWhole.read_unread, View.ld_unit_zero (S := S5000x64) hz2, View.ld_unit_zero (S := S5000x5) hz2]
    refine (pay20_apply _ _ _).trans ?_
    rw [pay13_apply x1]
    have hr : scM4.view.read (Elt Ideal) ((Memref.isWhole_whole cc4_scratch0).unread xs) = xs := (Memref.isWhole_whole cc4_scratch0).read_unread xs
    show View.ld (scM4.view.read (Elt Ideal) ((Memref.isWhole_whole cc4_scratch0).unread xs)) c67 (ix2 (0 : Fin 1) (0 : Fin 1)) + _ = _
    rw [hr]
    show xs (c67.emb (ix2 (0 : Fin 1) (0 : Fin 1))) + _ = _
    rw [c67_emb (ix2 (0 : Fin 1) (0 : Fin 1))]
  c68 := by
    unfold sout4_C kernelRun4_C; dsimp only; sl_unfold_words
    rw [← c68_emb (ix2 (0 : Fin 1) (0 : Fin 1))]
    refine (read_c68 scM4.view _ _ _ _ _ _ _ _ [] (ix2 (0 : Fin 1) (0 : Fin 1))).trans ?_
    simp only [View.readAt_eq_ld, Memref.IsWhole.read_unread, View.ld_unit_zero (S := S5000x64) hz2, View.ld_unit_zero (S := S5000x5) hz2]
    refine (pay21_apply _ _ _).trans ?_
    rw [pay14_apply x1]
    have hr : scM4.view.read (Elt Ideal) ((Memref.isWhole_whole cc4_scratch0).unread xs) = xs := (Memref.isWhole_whole cc4_scratch0).read_unread xs
    show View.ld (scM4.view.read (Elt Ideal) ((Memref.isWhole_whole cc4_scratch0).unread xs)) c68 (ix2 (0 : Fin 1) (0 : Fin 1)) + _ = _
    rw [hr]
    show xs (c68.emb (ix2 (0 : Fin 1) (0 : Fin 1))) + _ = _
    rw [c68_emb (ix2 (0 : Fin 1) (0 : Fin 1))]
  c69 := by
    unfold sout4_C kernelRun4_C; dsimp only; sl_unfold_words
    rw [← c69_emb (ix2 (0 : Fin 1) (0 : Fin 1))]
    refine (read_c69 scM4.view _ _ _ _ _ _ _ _ [] (ix2 (0 : Fin 1) (0 : Fin 1))).trans ?_
    simp only [View.readAt_eq_ld, Memref.IsWhole.read_unread, View.ld_unit_zero (S := S5000x64) hz2, View.ld_unit_zero (S := S5000x5) hz2]
    refine (pay22_apply _ _ _).trans ?_
    rw [pay15_apply x1]
    have hr : scM4.view.read (Elt Ideal) ((Memref.isWhole_whole cc4_scratch0).unread xs) = xs := (Memref.isWhole_whole cc4_scratch0).read_unread xs
    show View.ld (scM4.view.read (Elt Ideal) ((Memref.isWhole_whole cc4_scratch0).unread xs)) c69 (ix2 (0 : Fin 1) (0 : Fin 1)) + _ = _
    rw [hr]
    show xs (c69.emb (ix2 (0 : Fin 1) (0 : Fin 1))) + _ = _
    rw [c69_emb (ix2 (0 : Fin 1) (0 : Fin 1))]

end Cert.KernelIdeal.Hand

end
-- ==== Proof.KI.PoolAccA.lean ====
/-
  The first grid point of the pooling, at exact arithmetic: the scratch is filled with zeros, and each of the seven slices the
  body then reads is read before anything else is stored into it, so it reads 0; the 70 cells end at 0 plus the point's
  partial sums.
-/
import proofs.«101636_j2104533975212_1_alg».proof.Proof.KI.PoolAcc

-- membership in a rectangle of 5000 rows is decided by a structural recursion once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! Each slice load of the first point reads the zero-fill: the stores made before it miss its cell. -/

set_option maxHeartbeats 1000000 in
theorem A_v31 (c : Dev nD) (arg8 : Memref sig .tc .vmem S1x128 .f32) (y : S1x64.Idx) : kernelRun4_A.sl.v31 (F := Ideal) c arg8 y = 0 := by
  unfold kernelRun4_A.sl.v31 kernelRun4_A.sl.HS_1
  refine (View.readCov_at (Val := Elt Ideal) arg8.view [] cW (k4_pay7 (F := Ideal)) [] c0.toLoadRect y (c0.emb y) ?_ ?_).trans (pay7_apply _)
  · rw [cW_emb]; rfl
  · exact fun _ hp => absurd hp List.not_mem_nil

set_option maxHeartbeats 1000000 in
theorem A_v36 (c : Dev nD) (arg1 : Memref sig .tc .vmem S5000x64 .f32) (harg1 : arg1.IsWhole) (arg8 : Memref sig .tc .vmem S1x128 .f32) (x0 : Vec Ideal S5000x64 .f32) (y : S1x1.Idx) : kernelRun4_A.sl.v36 (F := Ideal) c arg1 harg1 arg8 x0 y = 0 := by
  unfold kernelRun4_A.sl.v36 kernelRun4_A.sl.HS_2 kernelRun4_A.sl.HS_1
  refine (View.readCov_at (Val := Elt Ideal) arg8.view [⟨c0, _⟩] cW (k4_pay7 (F := Ideal)) [] c64.toLoadRect y (c64.emb y) ?_ ?_).trans (pay7_apply _)
  · rw [cW_emb]; rfl
  · intro p hp
    simp only [List.mem_cons, List.mem_nil_iff, _root_.or_false] at hp
    rw [cW_emb]
    rcases hp with rfl
    · exact c64_miss0 y

set_option maxHeartbeats 1000000 in
theorem A_v41 (c : Dev nD) (arg1 : Memref sig .tc .vmem S5000x64 .f32) (harg1 : arg1.IsWhole) (arg2 : Memref sig .tc .vmem S5000x5 .f32) (harg2 : arg2.IsWhole) (arg8 : Memref sig .tc .vmem S1x128 .f32) (x0 : Vec Ideal S5000x64 .f32) (x1 : Vec Ideal S5000x5 .f32) (y : S1x1.Idx) : kernelRun4_A.sl.v41 (F := Ideal) c arg1 harg1 arg2 harg2 arg8 x0 x1 y = 0 := by
  unfold kernelRun4_A.sl.v41 kernelRun4_A.sl.HS_3 kernelRun4_A.sl.HS_2 kernelRun4_A.sl.HS_1
  refine (View.readCov_at (Val := Elt Ideal) arg8.view [⟨c64, _⟩, ⟨c0, _⟩] cW (k4_pay7 (F := Ideal)) [] c65.toLoadRect y (c65.emb y) ?_ ?_).trans (pay7_apply _)
  · rw [cW_emb]; rfl
  · intro p hp
    simp only [List.mem_cons, List.mem_nil_iff, _root_.or_false] at hp
    rw [cW_emb]
    rcases hp with rfl | rfl
    · exact c65_miss64 y
    · exact c65_miss0 y

set_option maxHeartbeats 1000000 in
theorem A_v46 (c : Dev nD) (arg1 : Memref sig .tc .vmem S5000x64 .f32) (harg1 : arg1.IsWhole) (arg2 : Memref sig .tc .vmem S5000x5 .f32) (harg2 : arg2.IsWhole) (arg8 : Memref sig .tc .vmem S1x128 .f32) (x0 : Vec Ideal S5000x64 .f32) (x1 : Vec Ideal S5000x5 .f32) (y : S1x1.Idx) : kernelRun4_A.sl.v46 (F := Ideal) c arg1 harg1 arg2 harg2 arg8 x0 x1 y = 0 := by
  unfold kernelRun4_A.sl.v46 kernelRun4_A.sl.HS_4 kernelRun4_A.sl.HS_3 kernelRun4_A.sl.HS_2 kernelRun4_A.sl.HS_1
  refine (View.readCov_at (Val := Elt Ideal) arg8.view [⟨c65, _⟩, ⟨c64, _⟩, ⟨c0, _⟩] cW (k4_pay7 (F := Ideal)) [] c66.toLoadRect y (c66.emb y) ?_ ?_).trans (pay7_apply _)
  · rw [cW_emb]; rfl
  · intro p hp
    simp only [List.mem_cons, List.mem_nil_iff, _root_.or_false] at hp
    rw [cW_emb]
    rcases hp with rfl | rfl | rfl
    · exact c66_miss65 y
    · exact c66_miss64 y
    · exact c66_miss0 y

set_option maxHeartbeats 1000000 in
theorem A_v51 (c : Dev nD) (arg1 : Memref sig .tc .vmem S5000x64 .f32) (harg1 : arg1.IsWhole) (arg2 : Memref sig .tc .vmem S5000x5 .f32) (harg2 : arg2.IsWhole) (arg8 : Memref sig .tc .vmem S1x128 .f32) (x0 : Vec Ideal S5000x64 .f32) (x1 : Vec Ideal S5000x5 .f32) (y : S1x1.Idx) : kernelRun4_A.sl.v51 (F := Ideal) c arg1 harg1 arg2 harg2 arg8 x0 x1 y = 0 := by
  unfold kernelRun4_A.sl.v51 kernelRun4_A.sl.HS_5 kernelRun4_A.sl.HS_4 kernelRun4_A.sl.HS_3 kernelRun4_A.sl.HS_2 kernelRun4_A.sl.HS_1
  refine (View.readCov_at (Val := Elt Ideal) arg8.view [⟨c66, _⟩, ⟨c65, _⟩, ⟨c64, _⟩, ⟨c0, _⟩] cW (k4_pay7 (F := Ideal)) [] c67.toLoadRect y (c67.emb y) ?_ ?_).trans (pay7_apply _)
  · rw [cW_emb]; rfl
  · intro p hp
    simp only [List.mem_cons, List.mem_nil_iff, _root_.or_false] at hp
    rw [cW_emb]
    rcases hp with rfl | rfl | rfl | rfl
    · exact c67_miss66 y
    · exact c67_miss65 y
    · exact c67_miss64 y
    · exact c67_miss0 y

set_option maxHeartbeats 1000000 in
theorem A_v56 (c : Dev nD) (arg1 : Memref sig .tc .vmem S5000x64 .f32) (harg1 : arg1.IsWhole) (arg2 : Memref sig .tc .vmem S5000x5 .f32) (harg2 : arg2.IsWhole) (arg8 : Memref sig .tc .vmem S1x128 .f32) (x0 : Vec Ideal S5000x64 .f32) (x1 : Vec Ideal S5000x5 .f32) (y : S1x1.Idx) : kernelRun4_A.sl.v56 (F := Ideal) c arg1 harg1 arg2 harg2 arg8 x0 x1 y = 0 := by
  unfold kernelRun4_A.sl.v56 kernelRun4_A.sl.HS_6 kernelRun4_A.sl.HS_5 kernelRun4_A.sl.HS_4 kernelRun4_A.sl.HS_3 kernelRun4_A.sl.HS_2 kernelRun4_A.sl.HS_1
  refine (View.readCov_at (Val := Elt Ideal) arg8.view [⟨c67, _⟩, ⟨c66, _⟩, ⟨c65, _⟩, ⟨c64, _⟩, ⟨c0, _⟩] cW (k4_pay7 (F := Ideal)) [] c68.toLoadRect y (c68.emb y) ?_ ?_).trans (pay7_apply _)
  · rw [cW_emb]; rfl
  · intro p hp
    simp only [List.mem_cons, List.mem_nil_iff, _root_.or_false] at hp
    rw [cW_emb]
    rcases hp with rfl | rfl | rfl | rfl | rfl
    · exact c68_miss67 y
    · exact c68_miss66 y
    · exact c68_miss65 y
    · exact c68_miss64 y
    · exact c68_miss0 y

set_option maxHeartbeats 1000000 in
theorem A_v61 (c : Dev nD) (arg1 : Memref sig .tc .vmem S5000x64 .f32) (harg1 : arg1.IsWhole) (arg2 : Memref sig .tc .vmem S5000x5 .f32) (harg2 : arg2.IsWhole) (arg8 : Memref sig .tc .vmem S1x128 .f32) (x0 : Vec Ideal S5000x64 .f32) (x1 : Vec Ideal S5000x5 .f32) (y : S1x1.Idx) : kernelRun4_A.sl.v61 (F := Ideal) c arg1 harg1 arg2 harg2 arg8 x0 x1 y = 0 := by
  unfold kernelRun4_A.sl.v61 kernelRun4_A.sl.HS_7 kernelRun4_A.sl.HS_6 kernelRun4_A.sl.HS_5 kernelRun4_A.sl.HS_4 kernelRun4_A.sl.HS_3 kernelRun4_A.sl.HS_2 kernelRun4_A.sl.HS_1
  refine (View.readCov_at (Val := Elt Ideal) arg8.view [⟨c68, _⟩, ⟨c67, _⟩, ⟨c66, _⟩, ⟨c65, _⟩, ⟨c64, _⟩, ⟨c0, _⟩] cW (k4_pay7 (F := Ideal)) [] c69.toLoadRect y (c69.emb y) ?_ ?_).trans (pay7_apply _)
  · rw [cW_emb]; rfl
  · intro p hp
    simp only [List.mem_cons, List.mem_nil_iff, _root_.or_false] at hp
    rw [cW_emb]
    rcases hp with rfl | rfl | rfl | rfl | rfl | rfl
    · exact c69_miss68 y
    · exact c69_miss67 y
    · exact c69_miss66 y
    · exact c69_miss65 y
    · exact c69_miss64 y
    · exact c69_miss0 y

set_option maxHeartbeats 2000000 in
/-- The first point's step, over the zero-fill. -/
theorem stepA (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (arg8 : Memref sig .tc .vmem S1x128 .f32) (harg8 : arg8.IsWhole) (hc0 : cond4_0 i) (hc1 : ¬cond4_1 i)
    (x0 : Vec Ideal S5000x64 .f32) (x1 : Vec Ideal S5000x5 .f32) (x2 : Vec Ideal S70x32 .f32) (x3 : Vec Ideal S32 .f32) (x4 : Vec Ideal S32x2 .f32) (x5 : Vec Ideal S2 .f32) :
    StepCells (sout4_A (F := Ideal) c i arg1 harg1 arg2 harg2 arg3 harg3 arg4 harg4 arg5 harg5 arg6 harg6 arg7 harg7 arg8 harg8 hc0 hc1 x0 x1 x2 x3 x4 x5) (fun _ => 0) x0 x1 where
  h k := by
    unfold sout4_A kernelRun4_A; dsimp only; unfold kernelRun4_A.sl.HS_7 kernelRun4_A.sl.HS_6 kernelRun4_A.sl.HS_5 kernelRun4_A.sl.HS_4 kernelRun4_A.sl.HS_3 kernelRun4_A.sl.HS_2 kernelRun4_A.sl.HS_1
    rw [← c0_emb k]
    refine (read_c0 scM4.view _ _ _ _ _ _ _ _ _ (ix2 (0 : Fin 1) k)).trans ?_
    simp only [View.readAt_eq_ld, Memref.IsWhole.read_unread, View.ld_unit_zero (S := S5000x64) hz2, View.ld_unit_zero (S := S5000x5) hz2]
    refine (pay16_apply x0 _ k).trans ?_
    rw [A_v31]
  c64 := by
    unfold sout4_A kernelRun4_A; dsimp only; unfold kernelRun4_A.sl.HS_7 kernelRun4_A.sl.HS_6 kernelRun4_A.sl.HS_5 kernelRun4_A.sl.HS_4 kernelRun4_A.sl.HS_3 kernelRun4_A.sl.HS_2 kernelRun4_A.sl.HS_1
    rw [← c64_emb (ix2 (0 : Fin 1) (0 : Fin 1))]
    refine (read_c64 scM4.view _ _ _ _ _ _ _ _ _ (ix2 (0 : Fin 1) (0 : Fin 1))).trans ?_
    refine (pay17_apply _ _ _).trans ?_
    rw [A_v36]
    unfold kernelRun4_A.sl.r
    simp only [View.readAt_eq_ld, Memref.IsWhole.read_unread, View.ld_unit_zero (S := S5000x64) hz2, View.ld_unit_zero (S := S5000x5) hz2]
    rw [pay9_apply x1]
  c65 := by
    unfold sout4_A kernelRun4_A; dsimp only; unfold kernelRun4_A.sl.HS_7 kernelRun4_A.sl.HS_6 kernelRun4_A.sl.HS_5 kernelRun4_A.sl.HS_4 kernelRun4_A.sl.HS_3 kernelRun4_A.sl.HS_2 kernelRun4_A.sl.HS_1
    rw [← c65_emb (ix2 (0 : Fin 1) (0 : Fin 1))]
    refine (read_c65 scM4.view _ _ _ _ _ _ _ _ _ (ix2 (0 : Fin 1) (0 : Fin 1))).trans ?_
    refine (pay18_apply _ _ _).trans ?_
    rw [A_v41]
    unfold kernelRun4_A.sl.r_1
    simp only [View.readAt_eq_ld, Memref.IsWhole.read_unread, View.ld_unit_zero (S := S5000x64) hz2, View.ld_unit_zero (S := S5000x5) hz2]
    rw [pay10_apply x1]
  c66 := by
    unfold sout4_A kernelRun4_A; dsimp only; unfold kernelRun4_A.sl.HS_7 kernelRun4_A.sl.HS_6 kernelRun4_A.sl.HS_5 kernelRun4_A.sl.HS_4 kernelRun4_A.sl.HS_3 kernelRun4_A.sl.HS_2 kernelRun4_A.sl.HS_1
    rw [← c66_emb (ix2 (0 : Fin 1) (0 : Fin 1))]
    refine (read_c66 scM4.view _ _ _ _ _ _ _ _ _ (ix2 (0 : Fin 1) (0 : Fin 1))).trans ?_
    refine (pay19_apply _ _ _).trans ?_
    rw [A_v46]
    unfold kernelRun4_A.sl.r_2
    simp only [View.readAt_eq_ld, Memref.IsWhole.read_unread, View.ld_unit_zero (S := S5000x64) hz2, View.ld_unit_zero (S := S5000x5) hz2]
    rw [pay11_apply x1]
  c67 := by
    unfold sout4_A kernelRun4_A; dsimp only; unfold kernelRun4_A.sl.HS_7 kernelRun4_A.sl.HS_6 kernelRun4_A.sl.HS_5 kernelRun4_A.sl.HS_4 kernelRun4_A.sl.HS_3 kernelRun4_A.sl.HS_2 kernelRun4_A.sl.HS_1
    rw [← c67_emb (ix2 (0 : Fin 1) (0 : Fin 1))]
    refine (read_c67 scM4.view _ _ _ _ _ _ _ _ _ (ix2 (0 : Fin 1) (0 : Fin 1))).trans ?_
    refine (pay20_apply _ _ _).trans ?_
    rw [A_v51]
    unfold kernelRun4_A.sl.r_3
    simp only [View.readAt_eq_ld, Memref.IsWhole.read_unread, View.ld_unit_zero (S := S5000x64) hz2, View.ld_unit_zero (S := S5000x5) hz2]
    rw [pay13_apply x1]
  c68 := by
    unfold sout4_A kernelRun4_A; dsimp only; unfold kernelRun4_A.sl.HS_7 kernelRun4_A.sl.HS_6 kernelRun4_A.sl.HS_5 kernelRun4_A.sl.HS_4 kernelRun4_A.sl.HS_3 kernelRun4_A.sl.HS_2 kernelRun4_A.sl.HS_1
    rw [← c68_emb (ix2 (0 : Fin 1) (0 : Fin 1))]
    refine (read_c68 scM4.view _ _ _ _ _ _ _ _ _ (ix2 (0 : Fin 1) (0 : Fin 1))).trans ?_
    refine (pay21_apply _ _ _).trans ?_
    rw [A_v56]
    unfold kernelRun4_A.sl.r_4
    simp only [View.readAt_eq_ld, Memref.IsWhole.read_unread, View.ld_unit_zero (S := S5000x64) hz2, View.ld_unit_zero (S := S5000x5) hz2]
    rw [pay14_apply x1]
  c69 := by
    unfold sout4_A kernelRun4_A; dsimp only; unfold kernelRun4_A.sl.HS_7 kernelRun4_A.sl.HS_6 kernelRun4_A.sl.HS_5 kernelRun4_A.sl.HS_4 kernelRun4_A.sl.HS_3 kernelRun4_A.sl.HS_2 kernelRun4_A.sl.HS_1
    rw [← c69_emb (ix2 (0 : Fin 1) (0 : Fin 1))]
    refine (read_c69 scM4.view _ _ _ _ _ _ _ _ _ (ix2 (0 : Fin 1) (0 : Fin 1))).trans ?_
    refine (pay22_apply _ _ _).trans ?_
    rw [A_v61]
    unfold kernelRun4_A.sl.r_5
    simp only [View.readAt_eq_ld, Memref.IsWhole.read_unread, View.ld_unit_zero (S := S5000x64) hz2, View.ld_unit_zero (S := S5000x5) hz2]
    rw [pay15_apply x1]

end Cert.KernelIdeal.Hand

end
-- ==== Proof.LibTileSums.lean ====
/-
  Finite sums over consecutive naturals, regrouped.

  A sum over the first `n * b` naturals can be taken in `n` consecutive blocks of `b` terms each, block `k`
  holding the naturals `b * k, …, b * k + (b - 1)`; and a sum over the first `b + b` naturals is the sum over
  its lower half plus the sum over its upper half. Both hold in any commutative additive monoid, since there a
  finite sum depends neither on the order nor on the grouping of its terms. The summand is a function of the
  natural number itself, so the statements say nothing about how the index types are spelt.
-/
import Mathlib.Algebra.BigOperators.Fin
import Mathlib.Data.Fintype.BigOperators

namespace LibTileSums

open Finset

variable {M : Type*} [AddCommMonoid M]

/-- The sum of `g` over the naturals below `n * b` is the sum, over the `n` blocks `k`, of the sum of `g`
    over the `b` naturals `b * k + j` (`j < b`) of block `k`: by induction on the number of blocks, the last
    block being split off by `Finset.sum_range_add`. -/
theorem sum_range_tiles (n b : ℕ) (g : ℕ → M) :
    ∑ i ∈ range (n * b), g i = ∑ k ∈ range n, ∑ j ∈ range b, g (b * k + j) := by
  induction n with
  | zero => simp
  | succ n ih => rw [Nat.succ_mul, sum_range_add, ih, sum_range_succ, Nat.mul_comm n b]

/-- A sum over `N = n * b` consecutive naturals, written over `Fin N`, taken in `n` blocks of `b`: the block
    index `k` runs over `range n` and the position `j` inside a block over `Fin b`, the term being `g` at the
    natural `b * k + j`. -/
theorem sum_tiles (n b N : ℕ) (hN : N = n * b) (g : ℕ → M) :
    ∑ c : Fin N, g c.val = ∑ k ∈ Finset.range n, ∑ j : Fin b, g (b * k + j.val) := by
  subst hN
  rw [Fin.sum_univ_eq_sum_range g (n * b), sum_range_tiles]
  exact sum_congr rfl fun k _ => (Fin.sum_univ_eq_sum_range (fun j => g (b * k + j)) b).symm

/-- A sum over `b + b` consecutive naturals, written over `Fin (b + b)`, is the sum over the lower half (the
    naturals `d`, `d < b`) plus the sum over the upper half (the naturals `b + d`, `d < b`). -/
theorem sum_halves (b : ℕ) (g : ℕ → M) :
    ∑ j : Fin (b + b), g j.val = ∑ d : Fin b, g d.val + ∑ d : Fin b, g (b + d.val) := by
  rw [Fin.sum_univ_add]
  simp only [Fin.val_castAdd, Fin.val_natAdd]

end LibTileSums
-- ==== Proof.KI.PoolValue.lean ====
/-
  The pooling's value, at exact arithmetic. By induction over the 20 grid points, after point n each of the scratch's 70 cells
  holds the sum of its partial sums over points 0 … n; a point's blocks are rows 5000·t … 5000·t + 4999 of the two arrays,
  so after the last point the cells hold the sums over all 100000 rows (a sum over 20·5000 consecutive rows taken in 20
  blocks of 5000). The last point alone writes the [1,2] result back, and what it writes is the head applied to that
  scratch and the four weight arrays, which are staged whole.
-/
import proofs.«101636_j2104533975212_1_alg».proof.Proof.KI.PoolAccA
import proofs.«101636_j2104533975212_1_alg».proof.Proof.LibTileSums

-- membership in a rectangle of 5000 rows is decided by a structural recursion once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-- The scratch after point `n`. -/
abbrev scrAt (c : Dev nD) (n : ℕ) (hn : n < cfg4.N) : Vec Ideal S1x128 .f32 := (outsAt4 (F := Ideal) V c n hn).2

theorem step_zero (c : Dev nD) (h0 : 0 < cfg4.N) :
    StepCells (scrAt V c 0 h0) (fun _ => 0) (iblk4 V c 0 ⟨0, h0⟩) (iblk4 V c 1 ⟨0, h0⟩) := by
  have hc0 : cond4_0 (grid4.coords ⟨0, h0⟩) := (hcond4_0 ⟨0, h0⟩).mpr rfl
  have hc1 : ¬cond4_1 (grid4.coords ⟨0, h0⟩) := fun h => absurd ((hcond4_1 ⟨0, h0⟩).mp h) (show ¬ (0 : ℕ) = 19 by decide)
  unfold scrAt
  rw [show outsAt4 (F := Ideal) V c 0 h0 = _ from outsAt4_A V c ⟨0, h0⟩ rfl hc0 hc1]
  exact stepA c (grid4.coords ⟨0, h0⟩) (ms4_0 ⟨0, h0⟩) (hs4_0 ⟨0, h0⟩) (ms4_1 ⟨0, h0⟩) (hs4_1 ⟨0, h0⟩) (ms4_2 ⟨0, h0⟩) (hs4_2 ⟨0, h0⟩) (ms4_3 ⟨0, h0⟩) (hs4_3 ⟨0, h0⟩) (ms4_4 ⟨0, h0⟩) (hs4_4 ⟨0, h0⟩) (ms4_5 ⟨0, h0⟩) (hs4_5 ⟨0, h0⟩) (ms4_6 ⟨0, h0⟩) (hs4_6 ⟨0, h0⟩) scM4 (Memref.isWhole_whole cc4_scratch0) hc0 hc1 (iblk4 V c 0 ⟨0, h0⟩) (iblk4 V c 1 ⟨0, h0⟩) (iblk4 V c 2 ⟨0, h0⟩) (iblk4 V c 3 ⟨0, h0⟩) (iblk4 V c 4 ⟨0, h0⟩) (iblk4 V c 5 ⟨0, h0⟩)

theorem step_succ (c : Dev nD) (n : ℕ) (hn : n + 1 < cfg4.N) :
    StepCells (scrAt V c (n + 1) hn) (scrAt V c n (Nat.lt_of_succ_lt hn)) (iblk4 V c 0 ⟨n + 1, hn⟩) (iblk4 V c 1 ⟨n + 1, hn⟩) := by
  have hc0 : ¬cond4_0 (grid4.coords ⟨n + 1, hn⟩) := fun h => absurd ((hcond4_0 ⟨n + 1, hn⟩).mp h) (Nat.succ_ne_zero n)
  unfold scrAt
  by_cases h1 : n + 1 = 19
  · have hc1 : cond4_1 (grid4.coords ⟨n + 1, hn⟩) := (hcond4_1 ⟨n + 1, hn⟩).mpr h1
    rw [show outsAt4 (F := Ideal) V c (n + 1) hn = _ from outsAt4_C V c ⟨n + 1, hn⟩ (Nat.succ_ne_zero n) h1 hc0 hc1]
    exact stepC c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) hc0 hc1 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) _
  · have hc1 : ¬cond4_1 (grid4.coords ⟨n + 1, hn⟩) := fun h => h1 ((hcond4_1 ⟨n + 1, hn⟩).mp h)
    rw [show outsAt4 (F := Ideal) V c (n + 1) hn = _ from outsAt4_B V c ⟨n + 1, hn⟩ (Nat.succ_ne_zero n) h1 hc0 hc1]
    exact stepB c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) hc0 hc1 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) _

/-- A cell that starts at `0 + P 0` and gains `P (n+1)` at point `n + 1` holds `∑ t ≤ n, P t` after point `n`. -/
theorem cell_sum (S : (n : ℕ) → n < cfg4.N → EReal) (P : ℕ → EReal) (h0 : ∀ h, S 0 h = 0 + P 0)
    (hs : ∀ n (hn : n + 1 < cfg4.N), S (n + 1) hn = S n (Nat.lt_of_succ_lt hn) + P (n + 1)) :
    ∀ (n : ℕ) (hn : n < cfg4.N), S n hn = ∑ t ∈ Finset.range (n + 1), P t
  | 0, hn => by rw [h0, zero_add, Finset.sum_range_one]
  | n + 1, hn => by rw [hs n hn, cell_sum S P h0 hs n (Nat.lt_of_succ_lt hn), Finset.sum_range_succ _ (n + 1)]

/-- The blocks' partial sums as functions of the point's number (0 past the grid). -/
def blkH (c : Dev nD) (k : Fin 64) (t : ℕ) : EReal := if h : t < cfg4.N then pH (iblk4 V c 0 ⟨t, h⟩) k else 0
def blkX (c : Dev nD) (P : Vec Ideal S5000x5 .f32 → EReal) (t : ℕ) : EReal := if h : t < cfg4.N then P (iblk4 V c 1 ⟨t, h⟩) else 0

theorem scr_h (c : Dev nD) (k : Fin 64) (n : ℕ) (hn : n < cfg4.N) :
    scrAt V c n hn (ix2 (0 : Fin 1) (⟨k.val, by omega⟩ : Fin 128)) = ∑ t ∈ Finset.range (n + 1), blkH V c k t :=
  cell_sum (fun n hn => scrAt V c n hn (ix2 (0 : Fin 1) (⟨k.val, by omega⟩ : Fin 128))) (blkH V c k)
    (fun h => by rw [(step_zero V c h).h k]; unfold blkH; rw [dif_pos h])
    (fun n hn => by rw [(step_succ V c n hn).h k]; unfold blkH; rw [dif_pos hn]) n hn

theorem scr_x (c : Dev nD) (j : Fin 128) (P : Vec Ideal S5000x5 .f32 → EReal)
    (hA : ∀ (S' S : Vec Ideal S1x128 .f32) x0 x1, StepCells S' S x0 x1 → S' (ix2 (0 : Fin 1) j) = S (ix2 (0 : Fin 1) j) + P x1)
    (n : ℕ) (hn : n < cfg4.N) :
    scrAt V c n hn (ix2 (0 : Fin 1) j) = ∑ t ∈ Finset.range (n + 1), blkX V c P t :=
  cell_sum (fun n hn => scrAt V c n hn (ix2 (0 : Fin 1) j)) (blkX V c P)
    (fun h => by rw [hA _ _ _ _ (step_zero V c h)]; unfold blkX; rw [dif_pos h])
    (fun n hn => by rw [hA _ _ _ _ (step_succ V c n hn)]; unfold blkX; rw [dif_pos hn]) n hn

/-! ## A point's blocks are rows of the arrays -/

theorem idx4_facts : ∀ t : Fin cfg4.N, win4_0.index t 0 = t.val ∧ win4_0.index t 1 = 0 ∧ win4_1.index t 0 = t.val ∧ win4_1.index t 1 = 0 :=
  (by decide +kernel : ∀ t : Fin grid4.N, win4_0.index t 0 = t.val ∧ win4_0.index t 1 = 0 ∧ win4_1.index t 0 = t.val ∧ win4_1.index t 1 = 0)

/-- Row `r` of the second layer's staged block at point `t` is row `5000·t + r` of the array. -/
theorem iblk4_0_apply (c : Dev nD) (t : Fin cfg4.N) (r : Fin 5000) (k : Fin 64) (i : Fin 100000) (hi : i.val = 5000 * t.val + r.val) :
    (iblk4 V c 0 t : Vec Ideal S5000x64 .f32) (ix2 r k) = (V c main_v61 : Vec Ideal S100000x64 .f32) (ix2 i k) := by
  unfold iblk4
  rw [View.read_apply]
  show V c main_v61 _ = V c main_v61 _
  refine congrArg (V c main_v61) (funext fun a => Fin.ext ?_)
  have hf := idx4_facts t
  match a with
  | ⟨0, _⟩ => show win4_0.index t 0 * 5000 + 1 * r.val = i.val; rw [hf.1, hi]; omega
  | ⟨1, _⟩ => show win4_0.index t 1 * 64 + 1 * k.val = k.val; rw [hf.2.1]; omega

/-- The same for the staged rows of x. -/
theorem iblk4_1_apply (c : Dev nD) (t : Fin cfg4.N) (r : Fin 5000) (j : Fin 5) (i : Fin 100000) (hi : i.val = 5000 * t.val + r.val) :
    (iblk4 V c 1 t : Vec Ideal S5000x5 .f32) (ix2 r j) = (V c main_arg0 : Vec Ideal S100000x5 .f32) (ix2 i j) := by
  unfold iblk4
  rw [View.read_apply]
  show V c main_arg0 _ = V c main_arg0 _
  refine congrArg (V c main_arg0) (funext fun a => Fin.ext ?_)
  have hf := idx4_facts t
  match a with
  | ⟨0, _⟩ => show win4_1.index t 0 * 5000 + 1 * r.val = i.val; rw [hf.2.2.1, hi]; omega
  | ⟨1, _⟩ => show win4_1.index t 1 * 5 + 1 * j.val = j.val; rw [hf.2.2.2]; omega

/-! ## The 70 sums over all rows -/

/-- 20 blocks of 5000 consecutive rows are the 100000 rows. -/
theorem tiles_eq (G : Fin 100000 → EReal) (B : ℕ → EReal)
    (hB : ∀ t (ht : t < 20), B t = ∑ r : Fin 5000, G ⟨5000 * t + r.val, by have := r.isLt; omega⟩) :
    ∑ t ∈ Finset.range 20, B t = ∑ i : Fin 100000, G i := by
  have h1 : ∑ i : Fin 100000, G i = ∑ i : Fin 100000, (fun n : ℕ => if h : n < 100000 then G ⟨n, h⟩ else 0) i.val :=
    Finset.sum_congr rfl fun i _ => by simp only [dif_pos i.isLt]
  rw [h1, LibTileSums.sum_tiles 20 5000 100000 (by norm_num) (fun n : ℕ => if h : n < 100000 then G ⟨n, h⟩ else 0)]
  refine Finset.sum_congr rfl fun t ht => ?_
  have ht' : t < 20 := Finset.mem_range.mp ht
  rw [hB t ht']
  refine Finset.sum_congr rfl fun r _ => ?_
  have hlt : 5000 * t + r.val < 100000 := by have := r.isLt; omega
  simp only [dif_pos hlt]

theorem lt_N4 {t : ℕ} (ht : t < 20) : t < cfg4.N := by rw [show cfg4.N = 20 from N_4]; exact ht

/-- After the last point the scratch holds the 70 sums over all 100000 rows of the second layer's output and of x. -/
theorem poolSums (c : Dev nD) :
    PoolSums (scrAt V c 19 (lt_N4 (by decide))) (V c main_v61 : Vec Ideal S100000x64 .f32) (V c main_arg0 : Vec Ideal S100000x5 .f32) where
  h k := by
    rw [scr_h V c k 19 (lt_N4 (by decide))]
    refine tiles_eq (fun i => (V c main_v61 : Vec Ideal S100000x64 .f32) (ix2 i k)) (blkH V c k) fun t ht => ?_
    unfold blkH; rw [dif_pos (lt_N4 ht)]; unfold pH
    exact Finset.sum_congr rfl fun r _ => iblk4_0_apply V c ⟨t, lt_N4 ht⟩ r k _ rfl
  nc := by
    rw [scr_x V c (64 : Fin 128) (fun xb => pX xb (2 : Fin 5)) (fun _ _ _ _ h => h.c64) 19 (lt_N4 (by decide))]
    refine tiles_eq (fun i => (V c main_arg0 : Vec Ideal S100000x5 .f32) (ix2 i (2 : Fin 5))) _ fun t ht => ?_
    unfold blkX; rw [dif_pos (lt_N4 ht)]; unfold pX
    exact Finset.sum_congr rfl fun r _ => iblk4_1_apply V c ⟨t, lt_N4 ht⟩ r _ _ rfl
  na := by
    rw [scr_x V c (65 : Fin 128) (fun xb => pX xb (3 : Fin 5)) (fun _ _ _ _ h => h.c65) 19 (lt_N4 (by decide))]
    refine tiles_eq (fun i => (V c main_arg0 : Vec Ideal S100000x5 .f32) (ix2 i (3 : Fin 5))) _ fun t ht => ?_
    unfold blkX; rw [dif_pos (lt_N4 ht)]; unfold pX
    exact Finset.sum_congr rfl fun r _ => iblk4_1_apply V c ⟨t, lt_N4 ht⟩ r _ _ rfl
  no := by
    rw [scr_x V c (66 : Fin 128) (fun xb => pX xb (4 : Fin 5)) (fun _ _ _ _ h => h.c66) 19 (lt_N4 (by decide))]
    refine tiles_eq (fun i => (V c main_arg0 : Vec Ideal S100000x5 .f32) (ix2 i (4 : Fin 5))) _ fun t ht => ?_
    unfold blkX; rw [dif_pos (lt_N4 ht)]; unfold pX
    exact Finset.sum_congr rfl fun r _ => iblk4_1_apply V c ⟨t, lt_N4 ht⟩ r _ _ rfl
  sl := by
    rw [scr_x V c (67 : Fin 128) (fun xb => pXm xb (0 : Fin 5)) (fun _ _ _ _ h => h.c67) 19 (lt_N4 (by decide))]
    refine tiles_eq _ _ fun t ht => ?_
    unfold blkX; rw [dif_pos (lt_N4 ht)]; unfold pXm
    exact Finset.sum_congr rfl fun r _ => by
      rw [iblk4_1_apply V c ⟨t, lt_N4 ht⟩ r (0 : Fin 5) ⟨5000 * t + r.val, by have := r.isLt; omega⟩ rfl, iblk4_1_apply V c ⟨t, lt_N4 ht⟩ r (2 : Fin 5) ⟨5000 * t + r.val, by have := r.isLt; omega⟩ rfl]
  sm := by
    rw [scr_x V c (68 : Fin 128) (fun xb => pXm xb (1 : Fin 5)) (fun _ _ _ _ h => h.c68) 19 (lt_N4 (by decide))]
    refine tiles_eq _ _ fun t ht => ?_
    unfold blkX; rw [dif_pos (lt_N4 ht)]; unfold pXm
    exact Finset.sum_congr rfl fun r _ => by
      rw [iblk4_1_apply V c ⟨t, lt_N4 ht⟩ r (1 : Fin 5) ⟨5000 * t + r.val, by have := r.isLt; omega⟩ rfl, iblk4_1_apply V c ⟨t, lt_N4 ht⟩ r (2 : Fin 5) ⟨5000 * t + r.val, by have := r.isLt; omega⟩ rfl]
  cnt := by
    rw [scr_x V c (69 : Fin 128) (fun xb => pCnt xb) (fun _ _ _ _ h => h.c69) 19 (lt_N4 (by decide))]
    refine tiles_eq (fun i => msk ((V c main_arg0 : Vec Ideal S100000x5 .f32) (ix2 i (2 : Fin 5)))) _ fun t ht => ?_
    unfold blkX; rw [dif_pos (lt_N4 ht)]; unfold pCnt
    exact Finset.sum_congr rfl fun r _ => by rw [iblk4_1_apply V c ⟨t, lt_N4 ht⟩ r (2 : Fin 5) ⟨5000 * t + r.val, by have := r.isLt; omega⟩ rfl]

end Cert.KernelIdeal.Hand

end
-- ==== Proof.KI.PoolFinal.lean ====
/-
  Region 4's result. At the last grid point the body stores the head — one product of the pooled sums with the first weight
  array, a bias, a clamp at zero, a second product and bias — of the scratch buffer as that point's own seven slice stores
  leave it and of the four weight arrays, which are staged whole; that point alone writes the [1,2] result back, and its block
  is the whole array. So the result array ends holding the head of the final scratch contents and the weight arrays as
  the region found them.
-/
import proofs.«101636_j2104533975212_1_alg».proof.Proof.KI.Region4
import proofs.«101636_j2104533975212_1_alg».proof.Proof.KI.PoolSpec
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-! ## Zero offsets, however spelt -/

private theorem hz2 : (![0, 0] : Fin 2 → Nat) = fun _ => 0 := funext fun a => by fin_cases a <;> rfl
private theorem hz1 : (![0] : Fin 1 → Nat) = fun _ => 0 := funext fun a => by fin_cases a; rfl

/-! ## The last point's store -/

/-- What the last point leaves in the result's staging buffer is the head of what it leaves in the scratch: its one store
    covers the buffer, and the store's payload loads the four weight arrays whole and the scratch whole AFTER the point's
    seven slice stores — the very list of stores the scratch's final contents are read back from. -/
theorem out4_C_eq (c : Dev nD) (i : grid4.Coords) (arg1 : Memref sig .tc .vmem S5000x64 .f32) (harg1 : arg1.IsWhole) (arg2 : Memref sig .tc .vmem S5000x5 .f32) (harg2 : arg2.IsWhole) (arg3 : Memref sig .tc .vmem S70x32 .f32) (harg3 : arg3.IsWhole) (arg4 : Memref sig .tc .vmem S32 .f32) (harg4 : arg4.IsWhole) (arg5 : Memref sig .tc .vmem S32x2 .f32) (harg5 : arg5.IsWhole) (arg6 : Memref sig .tc .vmem S2 .f32) (harg6 : arg6.IsWhole) (arg7 : Memref sig .tc .vmem S1x2 .f32) (harg7 : arg7.IsWhole) (hc0 : ¬cond4_0 i) (hc1 : cond4_1 i)
    (x0 : Vec Ideal S5000x64 .f32) (x1 : Vec Ideal S5000x5 .f32) (x2 : Vec Ideal S70x32 .f32) (x3 : Vec Ideal S32 .f32) (x4 : Vec Ideal S32x2 .f32) (x5 : Vec Ideal S2 .f32) (xs : Vec Ideal S1x128 .f32) :
    out4_C (F := Ideal) c i arg1 harg1 arg2 harg2 arg3 harg3 arg4 harg4 arg5 harg5 arg6 harg6 arg7 harg7 hc0 hc1 x0 x1 x2 x3 x4 x5 xs
      = headOf (sout4_C (F := Ideal) c i arg1 harg1 arg2 harg2 arg3 harg3 arg4 harg4 arg5 harg5 arg6 harg6 arg7 harg7 hc0 hc1 x0 x1 x2 x3 x4 x5 xs) x2 x3 x4 x5 := by
  unfold out4_C headOf sout4_C
  rw [View.read_writes_eq_canon _ _ _ (cover4_C_6 c i arg1 harg1 arg2 harg2 arg3 harg3 arg4 harg4 arg5 harg5 arg6 harg6 arg7 harg7 hc0 hc1 x0 x1 x2 x3 x4 x5 xs)]
  unfold kernelRun4_C
  dsimp only
  sl_unfold_words
  rw [View.canon_unit_zero (S := S1x2) hz2]
  simp only [View.readAt_eq_ld, harg3.read_unread, harg4.read_unread, harg5.read_unread, harg6.read_unread,
    View.ld_unit_zero (S := S70x32) hz2, View.ld_unit_zero (S := S32) hz1, View.ld_unit_zero (S := S32x2) hz2,
    View.ld_unit_zero (S := S2) hz1, View.ld_unit_zero (S := S1x128) hz2]

/-! ## The weight windows' blocks

Each of the four weight arrays is one block: the block index is zero on every axis at every point, and the block at zero
offsets with the array's own sizes reads the array. -/

private theorem idx4_2 : ∀ t : Fin cfg4.N, ∀ a, win4_2.index t a = 0 := by decide +kernel

/-- Window 2's block at every point is the whole of its array. -/
theorem iblk4_whole2 (c : Dev nD) (t : Fin cfg4.N) : (iblk4 V c 2 t : Vec Ideal S70x32 .f32) = V c main_arg6 := by
  unfold iblk4
  have hz' : (fun a => win4_2.index t a * main_arg6.ty.shape.size a) = fun _ => 0 :=
    funext fun a => by rw [idx4_2 t a, Nat.zero_mul]
  exact Memref.read_access_unit_zero (Elt Ideal) main_arg6 hz' (fun a => by rw [congrFun hz' a]; simp) (V c main_arg6)

private theorem idx4_3 : ∀ t : Fin cfg4.N, ∀ a, win4_3.index t a = 0 := by decide +kernel

/-- Window 3's block at every point is the whole of its array. -/
theorem iblk4_whole3 (c : Dev nD) (t : Fin cfg4.N) : (iblk4 V c 3 t : Vec Ideal S32 .f32) = V c main_arg7 := by
  unfold iblk4
  have hz' : (fun a => win4_3.index t a * main_arg7.ty.shape.size a) = fun _ => 0 :=
    funext fun a => by rw [idx4_3 t a, Nat.zero_mul]
  exact Memref.read_access_unit_zero (Elt Ideal) main_arg7 hz' (fun a => by rw [congrFun hz' a]; simp) (V c main_arg7)

private theorem idx4_4 : ∀ t : Fin cfg4.N, ∀ a, win4_4.index t a = 0 := by decide +kernel

/-- Window 4's block at every point is the whole of its array. -/
theorem iblk4_whole4 (c : Dev nD) (t : Fin cfg4.N) : (iblk4 V c 4 t : Vec Ideal S32x2 .f32) = V c main_arg8 := by
  unfold iblk4
  have hz' : (fun a => win4_4.index t a * main_arg8.ty.shape.size a) = fun _ => 0 :=
    funext fun a => by rw [idx4_4 t a, Nat.zero_mul]
  exact Memref.read_access_unit_zero (Elt Ideal) main_arg8 hz' (fun a => by rw [congrFun hz' a]; simp) (V c main_arg8)

private theorem idx4_5 : ∀ t : Fin cfg4.N, ∀ a, win4_5.index t a = 0 := by decide +kernel

/-- Window 5's block at every point is the whole of its array. -/
theorem iblk4_whole5 (c : Dev nD) (t : Fin cfg4.N) : (iblk4 V c 5 t : Vec Ideal S2 .f32) = V c main_arg9 := by
  unfold iblk4
  have hz' : (fun a => win4_5.index t a * main_arg9.ty.shape.size a) = fun _ => 0 :=
    funext fun a => by rw [idx4_5 t a, Nat.zero_mul]
  exact Memref.read_access_unit_zero (Elt Ideal) main_arg9 hz' (fun a => by rw [congrFun hz' a]; simp) (V c main_arg9)

/-! ## The result array -/

/-- The last grid point. -/
private abbrev t4_19 : Fin cfg4.N := ⟨19, by decide⟩

/-- At the last point the result's staging buffer holds the head of the scratch's contents after that point and of the
    weight arrays as the region found them. -/
theorem outsAt4_last (c : Dev nD) (t : Fin cfg4.N) (h19 : t.val = 19) :
    (outsAt4 V c t.val t.isLt).1
      = headOf (outsAt4 V c t.val t.isLt).2 (V c main_arg6) (V c main_arg7) (V c main_arg8) (V c main_arg9) := by
  have hc0 : ¬cond4_0 (grid4.coords t) := fun h => by have := (hcond4_0 t).mp h; omega
  have hc1 : cond4_1 (grid4.coords t) := (hcond4_1 t).mpr h19
  rw [outsAt4_C V c t (by omega) h19 hc0 hc1]
  dsimp only
  rw [out4_C_eq, iblk4_whole2, iblk4_whole3, iblk4_whole4, iblk4_whole5]

/-- The head of the final scratch contents, as contents of the result array. -/
private abbrev result4 (c : Dev nD) : Buf (Elt Ideal) ((c : Thread nD τ).loc main_v62) :=
  headOf ((outsAt4 (F := Ideal) V c 19 (by rw [show cfg4.N = 20 from N_4]; decide)).2)
    (V c main_arg6) (V c main_arg7) (V c main_arg8) (V c main_arg9)

/-- The one write-back, at the last point, writes it: block (0, 0) of the [1,2] array, read through zero offsets, is the
    array. -/
private theorem flushed_eq4 (c : Dev nD) (t : Fin cfg4.N) (hf : (cfg4.win 6).flush t = true) :
    (dat4 V c).flushed 6 t = ((cfg4.win 6).blk t).view.read (Elt Ideal) (result4 V c) := by
  have hN : cfg4.N = 20 := N_4
  have h19 : t.val = 19 := by have := (flush4_6 t).mp hf; have := t.isLt; omega
  obtain rfl : t = t4_19 := Fin.ext h19
  show (cfg4.win 6).cut (grid4.coords t4_19) ((dat4 V c).after 6 t4_19) = _
  rw [after4_6, outsAt4_last V c t4_19 rfl]
  have hz' : (fun a => win4_6.index t4_19 a * main_v62.ty.shape.size a) = fun _ => 0 :=
    funext fun a => by fin_cases a <;> decide
  exact (Memref.read_access_unit_zero (Elt Ideal) main_v62 hz' (fun a => by rw [congrFun hz' a]; simp) (result4 V c)).symm

/-- Every index of the [1,2] array is in the last point's block. -/
private theorem cover4_6 (i : S1x2.Idx) : i ∈ ((cfg4.win 6).blk t4_19).view.set := by
  show i ∈ ((View.whole main_v62).slice (win4_6.rect t4_19)).set
  rw [View.set_slice_whole, Rect.mem_set_unit]
  intro a
  have h0 : (i 0 : Nat) < 1 := (i 0).isLt
  have h1 : (i 1 : Nat) < 2 := (i 1).isLt
  match a with
  | ⟨0, _⟩ =>
    show win4_6.index t4_19 0 * win4_6.size 0 ≤ (i 0 : Nat)
      ∧ (i 0 : Nat) < win4_6.index t4_19 0 * win4_6.size 0 + win4_6.xsize (grid4.coords t4_19) 0
    rw [show win4_6.index t4_19 0 * win4_6.size 0 = 0 from by decide +kernel,
      show win4_6.xsize (grid4.coords t4_19) 0 = 1 from by decide +kernel]
    omega
  | ⟨1, _⟩ =>
    show win4_6.index t4_19 1 * win4_6.size 1 ≤ (i 1 : Nat)
      ∧ (i 1 : Nat) < win4_6.index t4_19 1 * win4_6.size 1 + win4_6.xsize (grid4.coords t4_19) 1
    rw [show win4_6.index t4_19 1 * win4_6.size 1 = 0 from by decide +kernel,
      show win4_6.xsize (grid4.coords t4_19) 1 = 2 from by decide +kernel]
    omega

/-- So the result array ends holding the head of the scratch's final contents and of the weight arrays as found. -/
theorem final4 (c : Dev nD) :
    (dat4 (F := Ideal) V c).arrAt 6 cfg4.N
      = headOf ((outsAt4 (F := Ideal) V c 19 (by rw [show cfg4.N = 20 from N_4]; decide)).2)
          (V c main_arg6) (V c main_arg7) (V c main_arg8) (V c main_arg9) :=
  (dat4 V c).arrAt_eq_of_cover 6 (result4 V c) (flushed_eq4 V c) fun i =>
    ⟨t4_19, (flush4_6 t4_19).mpr rfl, cover4_6 i⟩

end Cert.KernelIdeal.Hand

end
-- ==== Proof.RefSide.lean ====
/-
  The reference program's run and its stages read at an index, gathered under one import for the modules that compare
  the two programs.
-/
import proofs.«101636_j2104533975212_1_alg».proof.Defs
import proofs.«101636_j2104533975212_1_alg».proof.Proof.RefRunP
import proofs.«101636_j2104533975212_1_alg».proof.Proof.RefReadP
-- ==== Proof.KI.Algebraic.lean ====
/-
  The two idealized programs compute the same [1,2] result. On the kernel program's side the result buffer at the last
  boundary is region 4's write-back: the head applied to the scratch, which holds the 70 sums over all rows of the second
  layer's output and of x; the second layer's output is what the reference computes, stage by stage (each region's result
  array is the reference's stage of the same name, each host stretch is the same operations on both sides); and the head
  applied to those sums is the reference's tail. The weights and x reach region 4 as launched.
-/
import proofs.«101636_j2104533975212_1_alg».proof.Proof.KI.Bridge0
import proofs.«101636_j2104533975212_1_alg».proof.Proof.KI.Bridge1
import proofs.«101636_j2104533975212_1_alg».proof.Proof.KI.Bridge2
import proofs.«101636_j2104533975212_1_alg».proof.Proof.KI.Bridge3
import proofs.«101636_j2104533975212_1_alg».proof.Proof.KI.Glue
import proofs.«101636_j2104533975212_1_alg».proof.Proof.KI.HeadRef
import proofs.«101636_j2104533975212_1_alg».proof.Proof.KI.PoolValue
import proofs.«101636_j2104533975212_1_alg».proof.Proof.KI.PoolFinal
import proofs.«101636_j2104533975212_1_alg».proof.Proof.RefSide

-- membership in a rectangle of 5000 rows is decided by a structural recursion once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.ReadP (val_main_v32 val_main_v45 val_main_v49 val_main_v50 val_main_v63 val_main_v67 val_main_v128)

variable (m : (ℓ : Loc nD τ sig) → Buf (Elt Ideal) ℓ) (ρ : Dev nD → PrngReg)

/-- The second layer's output, as region 4 finds it, is the reference's: region by region and stretch by stretch. -/
theorem h2_eq (c : Dev nD) :
    W9 m ρ c (Proc.devRef .tc main_v61)
      = val_main_v67 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have e32 : W4 m ρ c (Proc.devRef .tc main_v32) = val_main_v32 (F := Ideal) (m ((c : Thread nD τ).loc main_arg0)) (m ((c : Thread nD τ).loc main_arg2)) := by
    refine (W4_arr m ρ c 2).trans ((bridge0 (V3 m ρ) c).trans ?_)
    rw [show V3 m ρ c main_arg0 = m ((c : Thread nD τ).loc main_arg0) from arg_at3 m ρ c main_arg0 (by decide) (by decide) (by decide),
      show V3 m ρ c main_arg2 = m ((c : Thread nD τ).loc main_arg2) from arg_at3 m ρ c main_arg2 (by decide) (by decide) (by decide)]
  have e45 := glue45 m ρ c _ _ e32
  have e46 : W6 m ρ c (Proc.devRef .tc main_v46) = val_main_v49 (F := Ideal) (m ((c : Thread nD τ).loc main_arg0)) (m ((c : Thread nD τ).loc main_arg1))
      (m ((c : Thread nD τ).loc main_arg2)) (m ((c : Thread nD τ).loc main_arg3)) :=
    (W6_arr m ρ c 2).trans (bridge1 (V5 m ρ) c _ _ _ _ e45 (arg_at5 m ρ c main_arg3 (by decide) (by decide) (by decide) (by decide) (by decide)))
  have e47 : W7 m ρ c (Proc.devRef .tc main_v47) = val_main_v50 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) :=
    (W7_arr m ρ c 2).trans (bridge2 (V6 m ρ) c _ _ _ _ _ e46 (arg_at6 m ρ c main_arg4 (by decide) (by decide) (by decide) (by decide) (by decide) (by decide)))
  have e60 := glue60 m ρ c _ _ _ _ e47
  exact (W9_arr m ρ c 2).trans (bridge3 (V8 m ρ) c _ _ _ _ _ _ e60
    (arg_at8 m ρ c main_arg5 (by decide) (by decide) (by decide) (by decide) (by decide) (by decide) (by decide) (by decide)))

/-- The kernel program's result is the reference's. -/
theorem result_eq (c : Dev nD) :
    W10 m ρ c (Proc.devRef .tc main_v62)
      = val_main_v128 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  have a9 : ∀ (b : Ref sig .tc) (h0 : b ∉ hostOps0_W) (h01 : b ∉ hostOps0_1_W) (h02 : b ∉ hostOps0_2_W) (h32 : b ≠ main_v32) (h1 : b ∉ hostOps1_W)
      (h46 : b ≠ main_v46) (h47 : b ≠ main_v47) (h3 : b ∉ hostOps3_W) (h61 : b ≠ main_v61), V9 m ρ c b = m ((c : Thread nD τ).loc b) :=
    fun b h0 h01 h02 h32 h1 h46 h47 h3 h61 => arg_at9 m ρ c b h0 h01 h02 h32 h1 h46 h47 h3 h61
  have hS := poolSums (V9 m ρ) c
  rw [show V9 m ρ c main_v61 = _ from h2_eq m ρ c,
    show V9 m ρ c main_arg0 = _ from a9 main_arg0 (by decide) (by decide) (by decide) (by decide) (by decide) (by decide) (by decide) (by decide) (by decide)] at hS
  refine (W10_arr m ρ c 6).trans ((final4 (V9 m ρ) c).trans ?_)
  rw [show V9 m ρ c main_arg6 = _ from a9 main_arg6 (by decide) (by decide) (by decide) (by decide) (by decide) (by decide) (by decide) (by decide) (by decide),
    show V9 m ρ c main_arg7 = _ from a9 main_arg7 (by decide) (by decide) (by decide) (by decide) (by decide) (by decide) (by decide) (by decide) (by decide),
    show V9 m ρ c main_arg8 = _ from a9 main_arg8 (by decide) (by decide) (by decide) (by decide) (by decide) (by decide) (by decide) (by decide) (by decide),
    show V9 m ρ c main_arg9 = _ from a9 main_arg9 (by decide) (by decide) (by decide) (by decide) (by decide) (by decide) (by decide) (by decide) (by decide)]
  exact head_eq_ref _ _ _ _ _ _ _ _ _ _ _ hS

/-- The kernel program's run with its result named and its arguments unchanged. -/
theorem run_value : θ_run defs (onTc (τ := τ) (main (F := Ideal))) ⟨m, fun _ => 0, ρ⟩ (fun r => ∀ c : Dev nD,
      r.2.mem ((c.tc : Thread nD τ).loc main_v62) = W10 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v62 (by decide)),
      (h c _ (mem_uc main_arg0 (by decide))).trans (W10_unwritten m ρ c main_arg0 (by decide) (by decide) (by decide) (by decide) (by decide) ⟨by decide, by decide, by decide, by decide, by decide⟩),
      (h c _ (mem_uc main_arg1 (by decide))).trans (W10_unwritten m ρ c main_arg1 (by decide) (by decide) (by decide) (by decide) (by decide) ⟨by decide, by decide, by decide, by decide, by decide⟩),
      (h c _ (mem_uc main_arg2 (by decide))).trans (W10_unwritten m ρ c main_arg2 (by decide) (by decide) (by decide) (by decide) (by decide) ⟨by decide, by decide, by decide, by decide, by decide⟩),
      (h c _ (mem_uc main_arg3 (by decide))).trans (W10_unwritten m ρ c main_arg3 (by decide) (by decide) (by decide) (by decide) (by decide) ⟨by decide, by decide, by decide, by decide, by decide⟩),
      (h c _ (mem_uc main_arg4 (by decide))).trans (W10_unwritten m ρ c main_arg4 (by decide) (by decide) (by decide) (by decide) (by decide) ⟨by decide, by decide, by decide, by decide, by decide⟩),
      (h c _ (mem_uc main_arg5 (by decide))).trans (W10_unwritten m ρ c main_arg5 (by decide) (by decide) (by decide) (by decide) (by decide) ⟨by decide, by decide, by decide, by decide, by decide⟩),
      (h c _ (mem_uc main_arg6 (by decide))).trans (W10_unwritten m ρ c main_arg6 (by decide) (by decide) (by decide) (by decide) (by decide) ⟨by decide, by decide, by decide, by decide, by decide⟩),
      (h c _ (mem_uc main_arg7 (by decide))).trans (W10_unwritten m ρ c main_arg7 (by decide) (by decide) (by decide) (by decide) (by decide) ⟨by decide, by decide, by decide, by decide, by decide⟩),
      (h c _ (mem_uc main_arg8 (by decide))).trans (W10_unwritten m ρ c main_arg8 (by decide) (by decide) (by decide) (by decide) (by decide) ⟨by decide, by decide, by decide, by decide, by decide⟩),
      (h c _ (mem_uc main_arg9 (by decide))).trans (W10_unwritten m ρ c main_arg9 (by decide) (by decide) (by decide) (by decide) (by decide) ⟨by decide, by decide, by decide, by decide, by decide⟩)⟩) (run_all m ρ)

end Cert.KernelIdeal.Hand

end
-- ==== Proof.lean ====
/-
  The proof of the certificate's claim. The kernel program (as printed, and idealized) is five pipelined kernel regions
  among stretches of host operations: two graph-convolution layers — a row-blocked linear map, a gather / scale / segment-sum
  on the host, a row-blocked bias and clip at zero — and a pooling kernel that accumulates 70 column sums over 20 row blocks
  in a scratch buffer and applies a small two-layer head at the last block. The reference is the same computation as
  host operations only.
  * The three frames: each program runs to the end, faults nowhere and leaves its arguments as launched (the kernel
    programs: Proof/K/Frame.lean and Proof/KI/Frame.lean, one text at any float instance; the reference: its run).
  * The idealization rewrote one constant, the f32 word nearest 1/100000, into the named rational 1/100000.
  * At exact arithmetic the two results are equal: the layers are the same operations on both sides (a block-wise matrix product
    is the whole product, row by row); a sum over 100000 rows taken in 20 blocks of 5000 is the sum; the head's 70-term
    contraction splits into its first 64 terms and the last six; x / 100000 = x · (1/100000) on every extended real; and the
    logistic function is 1 / (1 + exp(−x)) by definition. Only associativity and commutativity of + are used, so the
    precondition (finite inputs) is never opened.
-/
import proofs.«101636_j2104533975212_1_alg».proof.Defs
import proofs.«101636_j2104533975212_1_alg».proof.Proof.K.Frame
import proofs.«101636_j2104533975212_1_alg».proof.Proof.KI.Frame
import proofs.«101636_j2104533975212_1_alg».proof.Proof.KI.Algebraic
import proofs.«101636_j2104533975212_1_alg».proof.Proof.RefSide
import proofs.«101636_j2104533975212_1_alg».proof.Proof.Gen.Kernel
import proofs.«101636_j2104533975212_1_alg».proof.Proof.Gen.KernelIdeal
import proofs.«101636_j2104533975212_1_alg».proof.Proof.Gen.ReferenceIdeal
import proofs.«101636_j2104533975212_1_alg».proof.Proof.Gen.Pre_finite_inputs
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- The one rewritten constant: the certificate's table gives "inv_100000" the value 1/100000. -/
theorem preserves : Cert.preserves_Kernel_KernelIdeal :=
  IdealRules.named_const.statement Cert.KernelIdeal.κ "inv_100000" .f32 0x3727C5AC#32 ((1 / 100000 : ℝ) : EReal) rfl

theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.W10 m ρ c (Proc.devRef .tc Cert.KernelIdeal.main_v62), Cert.KernelIdeal.Hand.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v128_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1, (hagree c).2.2.2.2.2.2.2.2.2]
  exact (Cert.KernelIdeal.Hand.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
